-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S1024 .f32) (main_arg2 : FVec F S1024 .f32) (main_arg3 : FVec F S1024x3072 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_v13 main_v16
-- ==== Kernel.lean ====
abbrev S4x2048x1024 : Shape := ⟨3, ![4, 2048, 1024]⟩
abbrev S1024 : Shape := ⟨1, ![1024]⟩
abbrev S1024x3072 : Shape := ⟨2, ![1024, 3072]⟩
abbrev S1024x1024 : Shape := ⟨2, ![1024, 1024]⟩
abbrev S8192x1024 : Shape := ⟨2, ![8192, 1024]⟩
abbrev S1x1024 : Shape := ⟨2, ![1, 1024]⟩
abbrev S24x8192x128 : Shape := ⟨3, ![24, 8192, 128]⟩
abbrev S24x1024x128 : Shape := ⟨3, ![24, 1024, 128]⟩
abbrev S1024x1 : Shape := ⟨2, ![1024, 1]⟩
abbrev S1024x128 : Shape := ⟨2, ![1024, 128]⟩
abbrev S1x1024x128 : Shape := ⟨3, ![1, 1024, 128]⟩
abbrev S24x4x2048x128 : Shape := ⟨4, ![24, 4, 2048, 128]⟩
abbrev S1x1x512x128 : Shape := ⟨4, ![1, 1, 512, 128]⟩
abbrev S1x1x2048x128 : Shape := ⟨4, ![1, 1, 2048, 128]⟩
abbrev S1x512x1024 : Shape := ⟨3, ![1, 512, 1024]⟩
abbrev S128x1024 : Shape := ⟨2, ![128, 1024]⟩
abbrev S512x1024 : Shape := ⟨2, ![512, 1024]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1024x3072, .bf16⟩
  | .hbm, ⟨10, _⟩ => ⟨S1024x1024, .bf16⟩
  | .hbm, ⟨11, _⟩ => ⟨S1x1024, .f32⟩
  | .hbm, ⟨12, _⟩ => ⟨S24x8192x128, .bf16⟩
  | .hbm, ⟨13, _⟩ => ⟨S24x4x2048x128, .bf16⟩
  | .hbm, ⟨14, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S24x1024x128, .bf16⟩
  | .local _ .vmem, ⟨6, _⟩ => ⟨S24x1024x128, .bf16⟩
  | .local _ .vmem, ⟨7, _⟩ => ⟨S1x1x512x128, .bf16⟩
  | .local _ .vmem, ⟨8, _⟩ => ⟨S1x1x512x128, .bf16⟩
  | .local _ .vmem, ⟨9, _⟩ => ⟨S1x1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S1x1x2048x128, .bf16⟩
  | .local _ .vmem, ⟨13, _⟩ => ⟨S1x512x1024, .f32⟩
  | .local _ .vmem, ⟨14, _⟩ => ⟨S1x512x1024, .f32⟩
  | .local _ .vmem, ⟨15, _⟩ => ⟨S128x1024, .bf16⟩
  | .local _ .vmem, ⟨16, _⟩ => ⟨S128x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S24x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v33 : BitVec 1 := Scalar.cmpi .eq arg2 c7_i32
  let v34 : BitVec 32 := Scalar.extui v33
  let c0_i32_23 : BitVec 32 := 0#32
  let v35 : BitVec 1 := Scalar.cmpi .ne v34 c0_i32_23
  v35

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  let c0_i32_1 : BitVec 32 := 0#32
  ![v0.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  let c0_i32_1 : BitVec 32 := 0#32
  ![v0.toNat, arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  shapeCasts_S1024_S1x1024 : S1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S1024x3072_o0_0_S1024x128 : S1024x3072.Slices ![0, 0] S1024x128
  inb_S24x1024x128_S1x1024x128_0_0_0 : ∀ a, (![0, 0, 0] : Fin 3 → Nat) a + S1x1024x128.size a ≤ S24x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S24x1024x128_S1x1024x128_0_0_0 : (Rect.unit (s := S24x1024x128) ![0, 0, 0] S1x1024x128.size inb_S24x1024x128_S1x1024x128_0_0_0).PackedRows (EltTy.packing .bf16)
  slices_S1024x3072_o0_128_S1024x128 : S1024x3072.Slices ![0, 128] S1024x128
  inb_S24x1024x128_S1x1024x128_1_0_0 : ∀ a, (![1, 0, 0] : Fin 3 → Nat) a + S1x1024x128.size a ≤ S24x1024x128.size a
  packedbf16_S24x1024x128_S1x1024x128_1_0_0 : (Rect.unit (s := S24x1024x128) ![1, 0, 0] S1x1024x128.size inb_S24x1024x128_S1x1024x128_1_0_0).PackedRows (EltTy.packing .bf16)
  slices_S1024x3072_o0_256_S1024x128 : S1024x3072.Slices ![0, 256] S1024x128
  inb_S24x1024x128_S1x1024x128_2_0_0 : ∀ a, (![2, 0, 0] : Fin 3 → Nat) a + S1x1024x128.size a ≤ S24x1024x128.size a
  packedbf16_S24x1024x128_S1x1024x128_2_0_0 : (Rect.unit (s := S24x1024x128) ![2, 0, 0] S1x1024x128.size inb_S24x1024x128_S1x1024x128_2_0_0).PackedRows (EltTy.packing .bf16)
  slices_S1024x3072_o0_384_S1024x128 : S1024x3072.Slices ![0, 384] S1024x128
  inb_S24x1024x128_S1x1024x128_3_0_0 : ∀ a, (![3, 0, 0] : Fin 3 → Nat) a + S1x1024x128.size a ≤ S24x1024x128.size a
  packedbf16_S24x1024x128_S1x1024x128_3_0_0 : (Rect.unit (s := S24x1024x128) ![3, 0, 0] S1x1024x128.size inb_S24x1024x128_S1x1024x128_3_0_0).PackedRows (EltTy.packing .bf16)
  slices_S1024x3072_o0_512_S1024x128 : S1024x3072.Slices ![0, 512] S1024x128
  inb_S24x1024x128_S1x1024x128_4_0_0 : ∀ a, (![4, 0, 0] : Fin 3 → Nat) a + S1x1024x128.size a ≤ S24x1024x128.size a
  packedbf16_S24x1024x128_S1x1024x128_4_0_0 : (Rect.unit (s := S24x1024x128) ![4, 0, 0] S1x1024x128.size inb_S24x1024x128_S1x1024x128_4_0_0).PackedRows (EltTy.packing .bf16)
  slices_S1024x3072_o0_640_S1024x128 : S1024x3072.Slices ![0, 640] S1024x128
  inb_S24x1024x128_S1x1024x128_5_0_0 : ∀ a, (![5, 0, 0] : Fin 3 → Nat) a + S1x1024x128.size a ≤ S24x1024x128.size a
  packedbf16_S24x1024x128_S1x1024x128_5_0_0 : (Rect.unit (s := S24x1024x128) ![5, 0, 0] S1x1024x128.size inb_S24x1024x128_S1x1024x128_5_0_0).PackedRows (EltTy.packing .bf16)
  slices_S1024x3072_o0_768_S1024x128 : S1024x3072.Slices ![0, 768] S1024x128
  inb_S24x1024x128_S1x1024x128_6_0_0 : ∀ a, (![6, 0, 0] : Fin 3 → Nat) a + S1x1024x128.size a ≤ S24x1024x128.size a
  packedbf16_S24x1024x128_S1x1024x128_6_0_0 : (Rect.unit (s := S24x1024x128) ![6, 0, 0] S1x1024x128.size inb_S24x1024x128_S1x1024x128_6_0_0).PackedRows (EltTy.packing .bf16)
  slices_S1024x3072_o0_896_S1024x128 : S1024x3072.Slices ![0, 896] S1024x128
  inb_S24x1024x128_S1x1024x128_7_0_0 : ∀ a, (![7, 0, 0] : Fin 3 → Nat) a + S1x1024x128.size a ≤ S24x1024x128.size a
  packedbf16_S24x1024x128_S1x1024x128_7_0_0 : (Rect.unit (s := S24x1024x128) ![7, 0, 0] S1x1024x128.size inb_S24x1024x128_S1x1024x128_7_0_0).PackedRows (EltTy.packing .bf16)
  slices_S1024x3072_o0_1024_S1024x128 : S1024x3072.Slices ![0, 1024] S1024x128
  inb_S24x1024x128_S1x1024x128_8_0_0 : ∀ a, (![8, 0, 0] : Fin 3 → Nat) a + S1x1024x128.size a ≤ S24x1024x128.size a
  packedbf16_S24x1024x128_S1x1024x128_8_0_0 : (Rect.unit (s := S24x1024x128) ![8, 0, 0] S1x1024x128.size inb_S24x1024x128_S1x1024x128_8_0_0).PackedRows (EltTy.packing .bf16)
  slices_S1024x3072_o0_1152_S1024x128 : S1024x3072.Slices ![0, 1152] S1024x128
  inb_S24x1024x128_S1x1024x128_9_0_0 : ∀ a, (![9, 0, 0] : Fin 3 → Nat) a + S1x1024x128.size a ≤ S24x1024x128.size a
  packedbf16_S24x1024x128_S1x1024x128_9_0_0 : (Rect.unit (s := S24x1024x128) ![9, 0, 0] S1x1024x128.size inb_S24x1024x128_S1x1024x128_9_0_0).PackedRows (EltTy.packing .bf16)
  slices_S1024x3072_o0_1280_S1024x128 : S1024x3072.Slices ![0, 1280] S1024x128
  inb_S24x1024x128_S1x1024x128_10_0_0 : ∀ a, (![10, 0, 0] : Fin 3 → Nat) a + S1x1024x128.size a ≤ S24x1024x128.size a
  packedbf16_S24x1024x128_S1x1024x128_10_0_0 : (Rect.unit (s := S24x1024x128) ![10, 0, 0] S1x1024x128.size inb_S24x1024x128_S1x1024x128_10_0_0).PackedRows (EltTy.packing .bf16)
  slices_S1024x3072_o0_1408_S1024x128 : S1024x3072.Slices ![0, 1408] S1024x128
  inb_S24x1024x128_S1x1024x128_11_0_0 : ∀ a, (![11, 0, 0] : Fin 3 → Nat) a + S1x1024x128.size a ≤ S24x1024x128.size a
  packedbf16_S24x1024x128_S1x1024x128_11_0_0 : (Rect.unit (s := S24x1024x128) ![11, 0, 0] S1x1024x128.size inb_S24x1024x128_S1x1024x128_11_0_0).PackedRows (EltTy.packing .bf16)
  slices_S1024x3072_o0_1536_S1024x128 : S1024x3072.Slices ![0, 1536] S1024x128
  inb_S24x1024x128_S1x1024x128_12_0_0 : ∀ a, (![12, 0, 0] : Fin 3 → Nat) a + S1x1024x128.size a ≤ S24x1024x128.size a
  packedbf16_S24x1024x128_S1x1024x128_12_0_0 : (Rect.unit (s := S24x1024x128) ![12, 0, 0] S1x1024x128.size inb_S24x1024x128_S1x1024x128_12_0_0).PackedRows (EltTy.packing .bf16)
  slices_S1024x3072_o0_1664_S1024x128 : S1024x3072.Slices ![0, 1664] S1024x128
  inb_S24x1024x128_S1x1024x128_13_0_0 : ∀ a, (![13, 0, 0] : Fin 3 → Nat) a + S1x1024x128.size a ≤ S24x1024x128.size a
  packedbf16_S24x1024x128_S1x1024x128_13_0_0 : (Rect.unit (s := S24x1024x128) ![13, 0, 0] S1x1024x128.size inb_S24x1024x128_S1x1024x128_13_0_0).PackedRows (EltTy.packing .bf16)
  slices_S1024x3072_o0_1792_S1024x128 : S1024x3072.Slices ![0, 1792] S1024x128
  inb_S24x1024x128_S1x1024x128_14_0_0 : ∀ a, (![14, 0, 0] : Fin 3 → Nat) a + S1x1024x128.size a ≤ S24x1024x128.size a
  packedbf16_S24x1024x128_S1x1024x128_14_0_0 : (Rect.unit (s := S24x1024x128) ![14, 0, 0] S1x1024x128.size inb_S24x1024x128_S1x1024x128_14_0_0).PackedRows (EltTy.packing .bf16)
  slices_S1024x3072_o0_1920_S1024x128 : S1024x3072.Slices ![0, 1920] S1024x128
  inb_S24x1024x128_S1x1024x128_15_0_0 : ∀ a, (![15, 0, 0] : Fin 3 → Nat) a + S1x1024x128.size a ≤ S24x1024x128.size a
  packedbf16_S24x1024x128_S1x1024x128_15_0_0 : (Rect.unit (s := S24x1024x128) ![15, 0, 0] S1x1024x128.size inb_S24x1024x128_S1x1024x128_15_0_0).PackedRows (EltTy.packing .bf16)
  slices_S1024x3072_o0_2048_S1024x128 : S1024x3072.Slices ![0, 2048] S1024x128
  inb_S24x1024x128_S1x1024x128_16_0_0 : ∀ a, (![16, 0, 0] : Fin 3 → Nat) a + S1x1024x128.size a ≤ S24x1024x128.size a
  packedbf16_S24x1024x128_S1x1024x128_16_0_0 : (Rect.unit (s := S24x1024x128) ![16, 0, 0] S1x1024x128.size inb_S24x1024x128_S1x1024x128_16_0_0).PackedRows (EltTy.packing .bf16)
  slices_S1024x3072_o0_2176_S1024x128 : S1024x3072.Slices ![0, 2176] S1024x128
  inb_S24x1024x128_S1x1024x128_17_0_0 : ∀ a, (![17, 0, 0] : Fin 3 → Nat) a + S1x1024x128.size a ≤ S24x1024x128.size a
  packedbf16_S24x1024x128_S1x1024x128_17_0_0 : (Rect.unit (s := S24x1024x128) ![17, 0, 0] S1x1024x128.size inb_S24x1024x128_S1x1024x128_17_0_0).PackedRows (EltTy.packing .bf16)
  slices_S1024x3072_o0_2304_S1024x128 : S1024x3072.Slices ![0, 2304] S1024x128
  inb_S24x1024x128_S1x1024x128_18_0_0 : ∀ a, (![18, 0, 0] : Fin 3 → Nat) a + S1x1024x128.size a ≤ S24x1024x128.size a
  packedbf16_S24x1024x128_S1x1024x128_18_0_0 : (Rect.unit (s := S24x1024x128) ![18, 0, 0] S1x1024x128.size inb_S24x1024x128_S1x1024x128_18_0_0).PackedRows (EltTy.packing .bf16)
  slices_S1024x3072_o0_2432_S1024x128 : S1024x3072.Slices ![0, 2432] S1024x128
  inb_S24x1024x128_S1x1024x128_19_0_0 : ∀ a, (![19, 0, 0] : Fin 3 → Nat) a + S1x1024x128.size a ≤ S24x1024x128.size a
  packedbf16_S24x1024x128_S1x1024x128_19_0_0 : (Rect.unit (s := S24x1024x128) ![19, 0, 0] S1x1024x128.size inb_S24x1024x128_S1x1024x128_19_0_0).PackedRows (EltTy.packing .bf16)
  slices_S1024x3072_o0_2560_S1024x128 : S1024x3072.Slices ![0, 2560] S1024x128
  inb_S24x1024x128_S1x1024x128_20_0_0 : ∀ a, (![20, 0, 0] : Fin 3 → Nat) a + S1x1024x128.size a ≤ S24x1024x128.size a
  packedbf16_S24x1024x128_S1x1024x128_20_0_0 : (Rect.unit (s := S24x1024x128) ![20, 0, 0] S1x1024x128.size inb_S24x1024x128_S1x1024x128_20_0_0).PackedRows (EltTy.packing .bf16)
  slices_S1024x3072_o0_2688_S1024x128 : S1024x3072.Slices ![0, 2688] S1024x128
  inb_S24x1024x128_S1x1024x128_21_0_0 : ∀ a, (![21, 0, 0] : Fin 3 → Nat) a + S1x1024x128.size a ≤ S24x1024x128.size a
  packedbf16_S24x1024x128_S1x1024x128_21_0_0 : (Rect.unit (s := S24x1024x128) ![21, 0, 0] S1x1024x128.size inb_S24x1024x128_S1x1024x128_21_0_0).PackedRows (EltTy.packing .bf16)
  slices_S1024x3072_o0_2816_S1024x128 : S1024x3072.Slices ![0, 2816] S1024x128
  inb_S24x1024x128_S1x1024x128_22_0_0 : ∀ a, (![22, 0, 0] : Fin 3 → Nat) a + S1x1024x128.size a ≤ S24x1024x128.size a
  packedbf16_S24x1024x128_S1x1024x128_22_0_0 : (Rect.unit (s := S24x1024x128) ![22, 0, 0] S1x1024x128.size inb_S24x1024x128_S1x1024x128_22_0_0).PackedRows (EltTy.packing .bf16)
  slices_S1024x3072_o0_2944_S1024x128 : S1024x3072.Slices ![0, 2944] S1024x128
  inb_S24x1024x128_S1x1024x128_23_0_0 : ∀ a, (![23, 0, 0] : Fin 3 → Nat) a + S1x1024x128.size a ≤ S24x1024x128.size a
  packedbf16_S24x1024x128_S1x1024x128_23_0_0 : (Rect.unit (s := S24x1024x128) ![23, 0, 0] S1x1024x128.size inb_S24x1024x128_S1x1024x128_23_0_0).PackedRows (EltTy.packing .bf16)
  shapeCasts_S24x8192x128_S24x4x2048x128 : S24x8192x128.ShapeCasts S24x4x2048x128
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S1024x3072_S1024x3072_1_0_0_1_n_n_wf : DotDims.WF S1024x1024 S1024x3072 S1024x3072 [1] [0] [0] [1] [] []
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S24x1024x128.size a ≤ S24x8192x128.size a
  hwx0_4 : ∀ i : grid0.Coords, EltTy.bits .bf16 = 32 ∨ (Rect.block (s := S24x8192x128) S24x1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x128.size a ≤ S24x4x2048x128.size a
  hwx1_0 : ∀ i : grid1.Coords, EltTy.bits .bf16 = 32 ∨ (Rect.block (s := S24x4x2048x128) S1x1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x128.size a ≤ S24x4x2048x128.size a
  hwx1_1 : ∀ i : grid1.Coords, EltTy.bits .bf16 = 32 ∨ (Rect.block (s := S24x4x2048x128) S1x1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x128.size a ≤ S24x4x2048x128.size a
  hwx1_2 : ∀ i : grid1.Coords, EltTy.bits .bf16 = 32 ∨ (Rect.block (s := S24x4x2048x128) S1x1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S1024x1024.size a
  hwx1_4 : ∀ i : grid1.Coords, EltTy.bits .bf16 = 32 ∨ (Rect.block (s := S1024x1024) S128x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x2048x1024.size a
  hwx1_6 : ∀ i : grid1.Coords, EltTy.bits .f32 = 32 ∨ (Rect.block (s := S4x2048x1024) S1x512x1024.size (cc1_transform_6 i) (hinb1_6 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S24x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S1x1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3072 : Shape := ⟨3, ![4, 2048, 3072]⟩
abbrev S4x2048x3x8x128 : Shape := ⟨5, ![4, 2048, 3, 8, 128]⟩
abbrev S3x4x8x2048x128 : Shape := ⟨5, ![3, 4, 8, 2048, 128]⟩
abbrev S1x4x8x2048x128 : Shape := ⟨5, ![1, 4, 8, 2048, 128]⟩
abbrev S4x8x2048x128 : Shape := ⟨4, ![4, 8, 2048, 128]⟩
abbrev S4x8x2048x2048 : Shape := ⟨4, ![4, 8, 2048, 2048]⟩
abbrev S4x8x2048 : Shape := ⟨3, ![4, 8, 2048]⟩
abbrev S4x8x2048x1 : Shape := ⟨4, ![4, 8, 2048, 1]⟩
abbrev S4x2048x8x128 : Shape := ⟨4, ![4, 2048, 8, 128]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x3072, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .i32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | .hbm, ⟨50, _⟩ => ⟨S4x2048x3072, .f32⟩
  | .hbm, ⟨51, _⟩ => ⟨S4x2048x3x8x128, .f32⟩
  | .hbm, ⟨52, _⟩ => ⟨S3x4x8x2048x128, .f32⟩
  | .hbm, ⟨53, _⟩ => ⟨S1x4x8x2048x128, .f32⟩
  | .hbm, ⟨54, _⟩ => ⟨S4x8x2048x128, .f32⟩
  | .hbm, ⟨55, _⟩ => ⟨S1x4x8x2048x128, .f32⟩
  | .hbm, ⟨56, _⟩ => ⟨S4x8x2048x128, .f32⟩
  | .hbm, ⟨57, _⟩ => ⟨S1x4x8x2048x128, .f32⟩
  | .hbm, ⟨58, _⟩ => ⟨S4x8x2048x128, .f32⟩
  | .hbm, ⟨59, _⟩ => ⟨S4x8x2048x2048, .f32⟩
  | .hbm, ⟨60, _⟩ => ⟨S_, .f32⟩
  | .hbm, ⟨61, _⟩ => ⟨S4x8x2048x2048, .f32⟩
  | .hbm, ⟨62, _⟩ => ⟨S4x8x2048x2048, .f32⟩
  | .hbm, ⟨63, _⟩ => ⟨S_, .f32⟩
  | .hbm, ⟨64, _⟩ => ⟨S4x8x2048, .f32⟩
  | .hbm, ⟨65, _⟩ => ⟨S_, .f32⟩
  | .hbm, ⟨66, _⟩ => ⟨S4x8x2048, .f32⟩
  | .hbm, ⟨67, _⟩ => ⟨S4x8x2048, .f32⟩
  | .hbm, ⟨68, _⟩ => ⟨S4x8x2048x1, .f32⟩
  | .hbm, ⟨69, _⟩ => ⟨S4x8x2048x2048, .f32⟩
  | .hbm, ⟨70, _⟩ => ⟨S4x8x2048x2048, .f32⟩
  | .hbm, ⟨71, _⟩ => ⟨S4x8x2048x2048, .f32⟩
  | .hbm, ⟨72, _⟩ => ⟨S_, .f32⟩
  | .hbm, ⟨73, _⟩ => ⟨S4x8x2048, .f32⟩
  | .hbm, ⟨74, _⟩ => ⟨S4x8x2048x1, .f32⟩
  | .hbm, ⟨75, _⟩ => ⟨S4x8x2048x2048, .f32⟩
  | .hbm, ⟨76, _⟩ => ⟨S4x8x2048x2048, .f32⟩
  | .hbm, ⟨77, _⟩ => ⟨S4x8x2048x128, .f32⟩
  | .hbm, ⟨78, _⟩ => ⟨S4x2048x8x128, .f32⟩
  | .hbm, ⟨79, _⟩ => ⟨S4x2048x1024, .f32⟩
  | .hbm, ⟨80, _⟩ => ⟨S4x2048x1024, .f32⟩
  | .hbm, ⟨81, _⟩ => ⟨S1x1x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_2 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x3072_S4x2048x3x8x128 : S4x2048x3072.ShapeCasts S4x2048x3x8x128
  transposes_S4x2048x3x8x128_S3x4x8x2048x128_2_0_3_1_4 : S4x2048x3x8x128.Transposes [2, 0, 3, 1, 4] S3x4x8x2048x128
  slices_S3x4x8x2048x128_S1x4x8x2048x128_0_0_0_0_0 : S3x4x8x2048x128.Slices ![0, 0, 0, 0, 0] S1x4x8x2048x128
  shapeCasts_S1x4x8x2048x128_S4x8x2048x128 : S1x4x8x2048x128.ShapeCasts S4x8x2048x128
  slices_S3x4x8x2048x128_S1x4x8x2048x128_1_0_0_0_0 : S3x4x8x2048x128.Slices ![1, 0, 0, 0, 0] S1x4x8x2048x128
  slices_S3x4x8x2048x128_S1x4x8x2048x128_2_0_0_0_0 : S3x4x8x2048x128.Slices ![2, 0, 0, 0, 0] S1x4x8x2048x128
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x128_S4x2048x8x128_0_2_1_3 : S4x8x2048x128.Transposes [0, 2, 1, 3] S4x2048x8x128
  shapeCasts_S4x2048x8x128_S4x2048x1024 : S4x2048x8x128.ShapeCasts S4x2048x1024
  dot_S4x2048x1024_S1024x3072_S4x2048x3072_2_0_01_1_n_n_wf : DotDims.WF S4x2048x1024 S1024x3072 S4x2048x3072 [2] [0] [0, 1] [1] [] []
  dot_S4x8x2048x128_S4x8x2048x128_S4x8x2048x2048_3_3_2_2_01_01_wf : DotDims.WF S4x8x2048x128 S4x8x2048x128 S4x8x2048x2048 [3] [3] [2] [2] [0, 1] [0, 1]
  dot_S4x8x2048x2048_S4x8x2048x128_S4x8x2048x128_3_2_2_3_01_01_wf : DotDims.WF S4x8x2048x2048 S4x8x2048x128 S4x8x2048x128 [3] [2] [2] [3] [0, 1] [0, 1]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x8x2048x128_S4x8x2048x128_S4x8x2048x2048_3_3_2_2_01_01 : DotDims S4x8x2048x128 S4x8x2048x128 S4x8x2048x2048 where
  lhsContracting := [3]
  rhsContracting := [3]
  lhsNonContracting := [2]
  rhsNonContracting := [2]
  lhsBatch := [0, 1]
  rhsBatch := [0, 1]
  wf := dot_S4x8x2048x128_S4x8x2048x128_S4x8x2048x2048_3_3_2_2_01_01_wf
def dot_S4x8x2048x2048_S4x8x2048x128_S4x8x2048x128_3_2_2_3_01_01 : DotDims S4x8x2048x2048 S4x8x2048x128 S4x8x2048x128 where
  lhsContracting := [3]
  rhsContracting := [2]
  lhsNonContracting := [2]
  rhsNonContracting := [3]
  lhsBatch := [0, 1]
  rhsBatch := [0, 1]
  wf := dot_S4x8x2048x2048_S4x8x2048x128_S4x8x2048x128_3_2_2_3_01_01_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.KB0Run.lean ====
/-
  Kernel 0 (LayerNorm and the projection onto 3072 columns) on whole staging memrefs.

  The body reads its four input blocks whole, once each, and writes the output block of shape 24 x 1024 x 128 as
  24 slabs [k, :, :], k = 0 .. 23; before each store it reads the slab it is about to overwrite and discards the
  value read. Run symbolically, the body leaves the inputs as they were and the output buffer with a list of pieces
  written into it, one per store, last first. That list is the witness of the subtype below: the run finds it.
  The 24 slabs tile the block, so the pieces cover it, and what the buffer holds afterwards does not depend on what
  it held before: it is the pieces read back over arbitrary contents.
-/
import proofs.«165050_j14989435863585_2_alg».proof.Proof.Gen.Kernel.Launch
import proofs.«165050_j14989435863585_2_alg».proof.Proof.Gen.Kernel.Skeleton
import proofs.«165050_j14989435863585_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion, one step per coordinate of the
-- long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which the block's contents are stated: a vector read back
    through a whole memref of the shape is the same through any other. -/
abbrev VO0_4 : View sig .tc .vmem S24x1024x128 .bf16 := (Memref.whole cc0_stg4_0 : Memref sig .tc .vmem S24x1024x128 .bf16).view

set_option maxHeartbeats 4000000 in
/-- The pieces the body's 24 stores leave in the output block, last first, WITH the proof that on whole memrefs, the
    four inputs at contents `x0 .. x3` and the output at anything, the body runs to a continuation that holds the inputs
    as they were and the output buffer with those pieces written over what it held. -/
noncomputable def kernelRun0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) :
    { L4 : List (View.Piece (Elt F) S24x1024x128 .bf16) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__ln_qkv_kernel i arg1 harg1 arg2 harg2 arg3 harg3 arg4 harg4 arg5 harg5) K } := by
  refine ⟨?_, fun E K => ?run⟩
  case run =>
    simp only [cc0__ln_qkv_kernel_eq_skeleton]; unfold cc0__ln_qkv_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The pieces tile the block (24 slabs of one row of the leading axis each), so every index of it lies in one. -/
theorem cover0_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) (y : S24x1024x128.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1 S1x1024x128.size (by sl_kernel_rfl) y

/-- What the body leaves in the output block: its pieces read back over arbitrary contents. -/
def out0_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) : Vec F S24x1024x128 .bf16 :=
  VO0_4.read (Elt F) (VO0_4.writes (Elt F) VO0_4.junk (kernelRun0 c i arg1 harg1 arg2 harg2 arg3 harg3 arg4 harg4 arg5 harg5 x0 x1 x2 x3).1)

end Cert.Kernel.Hand

end
-- ==== Proof.KB0Body.lean ====
/-
  Kernel 0 as a pipeline body: the proof data of its pipeline and the body obligation, at a PARAMETER `V`, the
  TensorCore's buffer contents when the region is entered.

  The pipeline has four input windows (the block of 1024 rows, fetched at every point; the two LayerNorm vectors and
  the projection matrix, fetched at the first point only) and one output window, written back at every point. The
  body carries nothing from one point to the next, so the invariant is constant: the scoped rest and the generator
  register, untouched. After the body at point `t` each input's buffer holds its block, as before, and the output's
  holds `out0_4` of the four input blocks.
-/
import proofs.«165050_j14989435863585_2_alg».proof.Proof.KB0Run
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved, so the block the buffer still holds is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: where the window is not fetched its block index has
    not moved, so the block the buffer still holds is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: where the window is not fetched its block index has
    not moved, so the block the buffer still holds is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: where the window is not fetched its block index has
    not moved, so the block the buffer still holds is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and the output's at `out0_4` of the input blocks; the invariant constant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point: the inputs' memrefs hold their blocks, so the run applies; the invariant and what the core owes
    pass through unread; the output's buffer, handed over at anything, comes back with the run's pieces written, which
    cover it, so it reads `out0_4`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB1Runs.lean ====
/-
  The attention kernel's control, decided over its grid of 4 × 4 × 8 points (batch, query tile, head; the head
  the fastest axis, so a point `t` is at head `t mod 8`).

  The body has two conditionals on the head: at head 0 it clears the 512 × 1024 accumulator it keeps between
  points, and at head 7 it adds the bias and the input tile to the accumulator and stores the output tile. So there
  are three control cases: the first head (clear, then accumulate), the middle heads (accumulate), the last head
  (accumulate, then store). The output tile's buffer is left alone, and not written back, at every point but
  a last head's.
-/
import proofs.«165050_j14989435863585_2_alg».proof.Proof.Gen.Kernel.Launch
import proofs.«165050_j14989435863585_2_alg».proof.Proof.Gen.Kernel.Skeleton
import proofs.«165050_j14989435863585_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This point is at head 0", as the body computes it from the grid coordinates. -/
abbrev cond1_0 (i : grid1.Coords) : Prop :=
  (Scalar.cmpi .ne (Scalar.extui (Scalar.cmpi .eq (BitVec.ofNat 32 (i 2).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This point is at head 7", as the body computes it. -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At a first head the output tile's buffer is idle and is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At a middle head likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At a last head the body stores into it. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1x512x1024 .f32 := (Memref.whole cc1_stg6_0 : Memref sig .tc .vmem S1x512x1024 .f32).view
abbrev ms1_0 (t : Fin cfg1.N) : Memref sig .tc .vmem S1x1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S512x1024 .f32 := Memref.whole cc1_scratch0
/-- The accumulator as a view: what it holds is stated through it. -/
abbrev VS1_0 : View sig .tc .vmem S512x1024 .f32 := scM1_0.view

end Cert.Kernel.Hand

end
-- ==== Proof.KB1RunA.lean ====
/-
  The attention kernel's body at a FIRST head (head 0): it clears the accumulator, then adds this head's projected
  context to it. The output tile's buffer is not touched. What the stores leave in the accumulator is found by running
  the body symbolically.
-/
import proofs.«165050_j14989435863585_2_alg».proof.Proof.KB1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case (it stores nothing into the output tile's buffer,
    which it hands back as it found it), with the proof that the body runs to the continuation holding the inputs as they
    were, the output tile's buffer untouched and the accumulator with those pieces written. -/
noncomputable def kernelRun1_A (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i)
    (x0 : Vec F S1x1x512x128 .bf16) (x1 x2 : Vec F S1x1x2048x128 .bf16) (x3 : Vec F S1x512x1024 .f32) (x4 : Vec F S128x1024 .bf16) (x5 : Vec F S1x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.KB1RunB.lean ====
/-
  The attention kernel's body at a MIDDLE head (heads 1 to 6): it adds this head's projected context to the
  accumulator the head before left. The output tile's buffer is not touched. What the store leaves in the accumulator is
  found by running the body symbolically.
-/
import proofs.«165050_j14989435863585_2_alg».proof.Proof.KB1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case (it stores nothing into the output tile's buffer,
    which it hands back as it found it), with the proof that the body runs to the continuation holding the inputs as they
    were, the output tile's buffer untouched and the accumulator with those pieces written. -/
noncomputable def kernelRun1_B (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i)
    (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Hand

end
-- ==== Proof.KB1RunC.lean ====
/-
  The attention kernel's body at a LAST head (head 7): it adds this head's projected context to the accumulator,
  then stores accumulator + bias + input tile into the output tile. What the stores leave in the output tile's
  buffer and in the accumulator is found by running the body symbolically.
-/
import proofs.«165050_j14989435863585_2_alg».proof.Proof.KB1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's buffer and in the accumulator at a last head, with the proof
    that from the inputs' buffers at their contents, the output's at anything and the accumulator at what the head before
    left, the body runs to the continuation holding the inputs as they were and the two buffers with those pieces written. -/
noncomputable def kernelRun1_C (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i)
    (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    Σ' (L6 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Hand

end
-- ==== Proof.KB1Body.lean ====
/-
  The attention kernel as a pipeline: what its buffers hold after each grid point, and the body's obligation.

  The grid runs the eight heads of one (batch, query tile) consecutively. The accumulator holds, after the point at head
  `h`, the sum over the heads up to `h` of each head's context projected by its 128 rows of the output weights — it is
  cleared at head 0, so it never depends on the previous tile. The output tile's buffer is stored only at head 7 (the
  accumulator plus the bias plus the input tile) and written back only there. This module names those contents by
  recursion on the point (`outsAt1`), states the region's invariant carrying the accumulator between points (`PhiS1`),
  and proves the body's obligation at every point from the three case runs.

  Everything is stated at a parameter `V`, the buffers' contents when the region is entered. The query, key and value
  windows read ONE array (the projected activations); the region holds that array's full share split in three.
-/
import proofs.«165050_j14989435863585_2_alg».proof.Proof.KB1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

def out1_A_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) : Vec F S1x512x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)
theorem scover1_A_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S512x1024.size (by sl_kernel_rfl) y
def sout1_A_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

def out1_B_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S1x512x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)
theorem scover1_B_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S512x1024.size (by sl_kernel_rfl) y
def sout1_B_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

def out1_C_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S1x512x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)
theorem scover1_C_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S512x1024.size (by sl_kernel_rfl) y
def sout1_C_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)
theorem cover1_C_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S1x512x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1x512x1024.size (by sl_kernel_rfl) y

/-! ## What the output tile's buffer and the accumulator hold after each point -/

/-- After the body at position `n`: (the output tile's buffer, the accumulator). The case the point's head selects, run at
    the point's memrefs and input blocks; a middle or last head starts from the accumulator the point before left. -/
def outsAt1 (c : Dev nD) : (n : ℕ) → n < cfg1.N → Vec F S1x512x1024 .f32 × Vec F S512x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a first head: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a middle head: that case's contents, over the accumulator the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last head: that case's contents, over the accumulator the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are no staging buffer of this kernel — the other kernel's seven staging buffers, each
    at some contents — beside the accumulator in the state `S`. -/
def scRest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The class invariant (every scoped buffer no window stages at some contents, the generator register at some state) with
    the accumulator as a memref owned at some contents. -/
theorem PhiA1_eq (c : Dev nD) :
    (Pipeline.ΦA spec1 c : sProp 𝕄) = iprop(scRest1 c iprop(∃ d, owns (c : Thread nD τ) scM1_0 fullShare d) ∗ (∃ r, prngReg c r)) := by
  unfold Pipeline.ΦA scRest1; rw [scopedRest1_eq]; simp only [scM1_0, owns_whole]; try rfl

/-- The invariant before position `n`: before the first point the class's; afterwards the accumulator at what the point
    before left in it. -/
def PhiS1 (c : Dev nD) : (n : ℕ) → n ≤ cfg1.N → sProp 𝕄
  | 0, _ => Pipeline.ΦA spec1 c
  | n + 1, hn => iprop(scRest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scRest1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(scRest1 c (owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as the region finds them; after the body each input's buffer at its
    block, the output tile's at `outsAt1`; the invariant `PhiS1`; nothing owed; the shared array's full share dealt to the
    query, key and value windows as its left half and the two halves of its right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the head decides the case; the invariant hands the body
    the accumulator at what the point before left (at anything before a first head) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  unfold scRest1
  iintro ⟨⟨R1, R2, R3, R4, R5, R6, R7, HS0⟩, Hg⟩
  isplitl [R1 R2 R3 R4 R5 R6 R7 HS0]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

end Cert.Kernel.Hand

end
-- ==== Proof.KB1Arrays.lean ====
/-
  The attention kernel's arrays at the region's two ends.

  Its seven windows stand on FIVE buffers: the query, key and value windows all read the projected activations. The region
  is handed each of the five buffers whole; the pipeline wants each WINDOW's array at a share of its own. So at entry the
  shared buffer's full share is dealt in three (its left half, and the two halves of its right half), and at exit the three
  are joined again — all three still hold the entry contents, for no window on that buffer is an output.
-/
import proofs.«165050_j14989435863585_2_alg».proof.Proof.KB1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each whole at its share. -/
theorem arrays1_eq (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The five buffers behind the windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v7) ↦{fullShare} V' main_v7) ∗ (((c : Thread nD τ).loc main_arg0) ↦{fullShare} V' main_arg0)
          ∗ (((c : Thread nD τ).loc main_v4) ↦{fullShare} V' main_v4) ∗ (((c : Thread nD τ).loc main_v5) ↦{fullShare} V' main_v5)
          ∗ (((c : Thread nD τ).loc main_v8) ↦{fullShare} V' main_v8)) := by
  unfold Pipeline.arrBufs
  rw [bigSep_eq_bigSepL_of_eq [main_v7, main_arg0, main_v4, main_v5, main_v8] (by decide) (by decide)]
  rfl

/-- ENTRY: the five buffers at contents `V'` make the windows' arrays at `V'`, the shared buffer's share dealt in three. -/
theorem arrays1_split (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrays1_eq, arrBufs1_eq, bigSep_W1]
  rw [show (dat1 V c).share 0 = fullShare.left from rfl, show (dat1 V c).share 1 = fullShare.right.left from rfl,
    show (dat1 V c).share 2 = fullShare.right.right from rfl, show (dat1 V c).share 3 = fullShare from rfl,
    show (dat1 V c).share 4 = fullShare from rfl, show (dat1 V c).share 5 = fullShare from rfl, show (dat1 V c).share 6 = fullShare from rfl]
  iintro ⟨H7, Ha, H4, H5, H8⟩
  ihave Hs := (pointsTo_share (PosShare.mem_left_op_right fullShare)).1 $$ H7
  icases Hs with ⟨Hq, Hkv⟩
  ihave Hs2 := (pointsTo_share (PosShare.mem_left_op_right fullShare.right)).1 $$ Hkv
  icases Hs2 with ⟨Hk, Hv⟩
  isplitl [Hq]; · iexact Hq
  isplitl [Hk]; · iexact Hk
  isplitl [Hv]; · iexact Hv
  isplitl [Ha]; · iexact Ha
  isplitl [H4]; · iexact H4
  isplitl [H5]; · iexact H5
  iexact H8

/-- EXIT: the windows' arrays at `V'` make the five buffers at `V'`, the three shares of the shared buffer joined. -/
theorem arrays1_join (c : Dev nD) (V' : (b : Ref sig .tc) → Buf (Elt F) ((c : Thread nD τ).loc b)) :
    ((dat1 V c).arrays fun w => V' (Pipeline.arrRef spec1 w))
      ⊢ (Pipeline.arrBufs (Ix := Unit) (Name := ℕ) (U := UR sig nD τ) (Lvl := ℕ) spec1 c V' : sProp 𝕄) := by
  rw [arrays1_eq, arrBufs1_eq, bigSep_W1]
  rw [show (dat1 V c).share 0 = fullShare.left from rfl, show (dat1 V c).share 1 = fullShare.right.left from rfl,
    show (dat1 V c).share 2 = fullShare.right.right from rfl, show (dat1 V c).share 3 = fullShare from rfl,
    show (dat1 V c).share 4 = fullShare from rfl, show (dat1 V c).share 5 = fullShare from rfl, show (dat1 V c).share 6 = fullShare from rfl]
  iintro ⟨Hq, Hk, Hv, Ha, H4, H5, H8⟩
  isplitl [Hq Hk Hv]
  · iapply (pointsTo_share (PosShare.mem_left_op_right fullShare)).2
    isplitl [Hq]; · iexact Hq
    iapply (pointsTo_share (PosShare.mem_left_op_right fullShare.right)).2
    isplitl [Hk]; · iexact Hk
    iexact Hv
  isplitl [Ha]; · iexact Ha
  isplitl [H4]; · iexact H4
  isplitl [H5]; · iexact H5
  iexact H8

end Cert.Kernel.Hand

end
-- ==== Proof.KBFrame.lean ====
/-
  The kernel program's run, from the launch to the return.

  @main is four items: the host operations that reshape the input rows to 8192 × 1024, reshape the scale, the shift and
  the bias to rows, and round the two weight matrices; the normalisation-and-projection kernel; one reshape of its
  (24, 8192, 128) result to (24, 4, 2048, 128); the attention kernel. This module names the buffers' contents at each of the
  five boundaries as a fold from the launch memory — a host stretch applies its operations; a kernel region leaves its
  output array at what its write-backs make of it and every other buffer as it found it —, states each region's record
  over the thread state "every unscoped buffer at the boundary's contents, the generator register at some state, nothing
  owed", and composes them. The run's post names the result array (what the attention kernel's write-backs leave) and
  says that the six argument arrays end as launched: no host operation and no region writes one.
-/
import proofs.«165050_j14989435863585_2_alg».proof.Proof.KB0Body
import proofs.«165050_j14989435863585_2_alg».proof.Proof.KB1Arrays
import proofs.«165050_j14989435863585_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the second host stretch (the attention kernel's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention kernel's exit: the result array at what its write-backs leave, every other buffer as entered (its
    other arrays are inputs). -/
def W4 (c : Dev nD) : Valuation τ sig (Elt F) :=
  Function.update (W3 m ρ c) (main_v8 : DevRef τ sig) ((dat1 (E3 m ρ) c).arrAt 6 cfg1.N)
abbrev E4 : (c : Dev nD) → (b : Ref sig .tc) → Buf (Elt F) ((c : Thread nD τ).loc b) := fun c b => W4 m ρ c b

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_v8 (c : Dev nD) : W4 m ρ c (main_v8 : DevRef τ sig) = (dat1 (E3 m ρ) c).arrAt 6 cfg1.N := by
  unfold W4; exact Function.update_self _ _ _
theorem W4_of (c : Dev nD) (r : Ref sig .tc) (h : r ≠ main_v8) : W4 m ρ c r = W3 m ρ c r := by
  unfold W4
  exact Function.update_of_ne (StableHlo.devRef_ne_of_ne h : (Proc.devRef .tc r : DevRef τ sig) ≠ Proc.devRef .tc main_v8) _ _

/-! ### The arguments end as launched -/

theorem W4_main_arg0 (c : Dev nD) : W4 m ρ c (main_arg0 : DevRef τ sig) = m ((c : Thread nD τ).loc main_arg0) :=
  (W4_of m ρ c main_arg0 (by decide)).trans <| (W3_of m ρ c main_arg0 (by decide)).trans <| (W2_of_ne m ρ c main_arg0 (by decide)).trans <| (W1_of m ρ c main_arg0 (by decide)).trans rfl
theorem W4_main_arg1 (c : Dev nD) : W4 m ρ c (main_arg1 : DevRef τ sig) = m ((c : Thread nD τ).loc main_arg1) :=
  (W4_of m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (main_arg2 : DevRef τ sig) = m ((c : Thread nD τ).loc main_arg2) :=
  (W4_of m ρ c main_arg2 (by decide)).trans <| (W3_of m ρ c main_arg2 (by decide)).trans <| (W2_of_ne m ρ c main_arg2 (by decide)).trans <| (W1_of m ρ c main_arg2 (by decide)).trans rfl
theorem W4_main_arg3 (c : Dev nD) : W4 m ρ c (main_arg3 : DevRef τ sig) = m ((c : Thread nD τ).loc main_arg3) :=
  (W4_of m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (main_arg4 : DevRef τ sig) = m ((c : Thread nD τ).loc main_arg4) :=
  (W4_of m ρ c main_arg4 (by decide)).trans <| (W3_of m ρ c main_arg4 (by decide)).trans <| (W2_of_ne m ρ c main_arg4 (by decide)).trans <| (W1_of m ρ c main_arg4 (by decide)).trans rfl
theorem W4_main_arg5 (c : Dev nD) : W4 m ρ c (main_arg5 : DevRef τ sig) = m ((c : Thread nD τ).loc main_arg5) :=
  (W4_of m ρ c main_arg5 (by decide)).trans <| (W3_of m ρ c main_arg5 (by decide)).trans <| (W2_of_ne m ρ c main_arg5 (by decide)).trans <| (W1_of m ρ c main_arg5 (by decide)).trans rfl

/-- At the attention kernel's exit each of its arrays holds what the pipeline leaves: an input its entry contents, the
    result array its write-backs. -/
theorem hF1 (c : Dev nD) : ∀ w : Fin cfg1.W, (dat1 (E3 m ρ) c).arrAt w cfg1.N = E4 m ρ c (Pipeline.arrRef spec1 w)
  | ⟨0, _⟩ => ((dat1 (E3 m ρ) c).arrAt_in 0 rfl _).trans ((A_eq1 (E3 m ρ) c 0).trans (W4_of m ρ c main_v7 (by decide)).symm)
  | ⟨1, _⟩ => ((dat1 (E3 m ρ) c).arrAt_in 1 rfl _).trans ((A_eq1 (E3 m ρ) c 1).trans (W4_of m ρ c main_v7 (by decide)).symm)
  | ⟨2, _⟩ => ((dat1 (E3 m ρ) c).arrAt_in 2 rfl _).trans ((A_eq1 (E3 m ρ) c 2).trans (W4_of m ρ c main_v7 (by decide)).symm)
  | ⟨3, _⟩ => ((dat1 (E3 m ρ) c).arrAt_in 3 rfl _).trans ((A_eq1 (E3 m ρ) c 3).trans (W4_of m ρ c main_arg0 (by decide)).symm)
  | ⟨4, _⟩ => ((dat1 (E3 m ρ) c).arrAt_in 4 rfl _).trans ((A_eq1 (E3 m ρ) c 4).trans (W4_of m ρ c main_v4 (by decide)).symm)
  | ⟨5, _⟩ => ((dat1 (E3 m ρ) c).arrAt_in 5 rfl _).trans ((A_eq1 (E3 m ρ) c 5).trans (W4_of m ρ c main_v5 (by decide)).symm)
  | ⟨6, _⟩ => (W4_v8 m ρ c).symm
/-- And every buffer that is no array of it what it held at entry. -/
theorem hrest1 (c : Dev nD) : ∀ b, b ∉ Finset.univ.image (Pipeline.arrRef spec1) → E4 m ρ c b = E3 m ρ c b :=
  fun b hb => W4_of m ρ c b fun e => hb (e ▸ (by decide : main_v8 ∈ Finset.univ.image (Pipeline.arrRef spec1)))

/-! ## The proof data family and the thread state -/

/-- Every pipeline's proof data, each at its region's entry contents. -/
def hdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev hTn (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel over the thread state: entered from every unscoped buffer at `W1`, left at `W2`. -/
def hreg0 : Pipeline.RegionSeg (pcfgs (F := F)) adm (hdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (hdats m ρ) launch0.win launch0.arr_whole c
      ((hdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m ρ) ((hdats m ρ 0 c).share_full fun _ => rfl)
      (E1 m ρ c) (E2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention kernel, the arrays' part: every unscoped buffer at `W3` is its windows' arrays at their entry
    contents (the shared buffer's share dealt in three) and the buffers it has no window on. -/
theorem hsplit1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs 1 winFacts₀1.arr_unscoped c (E3 m ρ c)]
  exact sep_mono (arrays1_split (E3 m ρ) c (E3 m ρ c)) .rfl

/-- EXIT, the arrays' part: its windows' arrays at what the pipeline leaves and the buffers it has no window on are every
    unscoped buffer at `W4`. -/
theorem hjoin1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs 1 winFacts₀1.arr_unscoped c (E4 m ρ c)]
  refine sep_mono ?_ (Entails.of_eq ?_)
  · rw [show ((dat1 (E3 m ρ) c).arrAt · cfg1.N) = fun w => E4 m ρ c (Pipeline.arrRef spec1 w) from funext (hF1 m ρ c)]
    exact arrays1_join (E3 m ρ) c (E4 m ρ c)
  · unfold Pipeline.unscopedRest
    exact bigSep_congr fun b hb => by rw [hrest1 m ρ c b (Finset.mem_sdiff.mp hb).2]

set_option backward.isDefEq.respectTransparency.types false in
/-- The attention kernel over the thread state: entered from every unscoped buffer at `W3`, left at `W4`. -/
def hreg1 : Pipeline.RegionSeg (pcfgs (F := F)) adm (hdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev hsegs : List (Pipeline.Seg (pcfgs (F := F)) adm (hdats m ρ) () defs₀ 𝒱₀ L lv) :=
  [ .host (hseg hostOps0 hostOps0_sub hostOps0_fresh (W0 m ρ)),
    .region (hreg0 m ρ),
    .host (hseg hostOps1 hostOps1_sub hostOps1_fresh (W2 m ρ)),
    .region (hreg1 m ρ) ]
theorem main_run (c : Dev nD) : main (F := F) c = Pipeline.Seg.run (hsegs m ρ) := (main_chain c).trans (by chain_rfl)

set_option backward.isDefEq.respectTransparency.types false in
/-- THE RUN. From any memory with zero counters every weakly fair execution of @main on the TensorCores terminates, nothing
    faulting, and every final state has the result array at what the attention kernel's write-backs leave and each of the six
    argument arrays as launched. -/
theorem run_main : θ_run defs (onTc (τ := τ) (main (F := F))) ⟨m, fun _ => 0, ρ⟩ (fun r => ∀ c : Dev nD,
      r.2.mem ((c.tc : Thread nD τ).loc main_v8) = (dat1 (E3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (hdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_v8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- THE FRAME: the run with the result array's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.K0Run.lean ====
/-
  Kernel 0 (LayerNorm and the projection onto 3072 columns) on whole staging memrefs.

  The body reads its four input blocks whole, once each, and writes the output block of shape 24 x 1024 x 128 as
  24 slabs [k, :, :], k = 0 .. 23; before each store it reads the slab it is about to overwrite and discards the
  value read. Run symbolically, the body leaves the inputs as they were and the output buffer with a list of pieces
  written into it, one per store, last first. That list is the witness of the subtype below: the run finds it.
  The 24 slabs tile the block, so the pieces cover it, and what the buffer holds afterwards does not depend on what
  it held before: it is the pieces read back over arbitrary contents.
-/
import proofs.«165050_j14989435863585_2_alg».proof.Proof.Gen.KernelIdeal.Launch
import proofs.«165050_j14989435863585_2_alg».proof.Proof.Gen.KernelIdeal.Skeleton
import proofs.«165050_j14989435863585_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents is decided by a structural recursion, one step per coordinate of the
-- long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the output window, through which the block's contents are stated: a vector read back
    through a whole memref of the shape is the same through any other. -/
abbrev VO0_4 : View sig .tc .vmem S24x1024x128 .bf16 := (Memref.whole cc0_stg4_0 : Memref sig .tc .vmem S24x1024x128 .bf16).view

set_option maxHeartbeats 4000000 in
/-- The pieces the body's 24 stores leave in the output block, last first, WITH the proof that on whole memrefs, the
    four inputs at contents `x0 .. x3` and the output at anything, the body runs to a continuation that holds the inputs
    as they were and the output buffer with those pieces written over what it held. -/
noncomputable def kernelRun0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) :
    { L4 : List (View.Piece (Elt F) S24x1024x128 .bf16) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0__ln_qkv_kernel i arg1 harg1 arg2 harg2 arg3 harg3 arg4 harg4 arg5 harg5) K } := by
  refine ⟨?_, fun E K => ?run⟩
  case run =>
    simp only [cc0__ln_qkv_kernel_eq_skeleton]; unfold cc0__ln_qkv_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The pieces tile the block (24 slabs of one row of the leading axis each), so every index of it lies in one. -/
theorem cover0_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) (y : S24x1024x128.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1 S1x1024x128.size (by sl_kernel_rfl) y

/-- What the body leaves in the output block: its pieces read back over arbitrary contents. -/
def out0_4 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) : Vec F S24x1024x128 .bf16 :=
  VO0_4.read (Elt F) (VO0_4.writes (Elt F) VO0_4.junk (kernelRun0 c i arg1 harg1 arg2 harg2 arg3 harg3 arg4 harg4 arg5 harg5 x0 x1 x2 x3).1)

end Cert.KernelIdeal.Hand

end
-- ==== Proof.K0Body.lean ====
/-
  Kernel 0 as a pipeline body: the proof data of its pipeline and the body obligation, at a PARAMETER `V`, the
  TensorCore's buffer contents when the region is entered.

  The pipeline has four input windows (the block of 1024 rows, fetched at every point; the two LayerNorm vectors and
  the projection matrix, fetched at the first point only) and one output window, written back at every point. The
  body carries nothing from one point to the next, so the invariant is constant: the scoped rest and the generator
  register, untouched. After the body at point `t` each input's buffer holds its block, as before, and the output's
  holds `out0_4` of the four input blocks.
-/
import proofs.«165050_j14989435863585_2_alg».proof.Proof.K0Run
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved, so the block the buffer still holds is this point's. The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: where the window is not fetched its block index has
    not moved, so the block the buffer still holds is this point's. The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: where the window is not fetched its block index has
    not moved, so the block the buffer still holds is this point's. The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: where the window is not fetched its block index has
    not moved, so the block the buffer still holds is this point's. The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them (`V`); after the body at point `t`
    each input's buffer at its block and the output's at `out0_4` of the input blocks; the invariant constant (the
    scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 2000000 in
/-- The body at any point: the inputs' memrefs hold their blocks, so the run applies; the invariant and what the core owes
    pass through unread; the output's buffer, handed over at anything, comes back with the run's pieces written, which
    cover it, so it reads `out0_4`. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold out0_4
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.K1Runs.lean ====
/-
  The attention kernel's control, decided over its grid of 4 × 4 × 8 points (batch, query tile, head; the head
  the fastest axis, so a point `t` is at head `t mod 8`).

  The body has two conditionals on the head: at head 0 it clears the 512 × 1024 accumulator it keeps between
  points, and at head 7 it adds the bias and the input tile to the accumulator and stores the output tile. So there
  are three control cases: the first head (clear, then accumulate), the middle heads (accumulate), the last head
  (accumulate, then store). The output tile's buffer is left alone, and not written back, at every point but
  a last head's.
-/
import proofs.«165050_j14989435863585_2_alg».proof.Proof.Gen.KernelIdeal.Launch
import proofs.«165050_j14989435863585_2_alg».proof.Proof.Gen.KernelIdeal.Skeleton
import proofs.«165050_j14989435863585_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This point is at head 0", as the body computes it from the grid coordinates. -/
abbrev cond1_0 (i : grid1.Coords) : Prop :=
  (Scalar.cmpi .ne (Scalar.extui (Scalar.cmpi .eq (BitVec.ofNat 32 (i 2).val) 0#32)) 0#32) = 1#1
/-- It holds exactly at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This point is at head 7", as the body computes it. -/
abbrev cond1_1 (i : grid1.Coords) : Prop := k1_cond2 i = 1#1
/-- It holds exactly at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- At a first head the output tile's buffer is idle and is not written back. -/
theorem idleAt1_6_A : ∀ t : Fin cfg1.N, cond1_0 (grid1.coords t) → ¬cond1_1 (grid1.coords t) → cfg1.idle 6 (grid1.coords t) = true := by decide +kernel
theorem noFlush1_6_A : ∀ t : Fin cfg1.N, cond1_0 (grid1.coords t) → ¬cond1_1 (grid1.coords t) → (cfg1.win 6).flush t = false := by decide +kernel
/-- At a middle head likewise. -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At a last head the body stores into it. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of the output window, through which its contents are stated. -/
abbrev VO1_6 : View sig .tc .vmem S1x512x1024 .f32 := (Memref.whole cc1_stg6_0 : Memref sig .tc .vmem S1x512x1024 .f32).view
abbrev ms1_0 (t : Fin cfg1.N) : Memref sig .tc .vmem S1x1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)
/-- The accumulator: a whole scoped buffer of the kernel's own, passed beside the windows. -/
abbrev scM1_0 : Memref sig .tc .vmem S512x1024 .f32 := Memref.whole cc1_scratch0
/-- The accumulator as a view: what it holds is stated through it. -/
abbrev VS1_0 : View sig .tc .vmem S512x1024 .f32 := scM1_0.view

end Cert.KernelIdeal.Hand

end
-- ==== Proof.K1RunA.lean ====
/-
  The attention kernel's body at a FIRST head (head 0): it clears the accumulator, then adds this head's projected
  context to it. The output tile's buffer is not touched. What the stores leave in the accumulator is found by running
  the body symbolically.
-/
import proofs.«165050_j14989435863585_2_alg».proof.Proof.K1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case (it stores nothing into the output tile's buffer,
    which it hands back as it found it), with the proof that the body runs to the continuation holding the inputs as they
    were, the output tile's buffer untouched and the accumulator with those pieces written. -/
noncomputable def kernelRun1_A (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i)
    (x0 : Vec F S1x1x512x128 .bf16) (x1 x2 : Vec F S1x1x2048x128 .bf16) (x3 : Vec F S1x512x1024 .f32) (x4 : Vec F S128x1024 .bf16) (x5 : Vec F S1x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.K1RunB.lean ====
/-
  The attention kernel's body at a MIDDLE head (heads 1 to 6): it adds this head's projected context to the
  accumulator the head before left. The output tile's buffer is not touched. What the store leaves in the accumulator is
  found by running the body symbolically.
-/
import proofs.«165050_j14989435863585_2_alg».proof.Proof.K1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator in this case (it stores nothing into the output tile's buffer,
    which it hands back as it found it), with the proof that the body runs to the continuation holding the inputs as they
    were, the output tile's buffer untouched and the accumulator with those pieces written. -/
noncomputable def kernelRun1_B (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i)
    (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    Σ' (L6 : List (View.Piece (Elt F) S1x512x1024 .f32)), { LS0 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨[], ?_, fun xi6 E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Hand

end
-- ==== Proof.K1RunC.lean ====
/-
  The attention kernel's body at a LAST head (head 7): it adds this head's projected context to the accumulator,
  then stores accumulator + bias + input tile into the output tile. What the stores leave in the output tile's
  buffer and in the accumulator is found by running the body symbolically.
-/
import proofs.«165050_j14989435863585_2_alg».proof.Proof.K1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output tile's buffer and in the accumulator at a last head, with the proof
    that from the inputs' buffers at their contents, the output's at anything and the accumulator at what the head before
    left, the body runs to the continuation holding the inputs as they were and the two buffers with those pieces written. -/
noncomputable def kernelRun1_C (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i)
    (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    Σ' (L6 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10) K } := by
  refine ⟨?_, ?_, fun E K => ?run⟩
  case run =>
    simp only [cc1__attn_outproj_kernel_eq_skeleton]; unfold cc1__attn_outproj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Hand

end
-- ==== Proof.K1Body.lean ====
/-
  The attention kernel as a pipeline: what its buffers hold after each grid point, and the body's obligation.

  The grid runs the eight heads of one (batch, query tile) consecutively. The accumulator holds, after the point at head
  `h`, the sum over the heads up to `h` of each head's context projected by its 128 rows of the output weights — it is
  cleared at head 0, so it never depends on the previous tile. The output tile's buffer is stored only at head 7 (the
  accumulator plus the bias plus the input tile) and written back only there. This module names those contents by
  recursion on the point (`outsAt1`), states the region's invariant carrying the accumulator between points (`PhiS1`),
  and proves the body's obligation at every point from the three case runs.

  Everything is stated at a parameter `V`, the buffers' contents when the region is entered. The query, key and value
  windows read ONE array (the projected activations); the region holds that array's full share split in three.
-/
import proofs.«165050_j14989435863585_2_alg».proof.Proof.K1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

def out1_A_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) : Vec F S1x512x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)
theorem scover1_A_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (y : S512x1024.Idx) :
    ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4 x5).2.1 S512x1024.size (by sl_kernel_rfl) y
def sout1_A_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) : Vec F S512x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

def out1_B_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S1x512x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)
theorem scover1_B_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S512x1024.Idx) :
    ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 x5 xs0).2.1 S512x1024.size (by sl_kernel_rfl) y
def sout1_B_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

def out1_C_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S1x512x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)
theorem scover1_C_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S512x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).2.1 S512x1024.size (by sl_kernel_rfl) y
def sout1_C_0 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)
theorem cover1_C_6 (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) (y : S1x512x1024.Idx) :
    ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 x5 xs0).1 S1x512x1024.size (by sl_kernel_rfl) y

/-! ## What the output tile's buffer and the accumulator hold after each point -/

/-- After the body at position `n`: (the output tile's buffer, the accumulator). The case the point's head selects, run at
    the point's memrefs and input blocks; a middle or last head starts from the accumulator the point before left. -/
def outsAt1 (c : Dev nD) : (n : ℕ) → n < cfg1.N → Vec F S1x512x1024 .f32 × Vec F S512x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 8 = 0 then
      if h1 : (n + 1) % 8 = 7 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 8 = 7 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)

/-- At a first head: that case's contents. -/
theorem outsAt1_A (c : Dev nD) (t : Fin cfg1.N) (h0 : t.val % 8 = 0) (h1 : ¬t.val % 8 = 7) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a middle head: that case's contents, over the accumulator the point before left. -/
theorem outsAt1_B (c : Dev nD) (t : Fin cfg1.N) (h0 : ¬t.val % 8 = 0) (h1 : ¬t.val % 8 = 7) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last head: that case's contents, over the accumulator the point before left. -/
theorem outsAt1_C (c : Dev nD) (t : Fin cfg1.N) (h0 : ¬t.val % 8 = 0) (h1 : t.val % 8 = 7) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The core's scoped buffers that are no staging buffer of this kernel — the other kernel's seven staging buffers, each
    at some contents — beside the accumulator in the state `S`. -/
def scRest1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The class invariant (every scoped buffer no window stages at some contents, the generator register at some state) with
    the accumulator as a memref owned at some contents. -/
theorem PhiA1_eq (c : Dev nD) :
    (Pipeline.ΦA spec1 c : sProp 𝕄) = iprop(scRest1 c iprop(∃ d, owns (c : Thread nD τ) scM1_0 fullShare d) ∗ (∃ r, prngReg c r)) := by
  unfold Pipeline.ΦA scRest1; rw [scopedRest1_eq]; simp only [scM1_0, owns_whole]; try rfl

/-- The invariant before position `n`: before the first point the class's; afterwards the accumulator at what the point
    before left in it. -/
def PhiS1 (c : Dev nD) : (n : ℕ) → n ≤ cfg1.N → sProp 𝕄
  | 0, _ => Pipeline.ΦA spec1 c
  | n + 1, hn => iprop(scRest1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(scRest1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(scRest1 c (owns (c : Thread nD τ) scM1_0 fullShare ((outsAt1 V c (n - 1) (by omega)).2)) ∗ (∃ r, prngReg c r)) := by
  cases n with
  | zero => exact absurd rfl hz
  | succ n => rfl

/-! ## The proof data -/

/-- The pipeline's proof data on core `c`: the arrays as the region finds them; after the body each input's buffer at its
    block, the output tile's at `outsAt1`; the invariant `PhiS1`; nothing owed; the shared array's full share dealt to the
    query, key and value windows as its left half and the two halves of its right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' buffers hold their blocks; the head decides the case; the invariant hands the body
    the accumulator at what the point before left (at anything before a first head) and takes it back at this point's
    contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0; (try dsimp only)
      by_cases hz : t.val = 0
      · exfalso; omega
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, ⟨%e6, H6⟩, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_C_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        unfold scRest1
        iintro ⟨⟨⟨R1, R2, R3, R4, R5, R6, R7, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 HS0 Hg]
        · isplitl [R1 R2 R3 R4 R5 R6 R7 HS0]
          ·
            isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS0
            ipureintro; exact View.read_writes_of_cover _ _ _ _ _ (scover1_B_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's named contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  unfold scRest1
  iintro ⟨⟨R1, R2, R3, R4, R5, R6, R7, HS0⟩, Hg⟩
  isplitl [R1 R2 R3 R4 R5 R6 R7 HS0]
  ·
    isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

end Cert.KernelIdeal.Hand

end
-- ==== Proof.K1Arrays.lean ====
/-
  The attention kernel's arrays at the region's two ends.

  Its seven windows stand on FIVE buffers: the query, key and value windows all read the projected activations. The region
  is handed each of the five buffers whole; the pipeline wants each WINDOW's array at a share of its own. So at entry the
  shared buffer's full share is dealt in three (its left half, and the two halves of its right half), and at exit the three
  are joined again — all three still hold the entry contents, for no window on that buffer is an output.
-/
import proofs.«165050_j14989435863585_2_alg».proof.Proof.K1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's arrays, window by window, each whole at its share. -/
theorem arrays1_eq (c : Dev nD) (G : (w : Fin cfg1.W) → Buf (Elt F) ((cfg1.win w).arr.view.loc (c : Thread nD τ))) :
    (dat1 V c).arrays G = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- The five buffers behind the windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v7) ↦{fullShare} V' main_v7) ∗ (((c : Thread nD τ).loc main_arg0) ↦{fullShare} V' main_arg0)
          ∗ (((c : Thread nD τ).loc main_v4) ↦{fullShare} V' main_v4) ∗ (((c : Thread nD τ).loc main_v5) ↦{fullShare} V' main_v5)
          ∗ (((c : Thread nD τ).loc main_v8) ↦{fullShare} V' main_v8)) := by
  unfold Pipeline.arrBufs
  rw [bigSep_eq_bigSepL_of_eq [main_v7, main_arg0, main_v4, main_v5, main_v8] (by decide) (by decide)]
  rfl

/-- ENTRY: the five buffers at contents `V'` make the windows' arrays at `V'`, the shared buffer's share dealt in three. -/
theorem arrays1_split (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      ⊢ (dat1 V c).arrays fun w => V' (Pipeline.arrRef spec1 w) := by
  rw [arrays1_eq, arrBufs1_eq, bigSep_W1]
  rw [show (dat1 V c).share 0 = fullShare.left from rfl, show (dat1 V c).share 1 = fullShare.right.left from rfl,
    show (dat1 V c).share 2 = fullShare.right.right from rfl, show (dat1 V c).share 3 = fullShare from rfl,
    show (dat1 V c).share 4 = fullShare from rfl, show (dat1 V c).share 5 = fullShare from rfl, show (dat1 V c).share 6 = fullShare from rfl]
  iintro ⟨H7, Ha, H4, H5, H8⟩
  ihave Hs := (pointsTo_share (PosShare.mem_left_op_right fullShare)).1 $$ H7
  icases Hs with ⟨Hq, Hkv⟩
  ihave Hs2 := (pointsTo_share (PosShare.mem_left_op_right fullShare.right)).1 $$ Hkv
  icases Hs2 with ⟨Hk, Hv⟩
  isplitl [Hq]; · iexact Hq
  isplitl [Hk]; · iexact Hk
  isplitl [Hv]; · iexact Hv
  isplitl [Ha]; · iexact Ha
  isplitl [H4]; · iexact H4
  isplitl [H5]; · iexact H5
  iexact H8

/-- EXIT: the windows' arrays at `V'` make the five buffers at `V'`, the three shares of the shared buffer joined. -/
theorem arrays1_join (c : Dev nD) (V' : (b : Ref sig .tc) → Buf (Elt F) ((c : Thread nD τ).loc b)) :
    ((dat1 V c).arrays fun w => V' (Pipeline.arrRef spec1 w))
      ⊢ (Pipeline.arrBufs (Ix := Unit) (Name := ℕ) (U := UR sig nD τ) (Lvl := ℕ) spec1 c V' : sProp 𝕄) := by
  rw [arrays1_eq, arrBufs1_eq, bigSep_W1]
  rw [show (dat1 V c).share 0 = fullShare.left from rfl, show (dat1 V c).share 1 = fullShare.right.left from rfl,
    show (dat1 V c).share 2 = fullShare.right.right from rfl, show (dat1 V c).share 3 = fullShare from rfl,
    show (dat1 V c).share 4 = fullShare from rfl, show (dat1 V c).share 5 = fullShare from rfl, show (dat1 V c).share 6 = fullShare from rfl]
  iintro ⟨Hq, Hk, Hv, Ha, H4, H5, H8⟩
  isplitl [Hq Hk Hv]
  · iapply (pointsTo_share (PosShare.mem_left_op_right fullShare)).2
    isplitl [Hq]; · iexact Hq
    iapply (pointsTo_share (PosShare.mem_left_op_right fullShare.right)).2
    isplitl [Hk]; · iexact Hk
    iexact Hv
  isplitl [Ha]; · iexact Ha
  isplitl [H4]; · iexact H4
  isplitl [H5]; · iexact H5
  iexact H8

end Cert.KernelIdeal.Hand

end
-- ==== Proof.KFrame.lean ====
/-
  The kernel program's run, from the launch to the return.

  @main is four items: the host operations that reshape the input rows to 8192 × 1024, reshape the scale, the shift and
  the bias to rows, and round the two weight matrices; the normalisation-and-projection kernel; one reshape of its
  (24, 8192, 128) result to (24, 4, 2048, 128); the attention kernel. This module names the buffers' contents at each of the
  five boundaries as a fold from the launch memory — a host stretch applies its operations; a kernel region leaves its
  output array at what its write-backs make of it and every other buffer as it found it —, states each region's record
  over the thread state "every unscoped buffer at the boundary's contents, the generator register at some state, nothing
  owed", and composes them. The run's post names the result array (what the attention kernel's write-backs leave) and
  says that the six argument arrays end as launched: no host operation and no region writes one.
-/
import proofs.«165050_j14989435863585_2_alg».proof.Proof.K0Body
import proofs.«165050_j14989435863585_2_alg».proof.Proof.K1Arrays
import proofs.«165050_j14989435863585_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the first kernel's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At the first kernel's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the second host stretch (the attention kernel's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention kernel's exit: the result array at what its write-backs leave, every other buffer as entered (its
    other arrays are inputs). -/
def W4 (c : Dev nD) : Valuation τ sig (Elt F) :=
  Function.update (W3 m ρ c) (main_v8 : DevRef τ sig) ((dat1 (E3 m ρ) c).arrAt 6 cfg1.N)
abbrev E4 : (c : Dev nD) → (b : Ref sig .tc) → Buf (Elt F) ((c : Thread nD τ).loc b) := fun c b => W4 m ρ c b

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W4_v8 (c : Dev nD) : W4 m ρ c (main_v8 : DevRef τ sig) = (dat1 (E3 m ρ) c).arrAt 6 cfg1.N := by
  unfold W4; exact Function.update_self _ _ _
theorem W4_of (c : Dev nD) (r : Ref sig .tc) (h : r ≠ main_v8) : W4 m ρ c r = W3 m ρ c r := by
  unfold W4
  exact Function.update_of_ne (StableHlo.devRef_ne_of_ne h : (Proc.devRef .tc r : DevRef τ sig) ≠ Proc.devRef .tc main_v8) _ _

/-! ### The arguments end as launched -/

theorem W4_main_arg0 (c : Dev nD) : W4 m ρ c (main_arg0 : DevRef τ sig) = m ((c : Thread nD τ).loc main_arg0) :=
  (W4_of m ρ c main_arg0 (by decide)).trans <| (W3_of m ρ c main_arg0 (by decide)).trans <| (W2_of_ne m ρ c main_arg0 (by decide)).trans <| (W1_of m ρ c main_arg0 (by decide)).trans rfl
theorem W4_main_arg1 (c : Dev nD) : W4 m ρ c (main_arg1 : DevRef τ sig) = m ((c : Thread nD τ).loc main_arg1) :=
  (W4_of m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (main_arg2 : DevRef τ sig) = m ((c : Thread nD τ).loc main_arg2) :=
  (W4_of m ρ c main_arg2 (by decide)).trans <| (W3_of m ρ c main_arg2 (by decide)).trans <| (W2_of_ne m ρ c main_arg2 (by decide)).trans <| (W1_of m ρ c main_arg2 (by decide)).trans rfl
theorem W4_main_arg3 (c : Dev nD) : W4 m ρ c (main_arg3 : DevRef τ sig) = m ((c : Thread nD τ).loc main_arg3) :=
  (W4_of m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (main_arg4 : DevRef τ sig) = m ((c : Thread nD τ).loc main_arg4) :=
  (W4_of m ρ c main_arg4 (by decide)).trans <| (W3_of m ρ c main_arg4 (by decide)).trans <| (W2_of_ne m ρ c main_arg4 (by decide)).trans <| (W1_of m ρ c main_arg4 (by decide)).trans rfl
theorem W4_main_arg5 (c : Dev nD) : W4 m ρ c (main_arg5 : DevRef τ sig) = m ((c : Thread nD τ).loc main_arg5) :=
  (W4_of m ρ c main_arg5 (by decide)).trans <| (W3_of m ρ c main_arg5 (by decide)).trans <| (W2_of_ne m ρ c main_arg5 (by decide)).trans <| (W1_of m ρ c main_arg5 (by decide)).trans rfl

/-- At the attention kernel's exit each of its arrays holds what the pipeline leaves: an input its entry contents, the
    result array its write-backs. -/
theorem hF1 (c : Dev nD) : ∀ w : Fin cfg1.W, (dat1 (E3 m ρ) c).arrAt w cfg1.N = E4 m ρ c (Pipeline.arrRef spec1 w)
  | ⟨0, _⟩ => ((dat1 (E3 m ρ) c).arrAt_in 0 rfl _).trans ((A_eq1 (E3 m ρ) c 0).trans (W4_of m ρ c main_v7 (by decide)).symm)
  | ⟨1, _⟩ => ((dat1 (E3 m ρ) c).arrAt_in 1 rfl _).trans ((A_eq1 (E3 m ρ) c 1).trans (W4_of m ρ c main_v7 (by decide)).symm)
  | ⟨2, _⟩ => ((dat1 (E3 m ρ) c).arrAt_in 2 rfl _).trans ((A_eq1 (E3 m ρ) c 2).trans (W4_of m ρ c main_v7 (by decide)).symm)
  | ⟨3, _⟩ => ((dat1 (E3 m ρ) c).arrAt_in 3 rfl _).trans ((A_eq1 (E3 m ρ) c 3).trans (W4_of m ρ c main_arg0 (by decide)).symm)
  | ⟨4, _⟩ => ((dat1 (E3 m ρ) c).arrAt_in 4 rfl _).trans ((A_eq1 (E3 m ρ) c 4).trans (W4_of m ρ c main_v4 (by decide)).symm)
  | ⟨5, _⟩ => ((dat1 (E3 m ρ) c).arrAt_in 5 rfl _).trans ((A_eq1 (E3 m ρ) c 5).trans (W4_of m ρ c main_v5 (by decide)).symm)
  | ⟨6, _⟩ => (W4_v8 m ρ c).symm
/-- And every buffer that is no array of it what it held at entry. -/
theorem hrest1 (c : Dev nD) : ∀ b, b ∉ Finset.univ.image (Pipeline.arrRef spec1) → E4 m ρ c b = E3 m ρ c b :=
  fun b hb => W4_of m ρ c b fun e => hb (e ▸ (by decide : main_v8 ∈ Finset.univ.image (Pipeline.arrRef spec1)))

/-! ## The proof data family and the thread state -/

/-- Every pipeline's proof data, each at its region's entry contents. -/
def hdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev hTn (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first kernel over the thread state: entered from every unscoped buffer at `W1`, left at `W2`. -/
def hreg0 : Pipeline.RegionSeg (pcfgs (F := F)) adm (hdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (hdats m ρ) launch0.win launch0.arr_whole c
      ((hdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m ρ) ((hdats m ρ 0 c).share_full fun _ => rfl)
      (E1 m ρ c) (E2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- ENTRY of the attention kernel, the arrays' part: every unscoped buffer at `W3` is its windows' arrays at their entry
    contents (the shared buffer's share dealt in three) and the buffers it has no window on. -/
theorem hsplit1 (c : Dev nD) :
    (unscopedBufs c (E3 m ρ c) : sProp 𝕄)
      ⊢ iprop((dat1 (E3 m ρ) c).arrays ((dat1 (E3 m ρ) c).arrAt · 0) ∗ Pipeline.unscopedRest spec1 c (E3 m ρ c)) := by
  rw [Pipeline.unscopedBufs_split₀ cfgs 1 winFacts₀1.arr_unscoped c (E3 m ρ c)]
  exact sep_mono (arrays1_split (E3 m ρ) c (E3 m ρ c)) .rfl

/-- EXIT, the arrays' part: its windows' arrays at what the pipeline leaves and the buffers it has no window on are every
    unscoped buffer at `W4`. -/
theorem hjoin1 (c : Dev nD) :
    iprop((dat1 (E3 m ρ) c).arrays ((dat1 (E3 m ρ) c).arrAt · cfg1.N) ∗ Pipeline.unscopedRest spec1 c (E3 m ρ c))
      ⊢ (unscopedBufs c (E4 m ρ c) : sProp 𝕄) := by
  rw [Pipeline.unscopedBufs_split₀ cfgs 1 winFacts₀1.arr_unscoped c (E4 m ρ c)]
  refine sep_mono ?_ (Entails.of_eq ?_)
  · rw [show ((dat1 (E3 m ρ) c).arrAt · cfg1.N) = fun w => E4 m ρ c (Pipeline.arrRef spec1 w) from funext (hF1 m ρ c)]
    exact arrays1_join (E3 m ρ) c (E4 m ρ c)
  · unfold Pipeline.unscopedRest
    exact bigSep_congr fun b hb => by rw [hrest1 m ρ c b (Finset.mem_sdiff.mp hb).2]

set_option backward.isDefEq.respectTransparency.types false in
/-- The attention kernel over the thread state: entered from every unscoped buffer at `W3`, left at `W4`. -/
def hreg1 : Pipeline.RegionSeg (pcfgs (F := F)) adm (hdats m ρ) () defs₀ 𝒱₀ L lv 1 where
  win := winFacts₀1
  block_pos := block_pos1
  stage_whole := stage_whole1
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ hR c)
  post c := iprop(hTn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := hsplit1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m ρ) c)
    unfold Pipeline.ΦA
    iintro ⟨Hp, -, Hr⟩
    isplitl [Hr]; · iexact Hr
    iexact Hp
  hout c := by
    rw [Pipeline.ownSems0_none]
    refine BIBase.Entails.trans (hout1 (E3 m ρ) c) ?_
    unfold Pipeline.ΦA
    iintro ⟨Hr, Hp⟩
    isplitl [Hp]; · iexact Hp
    isplitr; · iempintro
    iexact Hr
  hexit c := by
    have hjoin := hjoin1 m ρ c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev hsegs : List (Pipeline.Seg (pcfgs (F := F)) adm (hdats m ρ) () defs₀ 𝒱₀ L lv) :=
  [ .host (hseg hostOps0 hostOps0_sub hostOps0_fresh (W0 m ρ)),
    .region (hreg0 m ρ),
    .host (hseg hostOps1 hostOps1_sub hostOps1_fresh (W2 m ρ)),
    .region (hreg1 m ρ) ]
theorem main_run (c : Dev nD) : main (F := F) c = Pipeline.Seg.run (hsegs m ρ) := (main_chain c).trans (by chain_rfl)

set_option backward.isDefEq.respectTransparency.types false in
/-- THE RUN. From any memory with zero counters every weakly fair execution of @main on the TensorCores terminates, nothing
    faulting, and every final state has the result array at what the attention kernel's write-backs leave and each of the six
    argument arrays as launched. -/
theorem run_main : θ_run defs (onTc (τ := τ) (main (F := F))) ⟨m, fun _ => 0, ρ⟩ (fun r => ∀ c : Dev nD,
      r.2.mem ((c.tc : Thread nD τ).loc main_v8) = (dat1 (E3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (hdats m ρ) () cellOf_inj emb₁ defs₀ 𝒱₀ L lv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v8 (by decide))).trans (W4_v8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- THE FRAME: the run with the result array's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.K1Pieces.lean ====
/-
  What the attention kernel's body leaves in its buffers, case by case, as terms over the body's pure values: the
  accumulator after a first head is the head step over the zero block; after a middle or last head it is the head step
  over the accumulator before; the output tile after a last head is that accumulator plus the bias row plus the input
  tile. Each is read off the one covering store the symbolic run found (a first head's run stores the zero block, reads
  it back and stores the step; a last head's run reads back the accumulator it has just stored).
-/
import proofs.«165050_j14989435863585_2_alg».proof.Proof.K1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The zero offsets of a whole-buffer access, at ranks 2, 3 and 4. -/
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- FIRST HEAD: the accumulator is cleared, then this head's step is added to the zero block. -/
theorem sout1_A_0_eq (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) :
    sout1_A_0 c i arg3 harg3 arg4 harg4 arg5 harg5 arg6 harg6 arg7 harg7 arg8 harg8 arg9 harg9 arg10 harg10 hc0 hc1 x0 x1 x2 x3 x4 x5 = k1_pay1 (k1_pay4 x0 x1 x2 (k1_pay3 (F := F)) x4) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S512x1024) hz2, View.readCov_unit_zero (S := S512x1024) _ hz2]
  simp only [View.readAt_eq_ld, harg3.read_unread, harg4.read_unread, harg5.read_unread, harg7.read_unread,
    harg10.read_unread, View.ld_unit_zero (S := S1x1x512x128) hz4, View.ld_unit_zero (S := S1x1x2048x128) hz4,
    View.ld_unit_zero (S := S512x1024) hz2, View.ld_unit_zero (S := S128x1024) hz2]

/-- MIDDLE HEAD: this head's step is added to the accumulator before. -/
theorem sout1_B_0_eq (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : ¬cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    sout1_B_0 c i arg3 harg3 arg4 harg4 arg5 harg5 arg6 harg6 arg7 harg7 arg8 harg8 arg9 harg9 arg10 harg10 hc0 hc1 x0 x1 x2 x3 x4 x5 xs0 = k1_pay1 (k1_pay4 x0 x1 x2 xs0 x4) := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 x5 xs0)]
  unfold kernelRun1_B
  dsimp only
  sl_unfold_words
  rw [View.canon_unit_zero (S := S512x1024) hz2]
  simp only [View.readAt_eq_ld, harg3.read_unread, harg4.read_unread, harg5.read_unread, harg7.read_unread,
    harg10.read_unread, View.ld_unit_zero (S := S1x1x512x128) hz4, View.ld_unit_zero (S := S1x1x2048x128) hz4,
    View.ld_unit_zero (S := S512x1024) hz2, View.ld_unit_zero (S := S128x1024) hz2]

/-- LAST HEAD, the accumulator: as at a middle head. -/
theorem sout1_C_0_eq (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    sout1_C_0 c i arg3 harg3 arg4 harg4 arg5 harg5 arg6 harg6 arg7 harg7 arg8 harg8 arg9 harg9 arg10 harg10 hc0 hc1 x0 x1 x2 x3 x4 x5 xs0 = k1_pay1 (k1_pay4 x0 x1 x2 xs0 x4) := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero (S := S512x1024) hz2]
  simp only [View.readAt_eq_ld, harg3.read_unread, harg4.read_unread, harg5.read_unread, harg7.read_unread,
    harg10.read_unread, View.ld_unit_zero (S := S1x1x512x128) hz4, View.ld_unit_zero (S := S1x1x2048x128) hz4,
    View.ld_unit_zero (S := S512x1024) hz2, View.ld_unit_zero (S := S128x1024) hz2]

/-- LAST HEAD, the output tile: the accumulator just stored, plus the bias row, plus the input tile. -/
theorem out1_C_6_eq (c : Dev nD) (i : grid1.Coords) (arg3 : Memref sig .tc .vmem S1x1x512x128 .bf16) (harg3 : arg3.IsWhole) (arg4 : Memref sig .tc .vmem S1x1x2048x128 .bf16) (harg4 : arg4.IsWhole) (arg5 : Memref sig .tc .vmem S1x1x2048x128 .bf16) (harg5 : arg5.IsWhole) (arg6 : Memref sig .tc .vmem S1x512x1024 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hc0 : ¬cond1_0 i) (hc1 : cond1_1 i) (x0 : Vec F S1x1x512x128 .bf16) (x1 x2 : Vec F S1x1x2048x128 .bf16) (x3 : Vec F S1x512x1024 .f32) (x4 : Vec F S128x1024 .bf16) (x5 : Vec F S1x1024 .f32) (xs0 : Vec F S512x1024 .f32) :
    out1_C_6 c i arg3 harg3 arg4 harg4 arg5 harg5 arg6 harg6 arg7 harg7 arg8 harg8 arg9 harg9 arg10 harg10 hc0 hc1 x0 x1 x2 x3 x4 x5 xs0 = k1_pay2 (k1_pay1 (k1_pay4 x0 x1 x2 xs0 x4)) x5 x3 := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 x5 xs0)]
  unfold kernelRun1_C
  dsimp only
  sl_unfold_words
  rw [View.canon_unit_zero (S := S1x512x1024) hz3, View.readCov_unit_zero (S := S512x1024) _ hz2]
  simp only [View.readAt_eq_ld, harg3.read_unread, harg4.read_unread, harg5.read_unread, harg7.read_unread,
    harg10.read_unread, View.ld_unit_zero (S := S1x1x512x128) hz4, View.ld_unit_zero (S := S1x1x2048x128) hz4,
    View.ld_unit_zero (S := S512x1024) hz2, View.ld_unit_zero (S := S128x1024) hz2, harg6.read_unread, harg8.read_unread,
    View.ld_unit_zero (S := S1x1024) hz2, View.ld_unit_zero (S := S1x512x1024) hz3]

end Cert.KernelIdeal.Hand

end
-- ==== Proof.Spec.lean ====
/-
  The specification both programs are compared with: pre-LayerNorm multi-head self-attention with an
  output projection and a residual, over the extended reals, index by index.

  One ROW `r` of 1024 channels is normalised as
    rowMean r  = (∑ c, r c) / 1024
    rowDev r c = r c - rowMean r
    rowVar r   = (∑ c, rowDev r c ^ 2) / 1024
    rowXn r c  = rowDev r c / √(rowVar r + ε) · γ c + β c.
  One HEAD, for one query row `q` of 128 channels against 2048 keys `K m` and values `V m`: the scaled scores
  `(∑ e, q e · K m e) / 32`, their softmax along `m` (the row maximum subtracted first), the context
  `∑ m, attn m · V m e`.
  The whole: the normalised input projected onto 3072 columns, read as three slots (query, key, value) of eight heads
  of 128 channels, column `slot · 1024 + head · 128 + e`; per head the context; the heads' contexts side by side as
  1024 channels, projected by `Wout`, plus the bias, plus the input.

  Two further spellings of the same numbers are stated here: the normalisation by the reciprocal square root
  (`rowXnR`: `dev · (var + ε)^(-1/2)` in place of the quotient by the square root) and the projection summed head by
  head (`projH`: `∑ h, ∑ e` over 8 × 128 in place of `∑ c` over 1024, the same finite sum regrouped along
  `c = 128 h + e`).
-/
import Idealize.ShloMosaic.PureOps.Ideal

noncomputable section

namespace Cert.Spec

open Idealize.ShloMosaic

/-- The number of channels, `1024`, as both programs spell it. -/
def nCh : EReal := Ideal.ofBits .f32 0x44800000#32
/-- The variance's offset `ε`: the single-precision number nearest `10⁻³`, the same word in both programs. -/
def eps : EReal := Ideal.ofBits .f32 0x3A83126F#32
/-- The scores' scale `1024^(-1/2) = 1/32`. -/
def scale : EReal := Ideal.ofBits .f32 0x3D000000#32

/-! ## One row's normalisation -/

def rowMean (r : Fin 1024 → EReal) : EReal := Ideal.div (∑ c : Fin 1024, r c) nCh
def rowDev (r : Fin 1024 → EReal) (c : Fin 1024) : EReal := r c - rowMean r
def rowVar (r : Fin 1024 → EReal) : EReal := Ideal.div (∑ c : Fin 1024, rowDev r c * rowDev r c) nCh
/-- The normalised row, the quotient by the square root. -/
def rowXn (r g be : Fin 1024 → EReal) (c : Fin 1024) : EReal :=
  Ideal.div (rowDev r c) (Ideal.sqrt (rowVar r + eps)) * g c + be c
/-- The normalised row, the product with the reciprocal square root. -/
def rowXnR (r g be : Fin 1024 → EReal) (c : Fin 1024) : EReal :=
  rowDev r c * Ideal.rsqrt (rowVar r + eps) * g c + be c

/-! ## One head's attention for one query row -/

def hScore (q : Fin 128 → EReal) (K : Fin 2048 → Fin 128 → EReal) (m : Fin 2048) : EReal :=
  (∑ e : Fin 128, q e * K m e) * scale
def hMax (q : Fin 128 → EReal) (K : Fin 2048 → Fin 128 → EReal) : EReal := Finset.univ.sup fun m : Fin 2048 => hScore q K m
def hExp (q : Fin 128 → EReal) (K : Fin 2048 → Fin 128 → EReal) (m : Fin 2048) : EReal := Ideal.exp (hScore q K m - hMax q K)
def hDen (q : Fin 128 → EReal) (K : Fin 2048 → Fin 128 → EReal) : EReal := ∑ m : Fin 2048, hExp q K m
def hAttn (q : Fin 128 → EReal) (K : Fin 2048 → Fin 128 → EReal) (m : Fin 2048) : EReal := Ideal.div (hExp q K m) (hDen q K)
def hCtx (q : Fin 128 → EReal) (K V : Fin 2048 → Fin 128 → EReal) (e : Fin 128) : EReal :=
  ∑ m : Fin 2048, hAttn q K m * V m e

/-! ## The whole -/

/-- The six argument arrays read at literal coordinates. -/
structure Args where
  x : Fin 4 → Fin 2048 → Fin 1024 → EReal
  g : Fin 1024 → EReal
  be : Fin 1024 → EReal
  wqkv : Fin 1024 → Fin 3072 → EReal
  wout : Fin 1024 → Fin 1024 → EReal
  bo : Fin 1024 → EReal

variable (a : Args)

/-- Column of slot `s` (query 0, key 1, value 2), head `h`, channel `e` among the 3072 projected columns. -/
def col (s : Fin 3) (h : Fin 8) (e : Fin 128) : Fin 3072 := ⟨s.val * 1024 + h.val * 128 + e.val, by omega⟩
/-- Channel `128 h + e` of the 1024. -/
def chan (h : Fin 8) (e : Fin 128) : Fin 1024 := ⟨h.val * 128 + e.val, by omega⟩

def xn (b : Fin 4) (n : Fin 2048) (c : Fin 1024) : EReal := rowXn (a.x b n) a.g a.be c
def qkv (b : Fin 4) (n : Fin 2048) (j : Fin 3072) : EReal := ∑ c : Fin 1024, xn a b n c * a.wqkv c j
/-- Slot `s` of head `h` at position `n`, channel `e`. -/
def slot (s : Fin 3) (b : Fin 4) (h : Fin 8) (n : Fin 2048) (e : Fin 128) : EReal := qkv a b n (col s h e)
def ctx (b : Fin 4) (h : Fin 8) (n : Fin 2048) (e : Fin 128) : EReal :=
  hCtx (slot a 0 b h n) (slot a 1 b h) (slot a 2 b h) e
/-- The heads' contexts side by side: channel `c` is head `c / 128`, channel `c % 128` of it. -/
def ctxCat (b : Fin 4) (n : Fin 2048) (c : Fin 1024) : EReal :=
  ctx a b ⟨c.val / 128, by omega⟩ n ⟨c.val % 128, Nat.mod_lt _ (by decide)⟩
def proj (b : Fin 4) (n : Fin 2048) (d : Fin 1024) : EReal := ∑ c : Fin 1024, ctxCat a b n c * a.wout c d
/-- The projection summed head by head. -/
def projH (b : Fin 4) (n : Fin 2048) (d : Fin 1024) : EReal :=
  ∑ h : Fin 8, ∑ e : Fin 128, ctx a b h n e * a.wout (chan h e) d
/-- The result. -/
def out (b : Fin 4) (n : Fin 2048) (d : Fin 1024) : EReal := a.x b n d + (proj a b n d + a.bo d)

end Cert.Spec

end
-- ==== Proof.PayLib.lean ====
/-
  Operations of a kernel body read at an index given by coordinates, at the extended reals: a plain matrix product
  into a zero accumulator as the sum over the contraction coordinate; a matrix's row sum and row maximum; the two
  shape operations that keep a reduced axis as a unit column; a doubled leading unit axis dropped.
-/
import proofs.«165050_j14989435863585_2_alg».proof.Proof.Gen.KernelIdeal.Skeleton
import proofs.«165050_j14989435863585_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic ValueIdx Cert.KernelIdeal Cert.KernelIdeal.Gen

/-! ## A plain matrix product -/

/-- A plain matrix product (rows by contraction times contraction by columns, no batch axis) into the zero splat, read
    at `(i, j)`: the sum over the contraction coordinate of the operands' products. -/
theorem matmul_plain_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (i : Fin M) (j : Fin N) :
    FloatOps.matmul d prec lhs rhs (constant ⟨2, ![M, N]⟩ .f32 0x00000000#32) (ix2 i j)
      = ∑ k : Fin K, lhs (ix2 i k) * rhs (ix2 k j) := by
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have key0 : ∀ (p : Fin 2), p.val = 0 → ((ix2 i j : (⟨2, ![M, N]⟩ : Shape).Idx) p).val = i.val := by
    intro p hp; obtain rfl : p = 0 := Fin.ext hp; rfl
  have key1 : ∀ (p : Fin 2), p.val = 1 → ((ix2 i j : (⟨2, ![M, N]⟩ : Shape).Idx) p).val = j.val := by
    intro p hp; obtain rfl : p = 1 := Fin.ext hp; rfl
  have hl : d.lhsIdx (ix2 i j) ((contrEquiv1 d K hr hs).symm k) = ix2 i k := by
    funext a
    refine Fin.ext ?_
    match a with
    | ⟨0, _⟩ =>
      simp only [DotDims.lhsIdx, hlb, hln, List.not_mem_nil, List.mem_singleton, dite_false, dite_true, Fin.zero_eta]
      exact key0 _ (by simp [hlb, hln])
    | ⟨1, _⟩ => exact (d.lhsIdx_val_of_single hlc _ _).trans (contrEquiv1_symm_val d K hr hs k)
  have hrr : d.rhsIdx (ix2 i j) ((contrEquiv1 d K hr hs).symm k) = ix2 k j := by
    funext a
    refine Fin.ext ?_
    match a with
    | ⟨0, _⟩ => exact (d.rhsIdx_val_of_single hrc _ _).trans (contrEquiv1_symm_val d K hr hs k)
    | ⟨1, _⟩ =>
      simp only [DotDims.rhsIdx, hrb, hrn, List.not_mem_nil, List.mem_singleton, dite_false, dite_true, Fin.mk_one]
      exact key1 _ (by simp [hlb, hln, hrn])
  rw [hl, hrr]

/-! ## Row reductions of a matrix -/

/-- Over axis 1 of a matrix, the source index above row `r` with column `c` inserted is `(r, c)`. -/
theorem lift_row {A B : ℕ} (h : Shape.Reduces ⟨2, ![A, B]⟩ [1] ⟨1, ![A]⟩) (r : Fin A) (c : Fin B) :
    h.lift (ix1 r) c = ix2 r c := by
  funext a
  refine Fin.ext ?_
  match a with
  | ⟨0, _⟩ => rfl
  | ⟨1, _⟩ => rfl

/-- A row sum: the `add` reduction of a matrix over its columns, read at row `r`. -/
theorem rowSum_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction (F := Ideal) .add [1] ⟨1, ![A]⟩ src acc h hφ hacc (ix1 r) = ∑ c : Fin B, src (ix2 r c) :=
  (Ideal.multiReduction_add_single src acc h hφ hacc (ix1 r)).trans
    (Finset.sum_congr rfl fun c _ => congrArg src (lift_row h r c))

/-- The fold of `max` from `⊥` over a finite set is the set's supremum. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The single-precision word of `-∞` denotes `⊥`. -/
theorem ofBits_neg_inf_f32 : Ideal.ofBits .f32 0xFF800000#32 = ⊥ := by
  simp [Ideal.ofBits, Ideal.ieee]

/-- A row maximum: the `maximumf` reduction of a matrix over its columns from `-∞`, read at row `r`, is the supremum
    of the row. -/
theorem rowMax_apply {A B : ℕ} (src : FVec Ideal ⟨2, ![A, B]⟩ .f32)
    (h : Shape.Reduces ⟨2, ![A, B]⟩ [1] ⟨1, ![A]⟩) (hφ : FKind.Formats .f32)
    (hacc : (0xFF800000#32 : BitVec 32) = FKind.maximumf.neutral .f32 hφ) (r : Fin A) :
    multiReduction (F := Ideal) .maximumf [1] ⟨1, ![A]⟩ src 0xFF800000#32 h hφ hacc (ix1 r)
      = Finset.univ.sup fun c : Fin B => src (ix2 r c) := by
  refine (Ideal.multiReduction_maximumf_single src _ h hφ hacc (ix1 r)).trans ?_
  refine (congrArg (fun z => (Finset.univ : Finset (Fin ((⟨2, ![A, B]⟩ : Shape).size 1))).fold max z
    (src ∘ h.lift (ix1 r))) ofBits_neg_inf_f32).trans ?_
  refine (fold_max_bot_eq_sup _ _).trans ?_
  exact Finset.sup_congr rfl fun c _ => congrArg src (lift_row h r c)

/-! ## The keepdims column forms and a doubled leading unit axis -/

/-- An `[a]` array cast to a column `[a, 1]` reads, at `(r, u)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast along its rows to `[a, b]` reads, at `(r, c)`, the column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-! ## Two transcendental operations at an index -/

/-- An exponential at an index is the exponential of the element. -/
theorem exp_apply {s : Shape} {φ : FTy} (a : FVec Ideal s φ) (i : s.Idx) : exp a i = Ideal.exp (a i) := rfl
/-- A reciprocal square root at an index is that of the element. -/
theorem rsqrt_apply {s : Shape} {φ : FTy} (a : FVec Ideal s φ) (i : s.Idx) : rsqrt a i = Ideal.rsqrt (a i) := rfl

end Cert.KernelIdeal.Pay

end
-- ==== Proof.PayK1.lean ====
/-
  The pure values of the attention kernel's body, read at an index at the extended reals: the accumulator's reset
  (zero), the accumulator's store (itself), the output (accumulator plus bias plus input), and the head step — the
  accumulator plus the head's context projected by the head's 128 rows of the output weights, the context being the
  specification's: scaled scores, softmax along the keys with the row maximum subtracted, product with the values.
-/
import proofs.«165050_j14989435863585_2_alg».proof.Proof.PayLib

noncomputable section

namespace Cert.KernelIdeal.Pay

open Idealize.ShloMosaic ValueIdx Cert.KernelIdeal Cert.KernelIdeal.Gen

namespace K1

/-! ## The small payloads -/

/-- The accumulator's store: a cast to the same shape. -/
theorem pay1_apply (v : FVec Ideal S512x1024 .f32) (j : S512x1024.Idx) : k1_pay1 (F := Ideal) v j = v j := by
  unfold k1_pay1
  rw [shapeCast_self]

/-- The accumulator's reset: the zero splat. -/
theorem pay3_apply (j : S512x1024.Idx) : k1_pay3 (F := Ideal) j = 0 := by
  unfold k1_pay3
  rw [shapeCast_self]
  exact Ideal.ofBits_zero_f32

/-- The output: accumulator plus bias row plus input. -/
theorem pay2_apply (acc : Vec Ideal S512x1024 .f32) (bo : Vec Ideal S1x1024 .f32) (x : Vec Ideal S1x512x1024 .f32)
    (n : Fin 512) (d : Fin 1024) :
    k1_pay2 (F := Ideal) acc bo x (ix3 0 n d) = acc (ix2 n d) + bo (ix2 0 d) + x (ix3 0 n d) := by
  unfold k1_pay2
  rw [shapeCast_ab_1ab_apply, addf_apply, addf_apply, broadcastTo_1b_ab_apply, shapeCast_self, shapeCast_1ab_ab_apply]

/-! ## The head step, stage by stage -/

/-- The scaled scores of the query tile against the keys. -/
def scores (q : Vec Ideal S1x1x512x128 .bf16) (k : Vec Ideal S1x1x2048x128 .bf16) : FVec Ideal S512x2048 .f32 :=
  mulf
    (matmul dot_S512x128_S128x2048_S512x2048_1_0_0_1_n_n none
      (shapeCast S512x128 q shapeCasts_S1x1x512x128_S512x128 : FVec Ideal S512x128 .bf16)
      (transpose S128x2048 [1, 0] (shapeCast S2048x128 k shapeCasts_S1x1x2048x128_S2048x128 : FVec Ideal S2048x128 .bf16)
        transposes_S2048x128_p1_0_S128x2048 : FVec Ideal S128x2048 .bf16)
      (constant S512x2048 .f32 0x00000000#32))
    (broadcast S512x2048 (Scalar.ofBits .f32 0x3D000000#32))

/-- The scores' row maxima, from `-∞`. -/
def smax (q : Vec Ideal S1x1x512x128 .bf16) (k : Vec Ideal S1x1x2048x128 .bf16) : FVec Ideal S512 .f32 :=
  multiReduction .maximumf [1] S512 (scores q k) 0xFF800000#32 reduces_S512x2048_S512 (.inl rfl) rfl

/-- The exponentials of the scores less their row maximum. -/
def expo (q : Vec Ideal S1x1x512x128 .bf16) (k : Vec Ideal S1x1x2048x128 .bf16) : FVec Ideal S512x2048 .f32 :=
  exp (subf (scores q k)
    (broadcastTo S512x2048 (shapeCast S512x1 (smax q k) shapeCasts_S512_S512x1 : FVec Ideal S512x1 .f32)
      broadcasts_S512x1_S512x2048))

/-- The exponentials' row sums. -/
def ssum (q : Vec Ideal S1x1x512x128 .bf16) (k : Vec Ideal S1x1x2048x128 .bf16) : FVec Ideal S512 .f32 :=
  multiReduction .add [1] S512 (expo q k) 0x00000000#32 reduces_S512x2048_S512 (.inl rfl) rfl

/-- The attention weights: the exponentials over their row sum. -/
def attn (q : Vec Ideal S1x1x512x128 .bf16) (k : Vec Ideal S1x1x2048x128 .bf16) : FVec Ideal S512x2048 .f32 :=
  divf (expo q k)
    (broadcastTo S512x2048 (shapeCast S512x1 (ssum q k) shapeCasts_S512_S512x1 : FVec Ideal S512x1 .f32)
      broadcasts_S512x1_S512x2048)

/-- The head's context: the weights times the values. -/
def ctxv (q : Vec Ideal S1x1x512x128 .bf16) (k v : Vec Ideal S1x1x2048x128 .bf16) : FVec Ideal S512x128 .f32 :=
  matmul dot_S512x2048_S2048x128_S512x128_1_0_0_1_n_n none
    (truncf .bf16 (attn q k) bitsLt_bf16_f32 : FVec Ideal S512x2048 .bf16)
    (shapeCast S2048x128 v shapeCasts_S1x1x2048x128_S2048x128 : FVec Ideal S2048x128 .bf16)
    (constant S512x128 .f32 0x00000000#32)

/-- The head step is the accumulator plus the context times the head's rows of the output weights. -/
theorem pay4_eq (q : Vec Ideal S1x1x512x128 .bf16) (k v : Vec Ideal S1x1x2048x128 .bf16) (acc : Vec Ideal S512x1024 .f32)
    (wo : Vec Ideal S128x1024 .bf16) :
    k1_pay4 (F := Ideal) q k v acc wo
      = addf acc (matmul dot_S512x128_S128x1024_S512x1024_1_0_0_1_n_n none
          (truncf .bf16 (ctxv q k v) bitsLt_bf16_f32 : FVec Ideal S512x128 .bf16)
          (shapeCast S128x1024 wo shapeCasts_S128x1024_S128x1024 : FVec Ideal S128x1024 .bf16)
          (constant S512x1024 .f32 0x00000000#32)) := rfl

section Stages
variable (q : Vec Ideal S1x1x512x128 .bf16) (k v : Vec Ideal S1x1x2048x128 .bf16) (n : Fin 512)

/-- Query row `n` of the tile, and the key and value rows, as the specification takes them. -/
abbrev qRow : Fin 128 → EReal := fun e => q (ix4 0 0 n e)
abbrev kRows : Fin 2048 → Fin 128 → EReal := fun m e => k (ix4 0 0 m e)
abbrev vRows : Fin 2048 → Fin 128 → EReal := fun m e => v (ix4 0 0 m e)

theorem scores_apply (m : Fin 2048) : scores q k (ix2 n m) = Cert.Spec.hScore (qRow q n) (kRows k) m := by
  unfold scores Cert.Spec.hScore
  rw [mulf_apply, broadcast_apply]
  refine congrArg₂ (· * ·) ?_ rfl
  refine (matmul_plain_zero_apply dot_S512x128_S128x2048_S512x2048_1_0_0_1_n_n rfl rfl rfl rfl rfl rfl none _ _ n m).trans ?_
  refine Finset.sum_congr rfl fun e _ => ?_
  rw [shapeCast_11ab_ab_apply, transpose_ix2_apply, shapeCast_11ab_ab_apply]

theorem smax_apply : smax q k (ix1 n) = Cert.Spec.hMax (qRow q n) (kRows k) := by
  unfold smax Cert.Spec.hMax
  refine (rowMax_apply _ _ _ _ n).trans ?_
  exact Finset.sup_congr rfl fun m _ => scores_apply q k n m

theorem expo_apply (m : Fin 2048) : expo q k (ix2 n m) = Cert.Spec.hExp (qRow q n) (kRows k) m := by
  unfold expo Cert.Spec.hExp
  rw [exp_apply, subf_apply, broadcastTo_a1_ab_apply, shapeCast_a_a1_apply, smax_apply, scores_apply]

theorem ssum_apply : ssum q k (ix1 n) = Cert.Spec.hDen (qRow q n) (kRows k) := by
  unfold ssum Cert.Spec.hDen
  refine (rowSum_apply _ _ _ _ _ n).trans ?_
  exact Finset.sum_congr rfl fun m _ => expo_apply q k n m

theorem attn_apply (m : Fin 2048) : attn q k (ix2 n m) = Cert.Spec.hAttn (qRow q n) (kRows k) m := by
  unfold attn Cert.Spec.hAttn
  rw [divf_apply, broadcastTo_a1_ab_apply, shapeCast_a_a1_apply, ssum_apply, expo_apply]

theorem ctxv_apply (e : Fin 128) : ctxv q k v (ix2 n e) = Cert.Spec.hCtx (qRow q n) (kRows k) (vRows v) e := by
  unfold ctxv Cert.Spec.hCtx
  refine (matmul_plain_zero_apply dot_S512x2048_S2048x128_S512x128_1_0_0_1_n_n rfl rfl rfl rfl rfl rfl none _ _ n e).trans ?_
  refine Finset.sum_congr rfl fun m _ => ?_
  rw [truncf_apply, attn_apply, shapeCast_11ab_ab_apply]

end Stages

/-- THE HEAD STEP at `(n, d)`: the accumulator there plus, over the head's 128 channels, the specification's context
    of query row `n` times the output weights' row. -/
theorem pay4_apply (q : Vec Ideal S1x1x512x128 .bf16) (k v : Vec Ideal S1x1x2048x128 .bf16) (acc : Vec Ideal S512x1024 .f32)
    (wo : Vec Ideal S128x1024 .bf16) (n : Fin 512) (d : Fin 1024) :
    k1_pay4 (F := Ideal) q k v acc wo (ix2 n d)
      = acc (ix2 n d) + ∑ e : Fin 128,
          Cert.Spec.hCtx (fun e => q (ix4 0 0 n e)) (fun m e => k (ix4 0 0 m e)) (fun m e => v (ix4 0 0 m e)) e
            * wo (ix2 e d) := by
  rw [pay4_eq, addf_apply]
  refine congrArg (acc (ix2 n d) + ·) ?_
  refine (matmul_plain_zero_apply dot_S512x128_S128x1024_S512x1024_1_0_0_1_n_n rfl rfl rfl rfl rfl rfl none _ _ n d).trans ?_
  refine Finset.sum_congr rfl fun e _ => ?_
  rw [truncf_apply, ctxv_apply, shapeCast_self]

end K1

end Cert.KernelIdeal.Pay

end
-- ==== Proof.K1Blocks.lean ====
/-
  The attention kernel's blocks, read at an index.

  A grid point `t` of the 128 is batch `t / 32`, query tile `(t / 8) mod 4`, head `t mod 8`. At it the query window reads
  rows `512 · tile …` of slot `head` of that batch in the projected activations (a 24 × 4 × 2048 × 128 array: slot-and-head,
  batch, position, channel), the key and value windows all 2048 positions of slots `8 + head` and `16 + head`, the input
  window the batch's 512 rows of the tile, the weight window rows `128 · head …` of the output weights, the bias window the
  bias; the output window is the same tile of the result. An element of a block sits in its array at block index × block
  size + its coordinate inside the block, axis by axis. The result array is covered by the blocks of the last-head points.
-/
import proofs.«165050_j14989435863585_2_alg».proof.Proof.K1Body
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (V : (c : Dev nD) → (b : Ref sig .tc) → Buf (Elt F) ((c : Thread nD τ).loc b))

/-! ## The block indices, decided over the grid -/

theorem idx_facts1_0 : ∀ t : Fin cfg1.N, win1_0.index t (0 : Fin 4) = t.val % 8 ∧ win1_0.index t (1 : Fin 4) = t.val / 32
    ∧ win1_0.index t (2 : Fin 4) = (t.val / 8) % 4 ∧ win1_0.index t (3 : Fin 4) = 0 :=
  (by decide +kernel : ∀ t : Fin grid1.N, _)
theorem idx_facts1_1 : ∀ t : Fin cfg1.N, win1_1.index t (0 : Fin 4) = 8 + t.val % 8 ∧ win1_1.index t (1 : Fin 4) = t.val / 32
    ∧ win1_1.index t (2 : Fin 4) = 0 ∧ win1_1.index t (3 : Fin 4) = 0 :=
  (by decide +kernel : ∀ t : Fin grid1.N, _)
theorem idx_facts1_2 : ∀ t : Fin cfg1.N, win1_2.index t (0 : Fin 4) = 16 + t.val % 8 ∧ win1_2.index t (1 : Fin 4) = t.val / 32
    ∧ win1_2.index t (2 : Fin 4) = 0 ∧ win1_2.index t (3 : Fin 4) = 0 :=
  (by decide +kernel : ∀ t : Fin grid1.N, _)
theorem idx_facts1_3 : ∀ t : Fin cfg1.N, win1_3.index t (0 : Fin 3) = t.val / 32 ∧ win1_3.index t (1 : Fin 3) = (t.val / 8) % 4
    ∧ win1_3.index t (2 : Fin 3) = 0 :=
  (by decide +kernel : ∀ t : Fin grid1.N, _)
theorem idx_facts1_4 : ∀ t : Fin cfg1.N, win1_4.index t (0 : Fin 2) = t.val % 8 ∧ win1_4.index t (1 : Fin 2) = 0 :=
  (by decide +kernel : ∀ t : Fin grid1.N, _)
theorem idx_facts1_5 : ∀ t : Fin cfg1.N, win1_5.index t (0 : Fin 2) = 0 ∧ win1_5.index t (1 : Fin 2) = 0 :=
  (by decide +kernel : ∀ t : Fin grid1.N, _)
theorem idx_facts1_6 : ∀ t : Fin cfg1.N, win1_6.index t (0 : Fin 3) = t.val / 32 ∧ win1_6.index t (1 : Fin 3) = (t.val / 8) % 4
    ∧ win1_6.index t (2 : Fin 3) = 0 :=
  (by decide +kernel : ∀ t : Fin grid1.N, _)

/-! ## The input blocks read at an index -/

theorem iblk1_0_apply (c : Dev nD) (t : Fin cfg1.N) (r : Fin 512) (e : Fin 128) (h : Fin 24) (b : Fin 4) (n : Fin 2048) (hh : h.val = t.val % 8) (hb : b.val = t.val / 32) (hn : n.val = 512 * ((t.val / 8) % 4) + r.val) :
    (iblk1 V c 0 t : Vec F S1x1x512x128 .bf16) (ix4 (0 : Fin 1) (0 : Fin 1) r e) = (V c main_v7 : S24x4x2048x128.Idx → F .bf16) (ix4 h b n e) := by
  obtain ⟨f0, f1, f2, f3⟩ := idx_facts1_0 t
  unfold iblk1
  rw [View.read_apply]
  show V c main_v7 _ = V c main_v7 _
  refine congrArg _ ?_
  funext a; apply Fin.ext
  match a with
  | ⟨0, _⟩ => show win1_0.index t (0 : Fin 4) * 1 + 1 * 0 = h.val; omega
  | ⟨1, _⟩ => show win1_0.index t (1 : Fin 4) * 1 + 1 * 0 = b.val; omega
  | ⟨2, _⟩ => show win1_0.index t (2 : Fin 4) * 512 + 1 * r.val = n.val; omega
  | ⟨3, _⟩ => show win1_0.index t (3 : Fin 4) * 128 + 1 * e.val = e.val; omega

theorem iblk1_1_apply (c : Dev nD) (t : Fin cfg1.N) (mm : Fin 2048) (e : Fin 128) (h : Fin 24) (b : Fin 4) (hh : h.val = 8 + t.val % 8) (hb : b.val = t.val / 32) :
    (iblk1 V c 1 t : Vec F S1x1x2048x128 .bf16) (ix4 (0 : Fin 1) (0 : Fin 1) mm e) = (V c main_v7 : S24x4x2048x128.Idx → F .bf16) (ix4 h b mm e) := by
  obtain ⟨f0, f1, f2, f3⟩ := idx_facts1_1 t
  unfold iblk1
  rw [View.read_apply]
  show V c main_v7 _ = V c main_v7 _
  refine congrArg _ ?_
  funext a; apply Fin.ext
  match a with
  | ⟨0, _⟩ => show win1_1.index t (0 : Fin 4) * 1 + 1 * 0 = h.val; omega
  | ⟨1, _⟩ => show win1_1.index t (1 : Fin 4) * 1 + 1 * 0 = b.val; omega
  | ⟨2, _⟩ => show win1_1.index t (2 : Fin 4) * 2048 + 1 * mm.val = mm.val; omega
  | ⟨3, _⟩ => show win1_1.index t (3 : Fin 4) * 128 + 1 * e.val = e.val; omega

theorem iblk1_2_apply (c : Dev nD) (t : Fin cfg1.N) (mm : Fin 2048) (e : Fin 128) (h : Fin 24) (b : Fin 4) (hh : h.val = 16 + t.val % 8) (hb : b.val = t.val / 32) :
    (iblk1 V c 2 t : Vec F S1x1x2048x128 .bf16) (ix4 (0 : Fin 1) (0 : Fin 1) mm e) = (V c main_v7 : S24x4x2048x128.Idx → F .bf16) (ix4 h b mm e) := by
  obtain ⟨f0, f1, f2, f3⟩ := idx_facts1_2 t
  unfold iblk1
  rw [View.read_apply]
  show V c main_v7 _ = V c main_v7 _
  refine congrArg _ ?_
  funext a; apply Fin.ext
  match a with
  | ⟨0, _⟩ => show win1_2.index t (0 : Fin 4) * 1 + 1 * 0 = h.val; omega
  | ⟨1, _⟩ => show win1_2.index t (1 : Fin 4) * 1 + 1 * 0 = b.val; omega
  | ⟨2, _⟩ => show win1_2.index t (2 : Fin 4) * 2048 + 1 * mm.val = mm.val; omega
  | ⟨3, _⟩ => show win1_2.index t (3 : Fin 4) * 128 + 1 * e.val = e.val; omega

theorem iblk1_3_apply (c : Dev nD) (t : Fin cfg1.N) (r : Fin 512) (d : Fin 1024) (b : Fin 4) (n : Fin 2048) (hb : b.val = t.val / 32) (hn : n.val = 512 * ((t.val / 8) % 4) + r.val) :
    (iblk1 V c 3 t : Vec F S1x512x1024 .f32) (ix3 (0 : Fin 1) r d) = (V c main_arg0 : S4x2048x1024.Idx → F .f32) (ix3 b n d) := by
  obtain ⟨f0, f1, f2⟩ := idx_facts1_3 t
  unfold iblk1
  rw [View.read_apply]
  show V c main_arg0 _ = V c main_arg0 _
  refine congrArg _ ?_
  funext a; apply Fin.ext
  match a with
  | ⟨0, _⟩ => show win1_3.index t (0 : Fin 3) * 1 + 1 * 0 = b.val; omega
  | ⟨1, _⟩ => show win1_3.index t (1 : Fin 3) * 512 + 1 * r.val = n.val; omega
  | ⟨2, _⟩ => show win1_3.index t (2 : Fin 3) * 1024 + 1 * d.val = d.val; omega

theorem iblk1_4_apply (c : Dev nD) (t : Fin cfg1.N) (e : Fin 128) (d : Fin 1024) (ch : Fin 1024) (hc : ch.val = 128 * (t.val % 8) + e.val) :
    (iblk1 V c 4 t : Vec F S128x1024 .bf16) (ix2 e d) = (V c main_v4 : S1024x1024.Idx → F .bf16) (ix2 ch d) := by
  obtain ⟨f0, f1⟩ := idx_facts1_4 t
  unfold iblk1
  rw [View.read_apply]
  show V c main_v4 _ = V c main_v4 _
  refine congrArg _ ?_
  funext a; apply Fin.ext
  match a with
  | ⟨0, _⟩ => show win1_4.index t (0 : Fin 2) * 128 + 1 * e.val = ch.val; omega
  | ⟨1, _⟩ => show win1_4.index t (1 : Fin 2) * 1024 + 1 * d.val = d.val; omega

theorem iblk1_5_apply (c : Dev nD) (t : Fin cfg1.N) (d : Fin 1024)   :
    (iblk1 V c 5 t : Vec F S1x1024 .f32) (ix2 (0 : Fin 1) d) = (V c main_v5 : S1x1024.Idx → F .f32) (ix2 (0 : Fin 1) d) := by
  obtain ⟨f0, f1⟩ := idx_facts1_5 t
  unfold iblk1
  rw [View.read_apply]
  show V c main_v5 _ = V c main_v5 _
  refine congrArg _ ?_
  funext a; apply Fin.ext
  match a with
  | ⟨0, _⟩ => show win1_5.index t (0 : Fin 2) * 1 + 1 * 0 = 0; omega
  | ⟨1, _⟩ => show win1_5.index t (1 : Fin 2) * 1024 + 1 * d.val = d.val; omega

/-! ## The result array's blocks -/

/-- An index of the result array is in point `t`'s block iff each coordinate is in the block's range on its axis. -/
theorem mem_blk6 (t : Fin cfg1.N) (i : S4x2048x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v8).slice (win1_6.rect t)).set ↔ _
  rw [View.set_slice_whole, Rect.mem_set_unit]
  exact Iff.rfl

/-- The last-head point of batch `b` and query tile `q`. -/
def lastPt (b : Fin 4) (q : Fin 4) : Fin cfg1.N := ⟨32 * b.val + 8 * q.val + 7, by rw [show cfg1.N = 128 from N_1]; omega⟩

/-- Every index of the result array is in the block of a point that writes it back: the last head of its batch and tile. -/
theorem cover6 (i : S4x2048x1024.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 1024 := (i 2).isLt
  refine ⟨lastPt ⟨(i 0).val, h0⟩ ⟨(i 1).val / 512, by omega⟩, (flush1_6 _).mpr (by show (32 * (i 0).val + 8 * ((i 1).val / 512) + 7) % 8 = 7; omega), ?_⟩
  rw [mem_blk6]
  obtain ⟨f0, f1, f2⟩ := idx_facts1_6 (lastPt ⟨(i 0).val, h0⟩ ⟨(i 1).val / 512, by omega⟩)
  have hv : (lastPt ⟨(i 0).val, h0⟩ ⟨(i 1).val / 512, by omega⟩).val = 32 * (i 0).val + 8 * ((i 1).val / 512) + 7 := rfl
  intro a
  match a with
  | ⟨0, _⟩ => show win1_6.index _ (0 : Fin 3) * 1 ≤ (i 0).val ∧ (i 0).val < win1_6.index _ (0 : Fin 3) * 1 + 1; rw [f0, hv]; omega
  | ⟨1, _⟩ => show win1_6.index _ (1 : Fin 3) * 512 ≤ (i 1).val ∧ (i 1).val < win1_6.index _ (1 : Fin 3) * 512 + 512; rw [f1, hv]; omega
  | ⟨2, _⟩ => show win1_6.index _ (2 : Fin 3) * 1024 ≤ (i 2).val ∧ (i 2).val < win1_6.index _ (2 : Fin 3) * 1024 + 1024; rw [f2]; omega

end Cert.KernelIdeal.Hand

end
-- ==== Proof.K1Acc.lean ====
/-
  The accumulator's closed form. After the point at head `h` of a batch and query tile, the accumulator holds, at row
  `r` and column `d`, the sum over the heads `0 … h` of the head's context — of that batch, at position
  `512 · tile + r` — projected by the head's 128 rows of the output weights. By induction on the point: a first head
  clears and adds its own term; a later head adds its term to what the point before left, and the point before is the
  same batch and tile, one head earlier. After a last head the output tile holds the eight heads' terms, plus the
  bias, plus the input.
-/
import proofs.«165050_j14989435863585_2_alg».proof.Proof.K1Pieces
import proofs.«165050_j14989435863585_2_alg».proof.Proof.PayK1
import proofs.«165050_j14989435863585_2_alg».proof.Proof.K1Blocks

set_option maxRecDepth 16384

noncomputable section

namespace Cert.KernelIdeal.Hand

open Cert.KernelIdeal Cert.KernelIdeal.Gen
open Idealize.ShloMosaic Idealize.ShloMosaic.TcCoe
open Idealize.SL.Sem
open ValueIdx

/-! ## What each point leaves, over the point's blocks (at any float instance) -/

section AnyInstance
variable {F : FTy → Type} [FloatOps F]
variable (V : (c : Dev nD) → (b : Ref sig .tc) → Buf (Elt F) ((c : Thread nD τ).loc b))

/-- After a first head: the head step over the zero block. -/
theorem acc1_A (c : Dev nD) (t : Fin cfg1.N) (h0 : t.val % 8 = 0) (h1 : ¬t.val % 8 = 7) :
    (outsAt1 V c t.val t.isLt).2
      = k1_pay1 (k1_pay4 (iblk1 V c 0 t) (iblk1 V c 1 t) (iblk1 V c 2 t) (k1_pay3 (F := F)) (iblk1 V c 4 t)) :=
  by
  rw [outsAt1_A V c t h0 h1]
  dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)

/-- After a middle head: the head step over what the point before left. -/
theorem acc1_B (c : Dev nD) (t : Fin cfg1.N) (h0 : ¬t.val % 8 = 0) (h1 : ¬t.val % 8 = 7) :
    (outsAt1 V c t.val t.isLt).2
      = k1_pay1 (k1_pay4 (iblk1 V c 0 t) (iblk1 V c 1 t) (iblk1 V c 2 t) (outsAt1 V c (t.val - 1) (Nat.lt_of_le_of_lt (Nat.sub_le _ _) t.isLt)).2 (iblk1 V c 4 t)) :=
  by
  rw [outsAt1_B V c t h0 h1]
  dsimp only
  exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- After a last head, the accumulator: likewise. -/
theorem acc1_C (c : Dev nD) (t : Fin cfg1.N) (h0 : ¬t.val % 8 = 0) (h1 : t.val % 8 = 7) :
    (outsAt1 V c t.val t.isLt).2
      = k1_pay1 (k1_pay4 (iblk1 V c 0 t) (iblk1 V c 1 t) (iblk1 V c 2 t) (outsAt1 V c (t.val - 1) (Nat.lt_of_le_of_lt (Nat.sub_le _ _) t.isLt)).2 (iblk1 V c 4 t)) :=
  by
  rw [outsAt1_C V c t h0 h1]
  dsimp only
  exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

/-- After a last head, the output tile: the accumulator just stored, plus the bias row, plus the input tile. -/
theorem out1_C (c : Dev nD) (t : Fin cfg1.N) (h0 : ¬t.val % 8 = 0) (h1 : t.val % 8 = 7) :
    (outsAt1 V c t.val t.isLt).1
      = k1_pay2 (k1_pay1 (k1_pay4 (iblk1 V c 0 t) (iblk1 V c 1 t) (iblk1 V c 2 t) (outsAt1 V c (t.val - 1) (Nat.lt_of_le_of_lt (Nat.sub_le _ _) t.isLt)).2 (iblk1 V c 4 t)))
          (iblk1 V c 5 t) (iblk1 V c 3 t) :=
  by
  rw [outsAt1_C V c t h0 h1]
  dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2

end AnyInstance

variable (V : (c : Dev nD) → (b : Ref sig .tc) → Buf (Elt Ideal) ((c : Thread nD τ).loc b))

/-! ## One head's term -/

/-- Head `h`'s context of batch `b` at position `n`, projected by its 128 rows of the output weights, column `d`. -/
def headTerm (c : Dev nD) (b : Fin 4) (n : Fin 2048) (h : Fin 8) (d : Fin 1024) : EReal :=
  ∑ e : Fin 128,
    Cert.Spec.hCtx (fun e => (V c main_v7 : S24x4x2048x128.Idx → EReal) (ix4 ⟨h.val, by omega⟩ b n e))
        (fun mm e => (V c main_v7 : S24x4x2048x128.Idx → EReal) (ix4 ⟨8 + h.val, by omega⟩ b mm e))
        (fun mm e => (V c main_v7 : S24x4x2048x128.Idx → EReal) (ix4 ⟨16 + h.val, by omega⟩ b mm e)) e
      * (V c main_v4 : S1024x1024.Idx → EReal) (ix2 ⟨128 * h.val + e.val, by omega⟩ d)

/-- The same over a natural head number, zero from 8 on. -/
def headTermN (c : Dev nD) (b : Fin 4) (n : Fin 2048) (d : Fin 1024) (k : ℕ) : EReal :=
  if hk : k < 8 then headTerm V c b n ⟨k, hk⟩ d else 0

theorem headTermN_val (c : Dev nD) (b : Fin 4) (n : Fin 2048) (d : Fin 1024) (h : Fin 8) :
    headTermN V c b n d h.val = headTerm V c b n h d := by
  unfold headTermN
  rw [dif_pos h.isLt]

/-! ## A head step over blocks -/

/-- One head step's term over the blocks the body reads, at row `r` and column `d`. -/
def stepTerm (q : Vec Ideal S1x1x512x128 .bf16) (k v : Vec Ideal S1x1x2048x128 .bf16) (wo : Vec Ideal S128x1024 .bf16)
    (r : Fin 512) (d : Fin 1024) : EReal :=
  ∑ e : Fin 128,
    Cert.Spec.hCtx (fun e => q (ix4 0 0 r e)) (fun mm e => k (ix4 0 0 mm e)) (fun mm e => v (ix4 0 0 mm e)) e * wo (ix2 e d)

/-- A first head's accumulator: the head's term, added to zero. -/
theorem first_apply (q : Vec Ideal S1x1x512x128 .bf16) (k v : Vec Ideal S1x1x2048x128 .bf16) (wo : Vec Ideal S128x1024 .bf16)
    (r : Fin 512) (d : Fin 1024) :
    k1_pay1 (F := Ideal) (k1_pay4 q k v (k1_pay3 (F := Ideal)) wo) (ix2 r d) = stepTerm q k v wo r d := by
  rw [Pay.K1.pay1_apply, Pay.K1.pay4_apply, Pay.K1.pay3_apply, zero_add]
  rfl

/-- A later head's accumulator: the accumulator before plus the head's term. -/
theorem step_apply (q : Vec Ideal S1x1x512x128 .bf16) (k v : Vec Ideal S1x1x2048x128 .bf16) (acc : Vec Ideal S512x1024 .f32)
    (wo : Vec Ideal S128x1024 .bf16) (r : Fin 512) (d : Fin 1024) :
    k1_pay1 (F := Ideal) (k1_pay4 q k v acc wo) (ix2 r d) = acc (ix2 r d) + stepTerm q k v wo r d := by
  rw [Pay.K1.pay1_apply, Pay.K1.pay4_apply]
  rfl

/-- At point `t` the blocks are the arrays' rows of `t`'s batch, tile and head: the step's term is the head's. -/
theorem stepTerm_blocks (c : Dev nD) (t : Fin cfg1.N) (r : Fin 512) (d : Fin 1024) (b : Fin 4) (n : Fin 2048)
    (hb : b.val = t.val / 32) (hn : n.val = 512 * ((t.val / 8) % 4) + r.val) :
    stepTerm (iblk1 V c 0 t) (iblk1 V c 1 t) (iblk1 V c 2 t) (iblk1 V c 4 t) r d = headTermN V c b n d (t.val % 8) := by
  have h8 : t.val % 8 < 8 := Nat.mod_lt _ (by decide)
  unfold headTermN
  rw [dif_pos h8]
  unfold stepTerm headTerm
  refine Finset.sum_congr rfl fun e _ => ?_
  have hq : (fun e => (iblk1 V c 0 t : Vec Ideal S1x1x512x128 .bf16) (ix4 0 0 r e))
      = fun e => (V c main_v7 : S24x4x2048x128.Idx → EReal) (ix4 ⟨t.val % 8, by omega⟩ b n e) :=
    funext fun e => iblk1_0_apply V c t r e ⟨t.val % 8, by omega⟩ b n rfl hb hn
  have hk : (fun mm e => (iblk1 V c 1 t : Vec Ideal S1x1x2048x128 .bf16) (ix4 0 0 mm e))
      = fun mm e => (V c main_v7 : S24x4x2048x128.Idx → EReal) (ix4 ⟨8 + t.val % 8, by omega⟩ b mm e) :=
    funext fun mm => funext fun e => iblk1_1_apply V c t mm e ⟨8 + t.val % 8, by omega⟩ b rfl hb
  have hv : (fun mm e => (iblk1 V c 2 t : Vec Ideal S1x1x2048x128 .bf16) (ix4 0 0 mm e))
      = fun mm e => (V c main_v7 : S24x4x2048x128.Idx → EReal) (ix4 ⟨16 + t.val % 8, by omega⟩ b mm e) :=
    funext fun mm => funext fun e => iblk1_2_apply V c t mm e ⟨16 + t.val % 8, by omega⟩ b rfl hb
  have hw : (iblk1 V c 4 t : Vec Ideal S128x1024 .bf16) (ix2 e d)
      = (V c main_v4 : S1024x1024.Idx → EReal) (ix2 ⟨128 * (t.val % 8) + e.val, by omega⟩ d) :=
    iblk1_4_apply V c t e d ⟨128 * (t.val % 8) + e.val, by omega⟩ rfl
  rw [hq, hk, hv, hw]

/-! ## The accumulator after each point -/

/-- The closed form at every point, by induction on the point's number. -/
theorem acc_eq_nat (c : Dev nD) : ∀ (m : ℕ) (t : Fin cfg1.N), t.val = m → ∀ (r : Fin 512) (d : Fin 1024) (b : Fin 4)
    (n : Fin 2048), b.val = t.val / 32 → n.val = 512 * ((t.val / 8) % 4) + r.val →
    (outsAt1 (F := Ideal) V c t.val t.isLt).2 (ix2 r d) = ∑ k ∈ Finset.range (t.val % 8 + 1), headTermN V c b n d k := by
  intro m
  induction m using Nat.strong_induction_on with
  | _ m ih =>
    intro t htm r d b n hb hn
    have hN : cfg1.N = 128 := N_1
    have htlt : t.val < 128 := hN ▸ t.isLt
    by_cases h0 : t.val % 8 = 0
    · have h1 : ¬t.val % 8 = 7 := by omega
      rw [acc1_A V c t h0 h1, first_apply, stepTerm_blocks V c t r d b n hb hn, h0, Nat.zero_add, Finset.sum_range_one]
    · have hprev : (outsAt1 V c (t.val - 1) (Nat.lt_of_le_of_lt (Nat.sub_le _ _) t.isLt)).2 (ix2 r d) = ∑ k ∈ Finset.range (t.val % 8), headTermN V c b n d k := by
        have hlt' : t.val - 1 < cfg1.N := Nat.lt_of_le_of_lt (Nat.sub_le _ _) t.isLt
        have := ih (t.val - 1) (by omega) ⟨t.val - 1, hlt'⟩ rfl r d b n
          (by show b.val = (t.val - 1) / 32; omega) (by show n.val = 512 * (((t.val - 1) / 8) % 4) + r.val; omega)
        refine this.trans ?_
        show ∑ k ∈ Finset.range ((t.val - 1) % 8 + 1), headTermN V c b n d k = _
        rw [show (t.val - 1) % 8 + 1 = t.val % 8 by omega]
      by_cases h1 : t.val % 8 = 7
      · rw [acc1_C V c t h0 h1, step_apply, stepTerm_blocks V c t r d b n hb hn, Finset.sum_range_succ, hprev]
      · rw [acc1_B V c t h0 h1, step_apply, stepTerm_blocks V c t r d b n hb hn, Finset.sum_range_succ, hprev]

/-- THE ACCUMULATOR after point `t`, at row `r` and column `d`: the head terms of `t`'s batch at position
    `512 · tile + r`, summed over the heads up to `t`'s. -/
theorem acc_eq (c : Dev nD) (t : Fin cfg1.N) (r : Fin 512) (d : Fin 1024) (b : Fin 4) (n : Fin 2048)
    (hb : b.val = t.val / 32) (hn : n.val = 512 * ((t.val / 8) % 4) + r.val) :
    (outsAt1 (F := Ideal) V c t.val t.isLt).2 (ix2 r d) = ∑ k ∈ Finset.range (t.val % 8 + 1), headTermN V c b n d k :=
  acc_eq_nat V c t.val t rfl r d b n hb hn

/-! ## The output tile after a last head -/

/-- THE OUTPUT TILE after a last-head point: the eight heads' terms, plus the bias, plus the input. -/
theorem out6_eq (c : Dev nD) (t : Fin cfg1.N) (h7 : t.val % 8 = 7) (r : Fin 512) (d : Fin 1024) (b : Fin 4) (n : Fin 2048)
    (hb : b.val = t.val / 32) (hn : n.val = 512 * ((t.val / 8) % 4) + r.val) :
    (outsAt1 (F := Ideal) V c t.val t.isLt).1 (ix3 (0 : Fin 1) r d)
      = (∑ h : Fin 8, headTerm V c b n h d) + (V c main_v5 : S1x1024.Idx → EReal) (ix2 0 d)
        + (V c main_arg0 : S4x2048x1024.Idx → EReal) (ix3 b n d) := by
  have h0 : ¬t.val % 8 = 0 := by omega
  have hacc := acc_eq V c t r d b n hb hn
  rw [acc1_C V c t h0 h7] at hacc
  rw [out1_C V c t h0 h7, Pay.K1.pay2_apply, hacc, iblk1_5_apply V c t d, iblk1_3_apply V c t r d b n hb hn, h7,
    ← Fin.sum_univ_eq_sum_range (fun k => headTermN V c b n d k) 8]
  refine congrArg (· + _) (congrArg (· + _) ?_)
  exact Finset.sum_congr rfl fun h _ => headTermN_val V c b n d h

end Cert.KernelIdeal.Hand

end
-- ==== Proof.K1Final.lean ====
/-
  The attention kernel's result array.

  Only the last-head points write the output tile back, and what such a point writes is, at row `r` and column `d` of
  its tile, the accumulator after all eight heads plus the bias plus the input. With the accumulator's closed form (the sum
  over the heads of each head's context projected by its 128 rows of the output weights), every block written back is the
  corresponding block of ONE function `G1` of the arrays the region found; and the last-head points' blocks cover the result
  array (batch `b`, tile `q` is written by point `32 b + 8 q + 7`). So the result array ends at `G1`.
-/
import proofs.«165050_j14989435863585_2_alg».proof.Proof.K1Acc
import proofs.«165050_j14989435863585_2_alg».proof.Proof.K1Blocks
import proofs.«165050_j14989435863585_2_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx

variable (V : (c : Dev nD) → (b : Ref sig .tc) → Buf (Elt Ideal) ((c : Thread nD τ).loc b))

/-- The result array as one function of the arrays the region finds: at batch `b`, position `n`, column `d` the sum over the
    eight heads of the head terms, plus the bias, plus the input. -/
def g1 (c : Dev nD) (b : Fin 4) (n : Fin 2048) (d : Fin 1024) : EReal :=
  (∑ h : Fin 8, headTerm V c b n h d) + (V c main_v5 : S1x1024.Idx → EReal) (ix2 0 d) + (V c main_arg0 : S4x2048x1024.Idx → EReal) (ix3 b n d)

def G1 (c : Dev nD) : S4x2048x1024.Idx → EReal := fun i => g1 V c (i 0) (i 1) (i 2)

/-- WHAT A LAST-HEAD POINT WRITES BACK is its block of `G1`. -/
theorem flushed6_eq (c : Dev nD) (t : Fin cfg1.N) (hf : (cfg1.win 6).flush t = true) :
    (dat1 (F := Ideal) V c).flushed 6 t = ((cfg1.win 6).blk t).view.read (Elt Ideal) (G1 V c) := by
  have h7 : t.val % 8 = 7 := (flush1_6 t).mp hf
  have hN : t.val < 128 := lt_of_lt_of_eq t.isLt (show cfg1.N = 128 from N_1)
  show (cfg1.win 6).cut (grid1.coords t) ((dat1 (F := Ideal) V c).after 6 t) = _
  rw [after1_6]
  refine funext fun (j : S1x512x1024.Idx) => ?_
  show (outsAt1 (F := Ideal) V c t.val t.isLt).1 j = G1 V c (((cfg1.win 6).blk t).view.emb j)
  have hlt : (j 0).val < 1 := (j 0).isLt
  have h0v : (j 0).val = 0 := by omega
  obtain ⟨r, d, rfl⟩ : ∃ (r : Fin 512) (d : Fin 1024), j = ix3 (0 : Fin 1) r d :=
    ⟨j 1, j 2, funext fun a => by
      match a with
      | ⟨0, _⟩ => exact Fin.ext h0v
      | ⟨1, _⟩ => rfl
      | ⟨2, _⟩ => rfl⟩
  have he : ((cfg1.win 6).blk t).view.emb (ix3 (0 : Fin 1) r d)
      = ix3 (⟨t.val / 32, by omega⟩ : Fin 4) (⟨512 * ((t.val / 8) % 4) + r.val, by omega⟩ : Fin 2048) d := by
    obtain ⟨f0, f1, f2⟩ := idx_facts1_6 t
    funext a; apply Fin.ext
    match a with
    | ⟨0, _⟩ => show win1_6.index t (0 : Fin 3) * 1 + 1 * 0 = t.val / 32; omega
    | ⟨1, _⟩ => show win1_6.index t (1 : Fin 3) * 512 + 1 * r.val = 512 * ((t.val / 8) % 4) + r.val; omega
    | ⟨2, _⟩ => show win1_6.index t (2 : Fin 3) * 1024 + 1 * d.val = d.val; omega
  rw [he, out6_eq V c t h7 r d ⟨t.val / 32, by omega⟩ ⟨512 * ((t.val / 8) % 4) + r.val, by omega⟩ rfl rfl]
  rfl

/-- THE RESULT ARRAY after the region: `G1` of the arrays it found. -/
theorem final1 (c : Dev nD) : (dat1 (F := Ideal) V c).arrAt 6 cfg1.N = G1 V c :=
  (dat1 (F := Ideal) V c).arrAt_eq_of_cover 6 (G1 V c) (fun t hf => flushed6_eq V c t hf) cover6

end Cert.KernelIdeal.Hand

end
-- ==== Proof.K0Value.lean ====
/-
  What kernel 0 leaves in its output block, read as ONE function of the projected block.

  The body computes the block `P` of 1024 rows by 3072 columns (LayerNorm of the rows, projected, rounded to bfloat16)
  and stores it as 24 slabs: slab `k` is the 128 columns `128 k .. 128 k + 127` of `P`, with a leading unit axis, stored
  at `[k, :, :]`. So at index `(k, r, e)` the output block holds `P (r, 128 k + e)`: the slabs tile the block, each
  slab's payload is that function of the block index under it, and the contents a covering list of stores leaves
  is, at every index, the payload of the store that holds it.
-/
import proofs.«165050_j14989435863585_2_alg».proof.Proof.K0Run
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The offsets of a load of a whole rank-2 block are zero on both axes. -/
theorem offs_zero2 : (![0, 0] : Fin 2 → Nat) = fun _ => 0 := funext fun a => by fin_cases a <;> rfl

/-- The output block as a function of the projected block `P`: at `(k, r, e)`, row `r` and column `128 k + e` of `P`. -/
def slabs (P : FVec F S1024x3072 .bf16) (y : S24x1024x128.Idx) : Elt F .bf16 :=
  P (ix2 (y 1) ⟨128 * (y 0).val + (y 2).val, by
    have h0 : (y 0).val < 24 := (y 0).isLt
    have h2 : (y 2).val < 128 := (y 2).isLt
    omega⟩)

/-- ONE slab: the 128 columns of `P` from `o = 128 k`, given a leading unit axis, read at a slab index `x`, is `slabs P`
    at the block index the slab's rectangle `[k, :, :]` places `x` at. The shape cast reads `(u, r, e)` at `(r, e)`, the
    slice reads `(r, e)` at `(r, o + e)`, and the rectangle places `(u, r, e)` at `(k + u, r, e)` with `u = 0`. -/
theorem slab_apply (P : FVec F S1024x3072 .bf16) (k o : Nat) (ho : o = 128 * k)
    (h : S1024x3072.Slices ![0, o] S1024x128) (h' : S1024x128.ShapeCasts S1x1024x128)
    (inb : ∀ a, (![k, 0, 0] : Fin 3 → Nat) a + S1x1024x128.size a ≤ S24x1024x128.size a)
    (x : S1x1024x128.Idx) :
    shapeCast S1x1024x128 (extractStridedSlice S1024x128 ![0, o] P h) h' x
      = slabs P ((Rect.unit (s := S24x1024x128) ![k, 0, 0] S1x1024x128.size inb).emb x) := by
  obtain ⟨u, r, e, rfl⟩ : ∃ (u : Fin 1) (r : Fin 1024) (e : Fin 128), x = ix3 u r e := ⟨x 0, x 1, x 2, eq_ix3 x⟩
  rw [shapeCast_ab_1ab_apply, slice2_axis1_eq]
  unfold slabs
  congr 1
  funext a
  have hu : u.val = 0 := by omega
  match a with
  | ⟨0, _⟩ => exact Fin.ext (by show r.val = 0 + 1 * r.val; omega)
  | ⟨1, _⟩ => exact Fin.ext (by show o + e.val = 128 * (k + 1 * u.val) + (0 + 1 * e.val); omega)

set_option maxHeartbeats 4000000 in
/-- What the body leaves in the output block at `(k, r, e)`: the projected block of the four input blocks at row `r`,
    column `128 k + e`. -/
theorem out0_4_apply (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S24x1024x128 .bf16) (harg5 : arg5.IsWhole)
    (x0 : Vec F S1024x1024 .f32) (x1 x2 : Vec F S1x1024 .f32) (x3 : Vec F S1024x3072 .bf16) (k : Fin 24) (r : Fin 1024) (e : Fin 128) :
    out0_4 c i arg1 harg1 arg2 harg2 arg3 harg3 arg4 harg4 arg5 harg5 x0 x1 x2 x3 (ix3 k r e) = k0_pay1 x0 x1 x2 x3 (ix2 r ⟨128 * k.val + e.val, by omega⟩) := by
  unfold out0_4
  rw [View.read_writes_eq_canon _ _ _ (cover0_4 c i arg1 harg1 arg2 harg2 arg3 harg3 arg4 harg4 arg5 harg5 x0 x1 x2 x3)]
  unfold kernelRun0
  dsimp only
  sl_unfold_words
  -- each input is loaded whole from a buffer holding it: the loads read the blocks themselves
  simp only [View.readAt_eq_ld, harg1.read_unread, harg2.read_unread, harg3.read_unread, harg4.read_unread,
    View.ld_unit_zero (S := S1024x1024) offs_zero2, View.ld_unit_zero (S := S1x1024) offs_zero2,
    View.ld_unit_zero (S := S1024x3072) offs_zero2]
  -- every payload is a slice of the projected block with a leading unit axis
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  generalize k0_pay1 x0 x1 x2 x3 = P
  refine (View.canon_apply_of_pieces (slabs P) _ ?_ _ ?_).trans rfl
  · intro pc hpc x
    simp only [List.mem_cons, List.mem_nil_iff, or_false] at hpc
    rcases hpc with rfl | rfl | rfl | rfl | rfl | rfl | rfl | rfl | rfl | rfl | rfl | rfl | rfl | rfl | rfl | rfl | rfl | rfl | rfl | rfl | rfl | rfl | rfl | rfl
    · exact slab_apply P 23 2944 rfl slices_S1024x3072_o0_2944_S1024x128 shapeCasts_S1024x128_S1x1024x128 inb_S24x1024x128_S1x1024x128_23_0_0 x
    · exact slab_apply P 22 2816 rfl slices_S1024x3072_o0_2816_S1024x128 shapeCasts_S1024x128_S1x1024x128 inb_S24x1024x128_S1x1024x128_22_0_0 x
    · exact slab_apply P 21 2688 rfl slices_S1024x3072_o0_2688_S1024x128 shapeCasts_S1024x128_S1x1024x128 inb_S24x1024x128_S1x1024x128_21_0_0 x
    · exact slab_apply P 20 2560 rfl slices_S1024x3072_o0_2560_S1024x128 shapeCasts_S1024x128_S1x1024x128 inb_S24x1024x128_S1x1024x128_20_0_0 x
    · exact slab_apply P 19 2432 rfl slices_S1024x3072_o0_2432_S1024x128 shapeCasts_S1024x128_S1x1024x128 inb_S24x1024x128_S1x1024x128_19_0_0 x
    · exact slab_apply P 18 2304 rfl slices_S1024x3072_o0_2304_S1024x128 shapeCasts_S1024x128_S1x1024x128 inb_S24x1024x128_S1x1024x128_18_0_0 x
    · exact slab_apply P 17 2176 rfl slices_S1024x3072_o0_2176_S1024x128 shapeCasts_S1024x128_S1x1024x128 inb_S24x1024x128_S1x1024x128_17_0_0 x
    · exact slab_apply P 16 2048 rfl slices_S1024x3072_o0_2048_S1024x128 shapeCasts_S1024x128_S1x1024x128 inb_S24x1024x128_S1x1024x128_16_0_0 x
    · exact slab_apply P 15 1920 rfl slices_S1024x3072_o0_1920_S1024x128 shapeCasts_S1024x128_S1x1024x128 inb_S24x1024x128_S1x1024x128_15_0_0 x
    · exact slab_apply P 14 1792 rfl slices_S1024x3072_o0_1792_S1024x128 shapeCasts_S1024x128_S1x1024x128 inb_S24x1024x128_S1x1024x128_14_0_0 x
    · exact slab_apply P 13 1664 rfl slices_S1024x3072_o0_1664_S1024x128 shapeCasts_S1024x128_S1x1024x128 inb_S24x1024x128_S1x1024x128_13_0_0 x
    · exact slab_apply P 12 1536 rfl slices_S1024x3072_o0_1536_S1024x128 shapeCasts_S1024x128_S1x1024x128 inb_S24x1024x128_S1x1024x128_12_0_0 x
    · exact slab_apply P 11 1408 rfl slices_S1024x3072_o0_1408_S1024x128 shapeCasts_S1024x128_S1x1024x128 inb_S24x1024x128_S1x1024x128_11_0_0 x
    · exact slab_apply P 10 1280 rfl slices_S1024x3072_o0_1280_S1024x128 shapeCasts_S1024x128_S1x1024x128 inb_S24x1024x128_S1x1024x128_10_0_0 x
    · exact slab_apply P 9 1152 rfl slices_S1024x3072_o0_1152_S1024x128 shapeCasts_S1024x128_S1x1024x128 inb_S24x1024x128_S1x1024x128_9_0_0 x
    · exact slab_apply P 8 1024 rfl slices_S1024x3072_o0_1024_S1024x128 shapeCasts_S1024x128_S1x1024x128 inb_S24x1024x128_S1x1024x128_8_0_0 x
    · exact slab_apply P 7 896 rfl slices_S1024x3072_o0_896_S1024x128 shapeCasts_S1024x128_S1x1024x128 inb_S24x1024x128_S1x1024x128_7_0_0 x
    · exact slab_apply P 6 768 rfl slices_S1024x3072_o0_768_S1024x128 shapeCasts_S1024x128_S1x1024x128 inb_S24x1024x128_S1x1024x128_6_0_0 x
    · exact slab_apply P 5 640 rfl slices_S1024x3072_o0_640_S1024x128 shapeCasts_S1024x128_S1x1024x128 inb_S24x1024x128_S1x1024x128_5_0_0 x
    · exact slab_apply P 4 512 rfl slices_S1024x3072_o0_512_S1024x128 shapeCasts_S1024x128_S1x1024x128 inb_S24x1024x128_S1x1024x128_4_0_0 x
    · exact slab_apply P 3 384 rfl slices_S1024x3072_o0_384_S1024x128 shapeCasts_S1024x128_S1x1024x128 inb_S24x1024x128_S1x1024x128_3_0_0 x
    · exact slab_apply P 2 256 rfl slices_S1024x3072_o0_256_S1024x128 shapeCasts_S1024x128_S1x1024x128 inb_S24x1024x128_S1x1024x128_2_0_0 x
    · exact slab_apply P 1 128 rfl slices_S1024x3072_o0_128_S1024x128 shapeCasts_S1024x128_S1x1024x128 inb_S24x1024x128_S1x1024x128_1_0_0 x
    · exact slab_apply P 0 0 rfl slices_S1024x3072_o0_0_S1024x128 shapeCasts_S1024x128_S1x1024x128 inb_S24x1024x128_S1x1024x128_0_0_0 x
  · exact View.cover_of_tiledL (s := S24x1024x128) _ S1x1024x128.size (by sl_kernel_rfl) _

end Cert.KernelIdeal.Hand

end
-- ==== Proof.PayK0.lean ====
/-
  The pure values of the normalise-and-project kernel's body, read at an index at the extended reals: the projected
  block — each row normalised (mean, deviation, variance, reciprocal square root, scale and shift, exactly the
  specification's second spelling) and multiplied by the weights — and the 24 stored pieces, each a 128-column slice
  of that block under a leading unit axis.
-/
import proofs.«165050_j14989435863585_2_alg».proof.Proof.PayLib

noncomputable section

namespace Cert.KernelIdeal.Pay

open Idealize.ShloMosaic ValueIdx Cert.KernelIdeal Cert.KernelIdeal.Gen

namespace K0

/-! ## The projected block, stage by stage -/

/-- The row means, as a column. -/
def mean (x0 : Vec Ideal S1024x1024 .f32) : FVec Ideal S1024x1 .f32 :=
  divf
    (shapeCast S1024x1
      (multiReduction .add [1] S1024 (shapeCast S1024x1024 x0 shapeCasts_S1024x1024_S1024x1024 : FVec Ideal S1024x1024 .f32)
        0x00000000#32 reduces_S1024x1024_S1024 (.inl rfl) rfl : FVec Ideal S1024 .f32)
      shapeCasts_S1024_S1024x1 : FVec Ideal S1024x1 .f32)
    (broadcast S1024x1 (Scalar.ofBits .f32 0x44800000#32))

/-- The deviations from the row mean. -/
def dev (x0 : Vec Ideal S1024x1024 .f32) : FVec Ideal S1024x1024 .f32 :=
  subf (shapeCast S1024x1024 x0 shapeCasts_S1024x1024_S1024x1024 : FVec Ideal S1024x1024 .f32)
    (broadcastTo S1024x1024 (mean x0) broadcasts_S1024x1_S1024x1024)

/-- The reciprocal square roots of the row variances plus the offset, as a column. -/
def rstd (x0 : Vec Ideal S1024x1024 .f32) : FVec Ideal S1024x1 .f32 :=
  rsqrt (addf
    (divf
      (shapeCast S1024x1
        (multiReduction .add [1] S1024 (mulf (dev x0) (dev x0)) 0x00000000#32 reduces_S1024x1024_S1024 (.inl rfl) rfl
          : FVec Ideal S1024 .f32)
        shapeCasts_S1024_S1024x1 : FVec Ideal S1024x1 .f32)
      (broadcast S1024x1 (Scalar.ofBits .f32 0x44800000#32)))
    (broadcast S1024x1 (Scalar.ofBits .f32 0x3A83126F#32)))

/-- The normalised rows, scaled and shifted. -/
def xn (x0 : Vec Ideal S1024x1024 .f32) (g1 be1 : Vec Ideal S1x1024 .f32) : FVec Ideal S1024x1024 .f32 :=
  addf
    (mulf
      (mulf (dev x0) (broadcastTo S1024x1024 (rstd x0) broadcasts_S1024x1_S1024x1024))
      (broadcastTo S1024x1024 (shapeCast S1x1024 g1 shapeCasts_S1x1024_S1x1024 : FVec Ideal S1x1024 .f32)
        broadcasts_S1x1024_S1024x1024))
    (broadcastTo S1024x1024 (shapeCast S1x1024 be1 shapeCasts_S1x1024_S1x1024 : FVec Ideal S1x1024 .f32)
      broadcasts_S1x1024_S1024x1024)

/-- The projected block is the normalised rows times the weights. -/
theorem pay1_eq (x0 : Vec Ideal S1024x1024 .f32) (g1 be1 : Vec Ideal S1x1024 .f32) (w : Vec Ideal S1024x3072 .bf16) :
    k0_pay1 (F := Ideal) x0 g1 be1 w
      = truncf .bf16
          (matmul dot_S1024x1024_S1024x3072_S1024x3072_1_0_0_1_n_n none
            (truncf .bf16 (xn x0 g1 be1) bitsLt_bf16_f32 : FVec Ideal S1024x1024 .bf16)
            (shapeCast S1024x3072 w shapeCasts_S1024x3072_S1024x3072 : FVec Ideal S1024x3072 .bf16)
            (constant S1024x3072 .f32 0x00000000#32))
          bitsLt_bf16_f32 := rfl

section Stages
variable (x0 : Vec Ideal S1024x1024 .f32) (g1 be1 : Vec Ideal S1x1024 .f32) (r : Fin 1024)

/-- Row `r` of the block, and the scale and shift rows, as the specification takes them. -/
abbrev xRow : Fin 1024 → EReal := fun c => x0 (ix2 r c)
abbrev gRow : Fin 1024 → EReal := fun c => g1 (ix2 0 c)
abbrev bRow : Fin 1024 → EReal := fun c => be1 (ix2 0 c)

theorem mean_apply (u : Fin 1) : mean x0 (ix2 r u) = Cert.Spec.rowMean (xRow x0 r) := by
  unfold mean Cert.Spec.rowMean
  rw [divf_apply, shapeCast_a_a1_apply, broadcast_apply]
  refine congrArg₂ Ideal.div ?_ rfl
  refine (rowSum_apply _ _ _ _ _ r).trans ?_
  rw [shapeCast_self]

theorem dev_apply (c : Fin 1024) : dev x0 (ix2 r c) = Cert.Spec.rowDev (xRow x0 r) c := by
  unfold dev Cert.Spec.rowDev
  rw [subf_apply, broadcastTo_a1_ab_apply, mean_apply, shapeCast_self]

theorem rstd_apply (u : Fin 1) :
    rstd x0 (ix2 r u) = Ideal.rsqrt (Cert.Spec.rowVar (xRow x0 r) + Cert.Spec.eps) := by
  unfold rstd Cert.Spec.rowVar
  rw [rsqrt_apply, addf_apply, divf_apply, shapeCast_a_a1_apply, broadcast_apply, broadcast_apply]
  refine congrArg Ideal.rsqrt (congrArg₂ (· + ·) (congrArg₂ Ideal.div ?_ rfl) rfl)
  refine (rowSum_apply _ _ _ _ _ r).trans ?_
  refine Finset.sum_congr rfl fun c _ => ?_
  rw [mulf_apply, dev_apply]

theorem xn_apply (c : Fin 1024) :
    xn x0 g1 be1 (ix2 r c) = Cert.Spec.rowXnR (xRow x0 r) (gRow g1) (bRow be1) c := by
  unfold xn Cert.Spec.rowXnR
  rw [addf_apply, mulf_apply, mulf_apply, dev_apply, broadcastTo_a1_ab_apply, rstd_apply, broadcastTo_1b_ab_apply,
    broadcastTo_1b_ab_apply, shapeCast_self, shapeCast_self]

end Stages

/-- THE PROJECTED BLOCK at `(r, j)`: over the 1024 channels, the specification's normalised row `r` (reciprocal square
    root spelling) times the weights' column. -/
theorem pay1_apply (x0 : Vec Ideal S1024x1024 .f32) (g1 be1 : Vec Ideal S1x1024 .f32) (w : Vec Ideal S1024x3072 .bf16)
    (r : Fin 1024) (j : Fin 3072) :
    k0_pay1 (F := Ideal) x0 g1 be1 w (ix2 r j)
      = ∑ c : Fin 1024,
          Cert.Spec.rowXnR (fun c => x0 (ix2 r c)) (fun c => g1 (ix2 0 c)) (fun c => be1 (ix2 0 c)) c * w (ix2 c j) := by
  rw [pay1_eq, truncf_apply]
  refine (matmul_plain_zero_apply dot_S1024x1024_S1024x3072_S1024x3072_1_0_0_1_n_n rfl rfl rfl rfl rfl rfl none _ _ r j).trans ?_
  refine Finset.sum_congr rfl fun c _ => ?_
  rw [truncf_apply, xn_apply, shapeCast_self]

/-! ## The stored pieces: 128-column slices of the projected block under a leading unit axis -/

section Slices
variable {F : FTy → Type} [FloatOps F]

/-- Columns `o … o + 127` of a `[1024, 3072]` block, then a leading unit axis: at `(0, r, e)` the block at `(r, o + e)`. -/
theorem sliceCast_apply {α : Type} (o : ℕ) (X : S1024x3072.Idx → α) (hs : S1024x3072.Slices ![0, o] S1024x128)
    (hc : S1024x128.ShapeCasts S1x1024x128) (r : Fin 1024) (e : Fin 128) (ho : o + 128 ≤ 3072) :
    shapeCast S1x1024x128 (extractStridedSlice S1024x128 ![0, o] X hs) hc (ix3 0 r e)
      = X (ix2 r ⟨o + e.val, by omega⟩) := by
  rw [shapeCast_ab_1ab_apply, slice2_axis1_eq]

/-- Piece 0: columns `0 … 127`. -/
theorem pay2_apply (v0 : Vec F S1024x1024 .f32) (v18 v22 : Vec F S1x1024 .f32) (v27 : Vec F S1024x3072 .bf16)
    (r : Fin 1024) (e : Fin 128) :
    k0_pay2 v0 v18 v22 v27 (ix3 0 r e) = k0_pay1 v0 v18 v22 v27 (ix2 r ⟨e.val, by omega⟩) := by
  unfold k0_pay2
  refine (sliceCast_apply 0 _ _ _ r e (by omega)).trans (congrArg _ ?_)
  exact congrArg (ix2 (n0 := 1024) (n1 := 3072) r) (Fin.ext (Nat.zero_add _))

/-- Columns `128 … 255`, not yet under the unit axis. -/
theorem pay3_apply (v0 : Vec F S1024x1024 .f32) (v18 v22 : Vec F S1x1024 .f32) (v27 : Vec F S1024x3072 .bf16)
    (r : Fin 1024) (e : Fin 128) :
    k0_pay3 v0 v18 v22 v27 (ix2 r e) = k0_pay1 v0 v18 v22 v27 (ix2 r ⟨128 + e.val, by omega⟩) := by
  unfold k0_pay3
  rw [slice2_axis1_eq]

/-- Piece 1: the slice above under the unit axis. -/
theorem pay4_apply (v : FVec F S1024x128 .bf16) (r : Fin 1024) (e : Fin 128) :
    k0_pay4 v (ix3 0 r e) = v (ix2 r e) := by
  unfold k0_pay4
  rw [shapeCast_ab_1ab_apply]

/-- Piece 2: columns `256 … 383`. -/
theorem pay5_apply (v30 : FVec F S1024x3072 .bf16) (r : Fin 1024) (e : Fin 128) :
    k0_pay5 v30 (ix3 0 r e) = v30 (ix2 r ⟨256 + e.val, by omega⟩) := by
  unfold k0_pay5
  exact sliceCast_apply 256 _ _ _ r e (by omega)

/-- Piece 3: columns `384 … 511`. -/
theorem pay6_apply (v30 : FVec F S1024x3072 .bf16) (r : Fin 1024) (e : Fin 128) :
    k0_pay6 v30 (ix3 0 r e) = v30 (ix2 r ⟨384 + e.val, by omega⟩) := by
  unfold k0_pay6
  exact sliceCast_apply 384 _ _ _ r e (by omega)

/-- Piece 4: columns `512 … 639`. -/
theorem pay7_apply (v30 : FVec F S1024x3072 .bf16) (r : Fin 1024) (e : Fin 128) :
    k0_pay7 v30 (ix3 0 r e) = v30 (ix2 r ⟨512 + e.val, by omega⟩) := by
  unfold k0_pay7
  exact sliceCast_apply 512 _ _ _ r e (by omega)

/-- Piece 5: columns `640 … 767`. -/
theorem pay8_apply (v30 : FVec F S1024x3072 .bf16) (r : Fin 1024) (e : Fin 128) :
    k0_pay8 v30 (ix3 0 r e) = v30 (ix2 r ⟨640 + e.val, by omega⟩) := by
  unfold k0_pay8
  exact sliceCast_apply 640 _ _ _ r e (by omega)

/-- Piece 6: columns `768 … 895`. -/
theorem pay9_apply (v30 : FVec F S1024x3072 .bf16) (r : Fin 1024) (e : Fin 128) :
    k0_pay9 v30 (ix3 0 r e) = v30 (ix2 r ⟨768 + e.val, by omega⟩) := by
  unfold k0_pay9
  exact sliceCast_apply 768 _ _ _ r e (by omega)

/-- Piece 7: columns `896 … 1023`. -/
theorem pay10_apply (v30 : FVec F S1024x3072 .bf16) (r : Fin 1024) (e : Fin 128) :
    k0_pay10 v30 (ix3 0 r e) = v30 (ix2 r ⟨896 + e.val, by omega⟩) := by
  unfold k0_pay10
  exact sliceCast_apply 896 _ _ _ r e (by omega)

/-- Piece 8: columns `1024 … 1151`. -/
theorem pay11_apply (v30 : FVec F S1024x3072 .bf16) (r : Fin 1024) (e : Fin 128) :
    k0_pay11 v30 (ix3 0 r e) = v30 (ix2 r ⟨1024 + e.val, by omega⟩) := by
  unfold k0_pay11
  exact sliceCast_apply 1024 _ _ _ r e (by omega)

/-- Columns `1152 … 1279`, not yet under the unit axis. -/
theorem pay12_apply (v30 : FVec F S1024x3072 .bf16) (r : Fin 1024) (e : Fin 128) :
    k0_pay12 v30 (ix2 r e) = v30 (ix2 r ⟨1152 + e.val, by omega⟩) := by
  unfold k0_pay12
  rw [slice2_axis1_eq]

/-- Piece 9: the slice above under the unit axis. -/
theorem pay13_apply (v : FVec F S1024x128 .bf16) (r : Fin 1024) (e : Fin 128) :
    k0_pay13 v (ix3 0 r e) = v (ix2 r e) := by
  unfold k0_pay13
  rw [shapeCast_ab_1ab_apply]

/-- Piece 10: columns `1280 … 1407`. -/
theorem pay14_apply (v30 : FVec F S1024x3072 .bf16) (r : Fin 1024) (e : Fin 128) :
    k0_pay14 v30 (ix3 0 r e) = v30 (ix2 r ⟨1280 + e.val, by omega⟩) := by
  unfold k0_pay14
  exact sliceCast_apply 1280 _ _ _ r e (by omega)

/-- Piece 11: columns `1408 … 1535`. -/
theorem pay15_apply (v30 : FVec F S1024x3072 .bf16) (r : Fin 1024) (e : Fin 128) :
    k0_pay15 v30 (ix3 0 r e) = v30 (ix2 r ⟨1408 + e.val, by omega⟩) := by
  unfold k0_pay15
  exact sliceCast_apply 1408 _ _ _ r e (by omega)

/-- Piece 12: columns `1536 … 1663`. -/
theorem pay16_apply (v30 : FVec F S1024x3072 .bf16) (r : Fin 1024) (e : Fin 128) :
    k0_pay16 v30 (ix3 0 r e) = v30 (ix2 r ⟨1536 + e.val, by omega⟩) := by
  unfold k0_pay16
  exact sliceCast_apply 1536 _ _ _ r e (by omega)

/-- Piece 13: columns `1664 … 1791`. -/
theorem pay17_apply (v30 : FVec F S1024x3072 .bf16) (r : Fin 1024) (e : Fin 128) :
    k0_pay17 v30 (ix3 0 r e) = v30 (ix2 r ⟨1664 + e.val, by omega⟩) := by
  unfold k0_pay17
  exact sliceCast_apply 1664 _ _ _ r e (by omega)

/-- Piece 14: columns `1792 … 1919`. -/
theorem pay18_apply (v30 : FVec F S1024x3072 .bf16) (r : Fin 1024) (e : Fin 128) :
    k0_pay18 v30 (ix3 0 r e) = v30 (ix2 r ⟨1792 + e.val, by omega⟩) := by
  unfold k0_pay18
  exact sliceCast_apply 1792 _ _ _ r e (by omega)

/-- Piece 15: columns `1920 … 2047`. -/
theorem pay19_apply (v30 : FVec F S1024x3072 .bf16) (r : Fin 1024) (e : Fin 128) :
    k0_pay19 v30 (ix3 0 r e) = v30 (ix2 r ⟨1920 + e.val, by omega⟩) := by
  unfold k0_pay19
  exact sliceCast_apply 1920 _ _ _ r e (by omega)

/-- Columns `2048 … 2175`, not yet under the unit axis. -/
theorem pay20_apply (v30 : FVec F S1024x3072 .bf16) (r : Fin 1024) (e : Fin 128) :
    k0_pay20 v30 (ix2 r e) = v30 (ix2 r ⟨2048 + e.val, by omega⟩) := by
  unfold k0_pay20
  rw [slice2_axis1_eq]

/-- Piece 16: the slice above under the unit axis. -/
theorem pay21_apply (v : FVec F S1024x128 .bf16) (r : Fin 1024) (e : Fin 128) :
    k0_pay21 v (ix3 0 r e) = v (ix2 r e) := by
  unfold k0_pay21
  rw [shapeCast_ab_1ab_apply]

/-- Piece 17: columns `2176 … 2303`. -/
theorem pay22_apply (v30 : FVec F S1024x3072 .bf16) (r : Fin 1024) (e : Fin 128) :
    k0_pay22 v30 (ix3 0 r e) = v30 (ix2 r ⟨2176 + e.val, by omega⟩) := by
  unfold k0_pay22
  exact sliceCast_apply 2176 _ _ _ r e (by omega)

/-- Piece 18: columns `2304 … 2431`. -/
theorem pay23_apply (v30 : FVec F S1024x3072 .bf16) (r : Fin 1024) (e : Fin 128) :
    k0_pay23 v30 (ix3 0 r e) = v30 (ix2 r ⟨2304 + e.val, by omega⟩) := by
  unfold k0_pay23
  exact sliceCast_apply 2304 _ _ _ r e (by omega)

/-- Piece 19: columns `2432 … 2559`. -/
theorem pay24_apply (v30 : FVec F S1024x3072 .bf16) (r : Fin 1024) (e : Fin 128) :
    k0_pay24 v30 (ix3 0 r e) = v30 (ix2 r ⟨2432 + e.val, by omega⟩) := by
  unfold k0_pay24
  exact sliceCast_apply 2432 _ _ _ r e (by omega)

/-- Piece 20: columns `2560 … 2687`. -/
theorem pay25_apply (v30 : FVec F S1024x3072 .bf16) (r : Fin 1024) (e : Fin 128) :
    k0_pay25 v30 (ix3 0 r e) = v30 (ix2 r ⟨2560 + e.val, by omega⟩) := by
  unfold k0_pay25
  exact sliceCast_apply 2560 _ _ _ r e (by omega)

/-- Piece 21: columns `2688 … 2815`. -/
theorem pay26_apply (v30 : FVec F S1024x3072 .bf16) (r : Fin 1024) (e : Fin 128) :
    k0_pay26 v30 (ix3 0 r e) = v30 (ix2 r ⟨2688 + e.val, by omega⟩) := by
  unfold k0_pay26
  exact sliceCast_apply 2688 _ _ _ r e (by omega)

/-- Piece 22: columns `2816 … 2943`. -/
theorem pay27_apply (v30 : FVec F S1024x3072 .bf16) (r : Fin 1024) (e : Fin 128) :
    k0_pay27 v30 (ix3 0 r e) = v30 (ix2 r ⟨2816 + e.val, by omega⟩) := by
  unfold k0_pay27
  exact sliceCast_apply 2816 _ _ _ r e (by omega)

/-- Piece 23: columns `2944 … 3071`. -/
theorem pay28_apply (v30 : FVec F S1024x3072 .bf16) (r : Fin 1024) (e : Fin 128) :
    k0_pay28 v30 (ix3 0 r e) = v30 (ix2 r ⟨2944 + e.val, by omega⟩) := by
  unfold k0_pay28
  exact sliceCast_apply 2944 _ _ _ r e (by omega)

end Slices

end K0

end Cert.KernelIdeal.Pay

end
-- ==== Proof.K0Final.lean ====
/-
  Region 0's output array after the run, as ONE function of the arrays the region finds.

  The pipeline walks the 8192 rows in 8 blocks of 1024: at point `t` the body is handed rows `1024 t .. 1024 t + 1023`
  of the input (and, at every point, the two LayerNorm vectors and the projection matrix whole), and what it leaves in
  the output window's buffer is written back to `[0:24, 1024 t : 1024 (t + 1), 0:128]` of the output array. The body's
  block at `(k, r, e)` is the projected block at row `r`, column `128 k + e`, and the projected block's row `r` is the
  normalised input row times the matrix. So what point `t` writes back is block `t` of one function of the entry
  arrays; the 8 blocks cover the array (row `r` is in block `r / 1024`); hence the array ends holding that function.
-/
import proofs.«165050_j14989435863585_2_alg».proof.Proof.K0Body
import proofs.«165050_j14989435863585_2_alg».proof.Proof.K0Value
import proofs.«165050_j14989435863585_2_alg».proof.Proof.Spec
import proofs.«165050_j14989435863585_2_alg».proof.Proof.PayK0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered, at the extended reals
variable (V : (c : Dev nD) → (b : Ref sig .tc) → Buf (Elt Ideal) ((c : Thread nD τ).loc b))

/-! ## The block indices, decided over the grid -/

/-- At point `t`: the input's block index is `(t, 0)`, the vectors' and the matrix's `(0, 0)`, the output's `(0, t, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-! ## The input blocks, read off their arrays -/

/-- Window 0's block at point `t`, read at a block index, is its array at the index the block's rectangle places it at. -/
theorem iblk0_0_apply (c : Dev nD) (t : Fin cfg0.N) (x : S1024x1024.Idx) (i : S8192x1024.Idx)
    (h0 : (i 0).val = 1024 * t.val + (x 0).val) (h1 : (i 1).val = (x 1).val) :
    (iblk0 V c 0 t : Vec Ideal S1024x1024 .f32) x = (V c main_v0 : Vec Ideal S8192x1024 .f32) i := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 1024 + 1 * (x 0).val = (i 0).val; omega
  | ⟨1, _⟩ => show win0_0.index t (1 : Fin 2) * 1024 + 1 * (x 1).val = (i 1).val; omega

/-- Window 1's block at point `t`, read at a block index, is its array at the index the block's rectangle places it at. -/
theorem iblk0_1_apply (c : Dev nD) (t : Fin cfg0.N) (x : S1x1024.Idx) (i : S1x1024.Idx)
    (h0 : (i 0).val = (x 0).val) (h1 : (i 1).val = (x 1).val) :
    (iblk0 V c 1 t : Vec Ideal S1x1024 .f32) x = (V c main_v1 : Vec Ideal S1x1024 .f32) i := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1 + 1 * (x 0).val = (i 0).val; omega
  | ⟨1, _⟩ => show win0_1.index t (1 : Fin 2) * 1024 + 1 * (x 1).val = (i 1).val; omega

/-- Window 2's block at point `t`, read at a block index, is its array at the index the block's rectangle places it at. -/
theorem iblk0_2_apply (c : Dev nD) (t : Fin cfg0.N) (x : S1x1024.Idx) (i : S1x1024.Idx)
    (h0 : (i 0).val = (x 0).val) (h1 : (i 1).val = (x 1).val) :
    (iblk0 V c 2 t : Vec Ideal S1x1024 .f32) x = (V c main_v2 : Vec Ideal S1x1024 .f32) i := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t (0 : Fin 2) * 1 + 1 * (x 0).val = (i 0).val; omega
  | ⟨1, _⟩ => show win0_2.index t (1 : Fin 2) * 1024 + 1 * (x 1).val = (i 1).val; omega

/-- Window 3's block at point `t`, read at a block index, is its array at the index the block's rectangle places it at. -/
theorem iblk0_3_apply (c : Dev nD) (t : Fin cfg0.N) (x : S1024x3072.Idx) (i : S1024x3072.Idx)
    (h0 : (i 0).val = (x 0).val) (h1 : (i 1).val = (x 1).val) :
    (iblk0 V c 3 t : Vec Ideal S1024x3072 .bf16) x = (V c main_v3 : Vec Ideal S1024x3072 .bf16) i := by
  obtain ⟨-, -, -, -, -, -, e0, e1, -⟩ := idx_facts0 t
  unfold iblk0
  rw [View.read_apply]
  show V c main_v3 _ = V c main_v3 _
  congr 1
  funext a
  apply Fin.ext
  match a with
  | ⟨0, _⟩ => show win0_3.index t (0 : Fin 2) * 1024 + 1 * (x 0).val = (i 0).val; omega
  | ⟨1, _⟩ => show win0_3.index t (1 : Fin 2) * 3072 + 1 * (x 1).val = (i 1).val; omega

/-! ## The output array as a function of the entry arrays -/

/-- At `(k, r, e)`: over the 1024 channels, the normalised row `r` of the input times column `128 k + e` of the matrix. -/
def qkvArr (a0 : Vec Ideal S8192x1024 .f32) (a1 a2 : Vec Ideal S1x1024 .f32) (a3 : Vec Ideal S1024x3072 .bf16)
    (i : S24x8192x128.Idx) : EReal :=
  ∑ ch : Fin 1024, Cert.Spec.rowXnR (fun ch => a0 (ix2 (i 1) ch)) (fun ch => a1 (ix2 0 ch)) (fun ch => a2 (ix2 0 ch)) ch
    * a3 (ix2 ch ⟨128 * (i 0).val + (i 2).val, by
        have h0 : (i 0).val < 24 := (i 0).isLt
        have h2 : (i 2).val < 128 := (i 2).isLt
        omega⟩)

set_option maxHeartbeats 1000000 in
/-- WHAT POINT `t` WRITES BACK is block `t` of `qkvArr` of the arrays as the region finds them. -/
theorem flushed0_4_eq (c : Dev nD) (t : Fin cfg0.N) :
    (dat0 V c).flushed 4 t
      = ((cfg0.win 4).blk t).view.read (Elt Ideal) (qkvArr (V c main_v0) (V c main_v1) (V c main_v2) (V c main_v3)) := by
  show (cfg0.win 4).cut (grid0.coords t) ((dat0 V c).after 4 t) = _
  rw [after0_4]
  obtain ⟨-, -, -, -, -, -, -, -, e40, e41, e42⟩ := idx_facts0 t
  funext j
  obtain ⟨k, r, e, rfl⟩ : ∃ (k : Fin 24) (r : Fin 1024) (e : Fin 128), j = ix3 k r e := ⟨j 0, j 1, j 2, eq_ix3 j⟩
  show out0_4 c (grid0.coords t) _ _ _ _ _ _ _ _ _ _ (iblk0 V c 0 t) (iblk0 V c 1 t) (iblk0 V c 2 t) (iblk0 V c 3 t) (ix3 k r e)
    = qkvArr (V c main_v0) (V c main_v1) (V c main_v2) (V c main_v3) (((cfg0.win 4).blk t).view.emb (ix3 k r e))
  rw [out0_4_apply, Pay.K0.pay1_apply]
  unfold qkvArr
  -- the input's block row `r` is the array's row `1024 t + r`, the row the output's rectangle places `r` at
  have h0 : (fun ch : Fin 1024 => (iblk0 V c 0 t : Vec Ideal S1024x1024 .f32) (ix2 r ch))
      = fun ch => (V c main_v0 : Vec Ideal S8192x1024 .f32) (ix2 (((cfg0.win 4).blk t).view.emb (ix3 k r e) 1) ch) :=
    funext fun ch => iblk0_0_apply V c t _ _
      (by show win0_4.index t (1 : Fin 3) * 1024 + 1 * r.val = 1024 * t.val + r.val; omega) rfl
  -- the two vectors and the matrix are one block each, the whole array
  have h1 : (fun ch : Fin 1024 => (iblk0 V c 1 t : Vec Ideal S1x1024 .f32) (ix2 0 ch))
      = fun ch => (V c main_v1 : Vec Ideal S1x1024 .f32) (ix2 0 ch) :=
    funext fun ch => iblk0_1_apply V c t _ _ rfl rfl
  have h2 : (fun ch : Fin 1024 => (iblk0 V c 2 t : Vec Ideal S1x1024 .f32) (ix2 0 ch))
      = fun ch => (V c main_v2 : Vec Ideal S1x1024 .f32) (ix2 0 ch) :=
    funext fun ch => iblk0_2_apply V c t _ _ rfl rfl
  rw [h0, h1, h2]
  refine Finset.sum_congr rfl fun ch _ => ?_
  congr 1
  -- the output's rectangle places `(k, r, e)` at `(k, 1024 t + r, e)`: the same column `128 k + e` of the matrix
  exact iblk0_3_apply V c t _ _ rfl
    (by show 128 * (win0_4.index t (0 : Fin 3) * 24 + 1 * k.val) + (win0_4.index t (2 : Fin 3) * 128 + 1 * e.val) = 128 * k.val + e.val; omega)

/-! ## The eight blocks cover the array -/

/-- An index of the output array is in point `t`'s block iff each coordinate is in the block's range on its axis. -/
theorem mem_blk0_4 (t : Fin cfg0.N) (i : S24x8192x128.Idx) :
    i ∈ ((cfg0.win 4).blk t).view.set ↔ ∀ a : Fin 3, win0_4.index t a * S24x1024x128.size a ≤ (i a).val
      ∧ (i a).val < win0_4.index t a * S24x1024x128.size a + S24x1024x128.size a := by
  show i ∈ ((View.whole main_v6).slice (win0_4.rect t)).set ↔ _
  rw [View.set_slice_whole, Rect.mem_set_unit]
  exact Iff.rfl

/-- Every index of the output array is in the block of a point that writes it back: row `r` is in block `r / 1024`. -/
theorem cover_arr0_4 (i : S24x8192x128.Idx) :
    ∃ t : Fin cfg0.N, (cfg0.win 4).flush t = true ∧ i ∈ ((cfg0.win 4).blk t).view.set := by
  have hi0 : (i 0).val < 24 := (i 0).isLt
  have hi1 : (i 1).val < 8192 := (i 1).isLt
  have hi2 : (i 2).val < 128 := (i 2).isLt
  have hN : cfg0.N = 8 := N_0
  have ht : (i 1).val / 1024 < cfg0.N := by rw [hN]; omega
  obtain ⟨-, -, -, -, -, -, -, -, e40, e41, e42⟩ := idx_facts0 ⟨(i 1).val / 1024, ht⟩
  have e41' : win0_4.index ⟨(i 1).val / 1024, ht⟩ (1 : Fin 3) = (i 1).val / 1024 := e41
  refine ⟨⟨(i 1).val / 1024, ht⟩, flush0_4 _, ?_⟩
  rw [mem_blk0_4]
  intro a
  match a with
  | ⟨0, _⟩ =>
    show win0_4.index ⟨(i 1).val / 1024, ht⟩ (0 : Fin 3) * 24 ≤ (i 0).val
      ∧ (i 0).val < win0_4.index ⟨(i 1).val / 1024, ht⟩ (0 : Fin 3) * 24 + 24
    omega
  | ⟨1, _⟩ =>
    show win0_4.index ⟨(i 1).val / 1024, ht⟩ (1 : Fin 3) * 1024 ≤ (i 1).val
      ∧ (i 1).val < win0_4.index ⟨(i 1).val / 1024, ht⟩ (1 : Fin 3) * 1024 + 1024
    omega
  | ⟨2, _⟩ =>
    show win0_4.index ⟨(i 1).val / 1024, ht⟩ (2 : Fin 3) * 128 ≤ (i 2).val
      ∧ (i 2).val < win0_4.index ⟨(i 1).val / 1024, ht⟩ (2 : Fin 3) * 128 + 128
    omega

/-! ## The array after the run -/

/-- THE OUTPUT ARRAY after the run is `qkvArr` of the arrays as the region finds them. -/
theorem arr0_4_eq (c : Dev nD) :
    (dat0 V c).arrAt 4 cfg0.N = qkvArr (V c main_v0) (V c main_v1) (V c main_v2) (V c main_v3) :=
  (dat0 V c).arrAt_eq_of_cover 4 _ (fun t _ => flushed0_4_eq V c t) cover_arr0_4

/-- Index by index: slab `k`, row `r`, channel `e` of the output array is, over the 1024 channels, the normalised row `r`
    of the input times column `128 k + e` of the matrix. -/
theorem final0 (c : Dev nD) (k : Fin 24) (r : Fin 8192) (e : Fin 128) :
    (dat0 V c).arrAt 4 cfg0.N (ix3 k r e)
      = ∑ ch : Fin 1024, Cert.Spec.rowXnR (fun ch => (V c main_v0 : Vec Ideal S8192x1024 .f32) (ix2 r ch))
            (fun ch => (V c main_v1 : Vec Ideal S1x1024 .f32) (ix2 0 ch)) (fun ch => (V c main_v2 : Vec Ideal S1x1024 .f32) (ix2 0 ch)) ch
          * (V c main_v3 : Vec Ideal S1024x3072 .bf16) (ix2 ch ⟨128 * k.val + e.val, by omega⟩) :=
  (congrFun (arr0_4_eq V c) (ix3 k r e)).trans rfl

end Cert.KernelIdeal.Hand

end
-- ==== Proof.SpecLaws.lean ====
/-
  Algebraic laws of the specification: the three literal constants as reals, the positivity of a variance plus the
  offset at every extended-real row, the agreement of the two spellings of the normalisation, and the regrouping of
  the output projection's sum over 1024 channels as eight heads of 128.
-/
import proofs.«165050_j14989435863585_2_alg».proof.Proof.Spec

noncomputable section

namespace Cert.Spec

open Idealize.ShloMosaic

/-! ## The constants -/

/-- The word `0x44800000` denotes the real `1024`. -/
theorem nCh_eq : nCh = ((1024 : ℝ) : EReal) := by
  simp [nCh, Ideal.ofBits, Ideal.ieee, -EReal.coe_mul]; norm_num

/-- The word `0x3D000000` denotes the real `1/32`. -/
theorem scale_eq : scale = ((1 / 32 : ℝ) : EReal) := by
  simp [scale, Ideal.ofBits, Ideal.ieee, -EReal.coe_mul]; norm_num

/-- The word `0x3A83126F` denotes a positive real. -/
theorem eps_pos : ∃ e : ℝ, 0 < e ∧ eps = (e : EReal) := by
  simp [eps, Ideal.ofBits, Ideal.ieee, -EReal.coe_mul]

/-! ## Positivity of the variance plus the offset -/

/-- A square is nonnegative at every extended real: both factors have the same sign. -/
theorem mul_self_nonneg' (x : EReal) : 0 ≤ x * x := by
  rcases le_total 0 x with h | h
  · exact EReal.mul_nonneg_iff.mpr (.inl ⟨h, h⟩)
  · exact EReal.mul_nonneg_iff.mpr (.inr ⟨h, h⟩)

/-- The quotient of a nonnegative extended real by `1024` is nonnegative. -/
theorem div_nCh_nonneg {s : EReal} (hs : 0 ≤ s) : 0 ≤ Ideal.div s nCh := by
  rw [nCh_eq, Ideal.div_coe (by norm_num : (1024 : ℝ) ≠ 0)]
  refine EReal.mul_nonneg_iff.mpr (.inl ⟨hs, ?_⟩)
  exact_mod_cast (by norm_num : (0 : ℝ) ≤ 1 / 1024)

/-- A variance is nonnegative, whatever the row: no finiteness is needed. -/
theorem rowVar_nonneg (r : Fin 1024 → EReal) : 0 ≤ rowVar r :=
  div_nCh_nonneg (Finset.sum_nonneg fun c _ => mul_self_nonneg' (rowDev r c))

/-- The argument of the square root is positive, whatever the row. -/
theorem rowVar_add_eps_pos (r : Fin 1024 → EReal) : 0 < rowVar r + eps := by
  obtain ⟨e, he, hE⟩ := eps_pos
  rw [hE, add_comm]
  exact EReal.add_pos_of_pos_of_nonneg (by exact_mod_cast he) (rowVar_nonneg r)

/-! ## The quotient by the square root is the product with the reciprocal square root -/

/-- For a positive argument `w` — `⊤` included, where both sides are `a · 0` — dividing by `√w` is multiplying by
    `w^(-1/2)`. -/
theorem div_sqrt_eq_mul_rsqrt (a : EReal) {w : EReal} (hw : 0 < w) :
    Ideal.div a (Ideal.sqrt w) = a * Ideal.rsqrt w := by
  induction w using EReal.rec with
  | bot => exact absurd hw (by simp)
  | top =>
    rw [Ideal.sqrt_top, Ideal.rsqrt_top, Ideal.div, if_neg EReal.top_ne_zero, EReal.inv_top]
  | coe r =>
    have hr : 0 < r := by exact_mod_cast hw
    have hs : 0 < Real.sqrt r := Real.sqrt_pos.2 hr
    rw [Ideal.sqrt_coe, Ideal.rsqrt_coe, if_neg (not_lt.2 hr.le), if_neg (not_lt.2 hr.le), if_neg hr.ne',
      Ideal.div_coe hs.ne', one_div]

/-- The two spellings of the normalised row agree at every row. -/
theorem rowXnR_eq (r g be : Fin 1024 → EReal) (c : Fin 1024) : rowXnR r g be c = rowXn r g be c := by
  unfold rowXnR rowXn
  rw [div_sqrt_eq_mul_rsqrt _ (rowVar_add_eps_pos r)]

/-! ## The projection summed head by head -/

variable (a : Args)

/-- Channel `128 h + e` of the concatenated contexts is channel `e` of head `h`. -/
theorem ctxCat_chan (b : Fin 4) (n : Fin 2048) (h : Fin 8) (e : Fin 128) :
    ctxCat a b n (chan h e) = ctx a b h n e := by
  have h1 : (⟨(chan h e).val / 128, by have := (chan h e).isLt; omega⟩ : Fin 8) = h :=
    Fin.ext (by simp only [chan]; omega)
  have h2 : (⟨(chan h e).val % 128, Nat.mod_lt _ (by decide)⟩ : Fin 128) = e :=
    Fin.ext (by simp only [chan]; omega)
  unfold ctxCat
  rw [h1, h2]

/-- The sum over 1024 channels regrouped along `c = 128 h + e`: a finite sum in a commutative monoid, reindexed by
    the bijection `(h, e) ↦ 128 h + e` between `Fin 8 × Fin 128` and `Fin 1024`. -/
theorem projH_eq (b : Fin 4) (n : Fin 2048) (d : Fin 1024) : projH a b n d = proj a b n d := by
  unfold projH proj
  rw [← Fintype.sum_prod_type' (f := fun (h : Fin 8) (e : Fin 128) => ctx a b h n e * a.wout (chan h e) d)]
  refine Fintype.sum_equiv (finProdFinEquiv (m := 8) (n := 128)) _ _ fun x => ?_
  obtain ⟨h, e⟩ := x
  have hc : (finProdFinEquiv (m := 8) (n := 128) (h, e) : Fin 1024) = chan h e :=
    Fin.ext (by simp only [finProdFinEquiv, Equiv.coe_fn_mk, chan]; omega)
  rw [hc, ctxCat_chan]

end Cert.Spec

end
-- ==== Proof.KGlue.lean ====
/-
  The host operations between the launch and the two kernels, read at an index.

  Before the first kernel the host reshapes the input (4, 2048, 1024) to 8192 rows of 1024, reshapes the scale, the
  shift and the bias (1024) to one row each, and rounds the two weight matrices to bfloat16, which over the extended
  reals is the identity. Between the kernels it reshapes the first kernel's result (24, 8192, 128) to
  (24, 4, 2048, 128): row `2048 b + n` is position `n` of batch `b`. A reshape reads the element with the same
  row-major position. Composed with the first kernel's result array as one function of its entry arrays, this gives
  the second kernel's entry arrays in terms of the six arguments: slab `8 s + h` at `(b, n, e)` is slot `s` of head `h`,
  the projection's column `1024 s + 128 h + e` of the normalised row.
-/
import proofs.«165050_j14989435863585_2_alg».proof.Proof.KFrame
import proofs.«165050_j14989435863585_2_alg».proof.Proof.K0Final
import proofs.«165050_j14989435863585_2_alg».proof.Proof.SpecLaws
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

/-! ## The host stretches, evaluated at a reference, over any contents -/

section Stretches
variable (W : Valuation τ sig (Elt Ideal))

/-- After the first stretch the input's rows are the argument reshaped. -/
theorem after0_v0 : (after (hostOps0 (F := Ideal)) W (main_v0 : DevRef τ sig) : S8192x1024.Idx → EReal)
    = shapeCast S8192x1024 (W (main_arg0 : DevRef τ sig) : S4x2048x1024.Idx → EReal) shapeCasts_S4x2048x1024_S8192x1024 := by
  after_results; rfl
theorem after0_v1 : (after (hostOps0 (F := Ideal)) W (main_v1 : DevRef τ sig) : S1x1024.Idx → EReal)
    = shapeCast S1x1024 (W (main_arg1 : DevRef τ sig) : S1024.Idx → EReal) shapeCasts_S1024_S1x1024 := by
  after_results; rfl
theorem after0_v2 : (after (hostOps0 (F := Ideal)) W (main_v2 : DevRef τ sig) : S1x1024.Idx → EReal)
    = shapeCast S1x1024 (W (main_arg2 : DevRef τ sig) : S1024.Idx → EReal) shapeCasts_S1024_S1x1024 := by
  after_results; rfl
/-- The two weight matrices are rounded to bfloat16: over the extended reals, left as they are. -/
theorem after0_v3 : (after (hostOps0 (F := Ideal)) W (main_v3 : DevRef τ sig) : S1024x3072.Idx → EReal)
    = (W (main_arg3 : DevRef τ sig) : S1024x3072.Idx → EReal) := by
  after_results; rfl
theorem after0_v4 : (after (hostOps0 (F := Ideal)) W (main_v4 : DevRef τ sig) : S1024x1024.Idx → EReal)
    = (W (main_arg4 : DevRef τ sig) : S1024x1024.Idx → EReal) := by
  after_results; rfl
theorem after0_v5 : (after (hostOps0 (F := Ideal)) W (main_v5 : DevRef τ sig) : S1x1024.Idx → EReal)
    = shapeCast S1x1024 (W (main_arg5 : DevRef τ sig) : S1024.Idx → EReal) shapeCasts_S1024_S1x1024 := by
  after_results; rfl
/-- After the second stretch the attention kernel's input is the first kernel's result reshaped. -/
theorem after1_v7 : (after (hostOps1 (F := Ideal)) W (main_v7 : DevRef τ sig) : S24x4x2048x128.Idx → EReal)
    = shapeCast S24x4x2048x128 (W (main_v6 : DevRef τ sig) : S24x8192x128.Idx → EReal) shapeCasts_S24x8192x128_S24x4x2048x128 := by
  after_results; rfl

end Stretches

variable (m : (ℓ : Loc nD τ sig) → Buf (Elt Ideal) ℓ) (ρ : Dev nD → PrngReg)

/-! ## The arguments -/

/-- The six argument arrays of core `c`'s launch memory, read at literal coordinates. -/
def argsK (c : Dev nD) : Cert.Spec.Args where
  x := fun b n ch => (m ((c : Thread nD τ).loc main_arg0) : S4x2048x1024.Idx → EReal) (ix3 b n ch)
  g := fun ch => (m ((c : Thread nD τ).loc main_arg1) : S1024.Idx → EReal) (ix1 ch)
  be := fun ch => (m ((c : Thread nD τ).loc main_arg2) : S1024.Idx → EReal) (ix1 ch)
  wqkv := fun ch j => (m ((c : Thread nD τ).loc main_arg3) : S1024x3072.Idx → EReal) (ix2 ch j)
  wout := fun ch d => (m ((c : Thread nD τ).loc main_arg4) : S1024x1024.Idx → EReal) (ix2 ch d)
  bo := fun d => (m ((c : Thread nD τ).loc main_arg5) : S1024.Idx → EReal) (ix1 d)

/-! ## The first kernel's entry arrays -/

/-- Row `2048 b + n` of the reshaped input is position `n` of batch `b`. -/
theorem E1_v0_apply (c : Dev nD) (b : Fin 4) (n : Fin 2048) (ch : Fin 1024) :
    (E1 m ρ c main_v0 : S8192x1024.Idx → EReal) (ix2 ⟨2048 * b.val + n.val, by omega⟩ ch) = (argsK m c).x b n ch :=
  (congrFun (after0_v0 (W0 m ρ c)) _).trans
    (shapeCast_apply _ _ _ (ix3 b n ch) (by
      rw [Shape.rowMajor_val_three, Shape.rowMajor_val_two]
      show (b.val * 2048 + n.val) * 1024 + ch.val = (2048 * b.val + n.val) * 1024 + ch.val
      omega))
/-- The scale and the shift as one row each. -/
theorem E1_v1_apply (c : Dev nD) (ch : Fin 1024) :
    (E1 m ρ c main_v1 : S1x1024.Idx → EReal) (ix2 0 ch) = (argsK m c).g ch :=
  (congrFun (after0_v1 (W0 m ρ c)) _).trans (shapeCast_a_1a_apply _ _ 0 ch)
theorem E1_v2_apply (c : Dev nD) (ch : Fin 1024) :
    (E1 m ρ c main_v2 : S1x1024.Idx → EReal) (ix2 0 ch) = (argsK m c).be ch :=
  (congrFun (after0_v2 (W0 m ρ c)) _).trans (shapeCast_a_1a_apply _ _ 0 ch)
/-- The projection's matrix, rounded: as launched. -/
theorem E1_v3_apply (c : Dev nD) (ch : Fin 1024) (j : Fin 3072) :
    (E1 m ρ c main_v3 : S1024x3072.Idx → EReal) (ix2 ch j) = (argsK m c).wqkv ch j :=
  congrFun (after0_v3 (W0 m ρ c)) _

/-! ## The attention kernel's entry arrays -/

/-- The input itself: no host operation and no kernel writes it. -/
theorem E3_arg0 (c : Dev nD) : E3 m ρ c main_arg0 = m ((c : Thread nD τ).loc main_arg0) :=
  (W3_of m ρ c main_arg0 (by decide)).trans <| (W2_of_ne m ρ c main_arg0 (by decide)).trans <| (W1_of m ρ c main_arg0 (by decide)).trans rfl

/-- The output projection's matrix, rounded before the first kernel and untouched since: as launched. -/
theorem E3_v4_apply (c : Dev nD) (ch d : Fin 1024) :
    (E3 m ρ c main_v4 : S1024x1024.Idx → EReal) (ix2 ch d) = (argsK m c).wout ch d :=
  (congrFun ((W3_of m ρ c main_v4 (by decide)).trans (W2_of_ne m ρ c main_v4 (by decide))) _).trans
    (congrFun (after0_v4 (W0 m ρ c)) _)

/-- The bias as one row, reshaped before the first kernel and untouched since. -/
theorem E3_v5_apply (c : Dev nD) (d : Fin 1024) :
    (E3 m ρ c main_v5 : S1x1024.Idx → EReal) (ix2 0 d) = (argsK m c).bo d :=
  (congrFun ((W3_of m ρ c main_v5 (by decide)).trans (W2_of_ne m ρ c main_v5 (by decide))) _).trans
    ((congrFun (after0_v5 (W0 m ρ c)) _).trans (shapeCast_a_1a_apply _ _ 0 d))

/-- THE SLOTS. Slab `8 s + h` of the attention kernel's input at `(b, n, e)` is slot `s` of head `h` at position `n` of
    batch `b`, channel `e`: the reshape reads row `2048 b + n` of the first kernel's result, which is the normalised row
    times column `128 (8 s + h) + e = 1024 s + 128 h + e` of the projection's matrix. -/
theorem E3_v7_apply (c : Dev nD) (s : Fin 3) (h : Fin 8) (b : Fin 4) (n : Fin 2048) (e : Fin 128) :
    (E3 m ρ c main_v7 : S24x4x2048x128.Idx → EReal) (ix4 ⟨8 * s.val + h.val, by omega⟩ b n e)
      = Cert.Spec.slot (argsK m c) s b h n e := by
  -- the reshape between the kernels: the same row-major position
  refine (congrFun (after1_v7 (W2 m ρ c)) _).trans ?_
  refine (shapeCast_apply _ _ _ (ix3 (⟨8 * s.val + h.val, by omega⟩ : Fin 24) (⟨2048 * b.val + n.val, by omega⟩ : Fin 8192) e) (by
      rw [Shape.rowMajor_val_three, Shape.rowMajor_val_four]
      show ((8 * s.val + h.val) * 8192 + (2048 * b.val + n.val)) * 128 + e.val
        = (((8 * s.val + h.val) * 4 + b.val) * 2048 + n.val) * 128 + e.val
      omega)).trans ?_
  -- the first kernel's result array, as one function of its entry arrays
  refine (congrFun (W2_arr m ρ c 4) _).trans ?_
  refine (final0 (E1 m ρ) c _ _ _).trans ?_
  -- its entry arrays are the arguments reshaped
  rw [show (fun ch : Fin 1024 => (E1 m ρ c main_v0 : Vec Ideal S8192x1024 .f32) (ix2 (⟨2048 * b.val + n.val, by omega⟩ : Fin 8192) ch))
        = (argsK m c).x b n from funext fun ch => E1_v0_apply m ρ c b n ch,
    show (fun ch : Fin 1024 => (E1 m ρ c main_v1 : Vec Ideal S1x1024 .f32) (ix2 0 ch)) = (argsK m c).g from
      funext fun ch => E1_v1_apply m ρ c ch,
    show (fun ch : Fin 1024 => (E1 m ρ c main_v2 : Vec Ideal S1x1024 .f32) (ix2 0 ch)) = (argsK m c).be from
      funext fun ch => E1_v2_apply m ρ c ch]
  unfold Cert.Spec.slot Cert.Spec.qkv Cert.Spec.xn
  show (_ : EReal) = _
  refine Finset.sum_congr rfl fun ch _ => ?_
  rw [Cert.Spec.rowXnR_eq]
  congr 1
  refine (E1_v3_apply m ρ c ch _).trans ?_
  show (argsK m c).wqkv ch _ = (argsK m c).wqkv ch _
  congr 1
  exact Fin.ext (by show 128 * (8 * s.val + h.val) + e.val = s.val * 1024 + h.val * 128 + e.val; omega)

end Cert.KernelIdeal.Hand

end
-- ==== Proof.SpecBridge.lean ====
/-
  The kernels' values joined to the specification's first spellings: the projected block with the normalisation as
  the quotient by the square root; eight head steps from zero as the sum over the heads; the output's three terms in
  the specification's order.
-/
import proofs.«165050_j14989435863585_2_alg».proof.Proof.SpecLaws
import proofs.«165050_j14989435863585_2_alg».proof.Proof.PayK0
import proofs.«165050_j14989435863585_2_alg».proof.Proof.PayK1

noncomputable section

namespace Cert.KernelIdeal.Pay

open Idealize.ShloMosaic ValueIdx Cert.KernelIdeal Cert.KernelIdeal.Gen

/-- The projected block at `(r, j)` with the row normalised by the quotient: the two spellings agree at every row. -/
theorem K0.pay1_apply_xn (x0 : Vec Ideal S1024x1024 .f32) (g1 be1 : Vec Ideal S1x1024 .f32) (w : Vec Ideal S1024x3072 .bf16)
    (r : Fin 1024) (j : Fin 3072) :
    k0_pay1 (F := Ideal) x0 g1 be1 w (ix2 r j)
      = ∑ c : Fin 1024,
          Cert.Spec.rowXn (fun c => x0 (ix2 r c)) (fun c => g1 (ix2 0 c)) (fun c => be1 (ix2 0 c)) c * w (ix2 c j) := by
  rw [K0.pay1_apply]
  exact Finset.sum_congr rfl fun c _ => by rw [Cert.Spec.rowXnR_eq]

/-- Eight steps added one after another onto zero are the sum over the eight. -/
theorem sum_eight_steps (s : Fin 8 → EReal) :
    0 + s 0 + s 1 + s 2 + s 3 + s 4 + s 5 + s 6 + s 7 = ∑ h : Fin 8, s h := by
  rw [Fin.sum_univ_eight, zero_add]

/-- The output's three terms in the specification's order. -/
theorem out_reassoc (p b x : EReal) : p + b + x = x + (p + b) := add_comm _ _

end Cert.KernelIdeal.Pay

end
-- ==== Proof.KValue.lean ====
/- The kernel's result joined to the specification, at the ideal values. The attention kernel leaves, at batch `b`,
   position `n`, column `d`, the sum over the eight heads of the head's context projected by its 128 rows of the output
   weights, plus the bias, plus the input — over the arrays it finds when it is entered. Those arrays are the
   specification's slots (the projected, normalised input), output weights and bias of the launch's six arguments; so a
   head's term is the specification's context of that head against its 128 weight rows, the eight terms are the output
   projection summed head by head, and the whole is the specification's result. -/
import proofs.«165050_j14989435863585_2_alg».proof.Proof.K1Final
import proofs.«165050_j14989435863585_2_alg».proof.Proof.KGlue
import proofs.«165050_j14989435863585_2_alg».proof.Proof.SpecLaws
import proofs.«165050_j14989435863585_2_alg».proof.Proof.SpecBridge
import Idealize.ShloMosaic.Lib.ValueIdx

noncomputable section

namespace Cert.KernelIdeal.Hand

open Cert.KernelIdeal Cert.KernelIdeal.Gen
open Idealize.ShloMosaic Idealize.ShloMosaic.TcCoe
open Idealize.SL.Sem
open ValueIdx
open scoped BigOperators

variable (m : (ℓ : Loc nD τ sig) → Buf (Elt Ideal) ℓ) (ρ : Dev nD → PrngReg)

/-! ## The arrays the attention kernel finds, at the coordinates a head's term reads -/

/-- Row `k = 8 s + h` of the stacked head arrays is slot `s` of head `h`. -/
theorem v7_at (c : Dev nD) (s : Fin 3) (h : Fin 8) (k : Fin 24) (hk : k.val = 8 * s.val + h.val)
    (b : Fin 4) (n : Fin 2048) (e : Fin 128) :
    (E3 m ρ c main_v7 : S24x4x2048x128.Idx → EReal) (ix4 k b n e) = Cert.Spec.slot (argsK m c) s b h n e := by
  have hk' : k = (⟨8 * s.val + h.val, by have := s.isLt; have := h.isLt; omega⟩ : Fin 24) := Fin.ext hk
  exact (congrArg (fun k' : Fin 24 => (E3 m ρ c main_v7 : S24x4x2048x128.Idx → EReal) (ix4 k' b n e)) hk').trans
    (E3_v7_apply m ρ c s h b n e)

/-- Row `128 h + e` of the output weights is the specification's channel `e` of head `h`. -/
theorem v4_at (c : Dev nD) (h : Fin 8) (e : Fin 128) (k : Fin 1024) (hk : k.val = 128 * h.val + e.val) (d : Fin 1024) :
    (E3 m ρ c main_v4 : S1024x1024.Idx → EReal) (ix2 k d) = (argsK m c).wout (Cert.Spec.chan h e) d := by
  obtain rfl : k = Cert.Spec.chan h e := Fin.ext (by rw [hk]; simp only [Cert.Spec.chan]; omega)
  exact E3_v4_apply m ρ c _ d

/-! ## One head's term -/

/-- A head's term over the arrays the kernel finds is the specification's context of that head against its 128 rows of
    the output weights. -/
theorem headTerm_eq (c : Dev nD) (b : Fin 4) (n : Fin 2048) (h : Fin 8) (d : Fin 1024) :
    headTerm (E3 m ρ) c b n h d
      = ∑ e : Fin 128, Cert.Spec.ctx (argsK m c) b h n e * (argsK m c).wout (Cert.Spec.chan h e) d := by
  unfold headTerm Cert.Spec.ctx
  have hq : (fun e : Fin 128 => (E3 m ρ c main_v7 : S24x4x2048x128.Idx → EReal) (ix4 (⟨h.val, by omega⟩ : Fin 24) b n e))
      = Cert.Spec.slot (argsK m c) 0 b h n :=
    funext fun e => v7_at m ρ c 0 h _ (by show h.val = 8 * 0 + h.val; omega) b n e
  have hk : (fun (mm : Fin 2048) (e : Fin 128) => (E3 m ρ c main_v7 : S24x4x2048x128.Idx → EReal) (ix4 (⟨8 + h.val, by omega⟩ : Fin 24) b mm e))
      = Cert.Spec.slot (argsK m c) 1 b h :=
    funext fun mm => funext fun e => v7_at m ρ c 1 h _ (by show 8 + h.val = 8 * 1 + h.val; omega) b mm e
  have hv : (fun (mm : Fin 2048) (e : Fin 128) => (E3 m ρ c main_v7 : S24x4x2048x128.Idx → EReal) (ix4 (⟨16 + h.val, by omega⟩ : Fin 24) b mm e))
      = Cert.Spec.slot (argsK m c) 2 b h :=
    funext fun mm => funext fun e => v7_at m ρ c 2 h _ (by show 16 + h.val = 8 * 2 + h.val; omega) b mm e
  refine Finset.sum_congr rfl fun e _ => ?_
  rw [hq, hk, hv, v4_at m ρ c h e _ rfl d]

/-! ## The result -/

/-- The array the attention kernel leaves, at (b, n, d), is the specification's result of the launch's six arguments. -/
theorem kernel_out_apply (c : Dev nD) (b : Fin 4) (n : Fin 2048) (d : Fin 1024) :
    G1 (E3 m ρ) c (ix3 b n d) = Cert.Spec.out (argsK m c) b n d := by
  show g1 (E3 m ρ) c b n d = _
  unfold g1 Cert.Spec.out
  rw [Finset.sum_congr rfl (fun h _ => headTerm_eq m ρ c b n h d)]
  rw [show (∑ h : Fin 8, ∑ e : Fin 128, Cert.Spec.ctx (argsK m c) b h n e * (argsK m c).wout (Cert.Spec.chan h e) d)
        = Cert.Spec.projH (argsK m c) b n d from rfl,
    Cert.Spec.projH_eq, E3_v5_apply, Cert.KernelIdeal.Pay.out_reassoc]
  exact congrArg (· + (Cert.Spec.proj (argsK m c) b n d + (argsK m c).bo d)) (congrFun (E3_arg0 m ρ c) (ix3 b n d))

end Cert.KernelIdeal.Hand

end
-- ==== Proof.RefStages.lean ====
/- The reference program's result as a pure term of its six arguments, built from named stages: the layer
   normalisation (row mean, deviations, row variance, its square root), the joint projection, its split into query /
   key / value heads, the scaled scores, the row softmax (row maximum, exponentials, row sum), the context, the
   output projection. Each stage is a function of its direct inputs, so that it can be read at an index on its own. -/
import proofs.«165050_j14989435863585_2_alg».proof.Proof.Gen.ReferenceIdeal
import Idealize.ShloMosaic.Lib.StableHlo

noncomputable section

namespace Cert.ReferenceIdeal.Hand

open Cert.ReferenceIdeal Cert.ReferenceIdeal.Gen Idealize.ShloMosaic

variable {F : FTy → Type} [FloatOps F]

/-! ## The stages of the computation, as pure terms -/

/-- The mean of each row of `x` (its last axis), a 4x2048x1 column: the row sum, from zero, over 1024. -/
def mean (x : FVec F S4x2048x1024 .f32) : FVec F S4x2048x1 .f32 :=
  Host.divf
    (broadcastInDim S4x2048x1 ![0, 1] bcast_S4x2048_S4x2048x1_0_1
      (Host.reduceAdd x (constant S_ .f32 0x00000000#32) reducesTo_S4x2048x1024_S4x2048_d2 h_S_))
    (broadcastInDim S4x2048x1 ![] bcast_S_S4x2048x1 (constant S_ .f32 0x44800000#32))

/-- `x` less its row mean. -/
def centered (x : FVec F S4x2048x1024 .f32) : FVec F S4x2048x1024 .f32 :=
  subf x (broadcastInDim S4x2048x1024 ![0, 1, 2] bcast_S4x2048x1_S4x2048x1024_0_1_2 (mean x))

/-- The variance's divisor: 1024 less the integer correction `0` converted to a float. -/
def count : FVec F S_ .f32 :=
  subf (constant S_ .f32 0x44800000#32) (sitofp .f32 (constantI S_ 32 0#32))

/-- The variance of each row of `x`, a 4x2048x1 column: the row sum of the squared deviations over `count` where
    `count > 0`, the quiet NaN elsewhere. -/
def var (x : FVec F S4x2048x1024 .f32) : FVec F S4x2048x1 .f32 :=
  select
    (broadcastInDim S4x2048x1 ![] bcast_S_S4x2048x1 (cmpf .ogt (count (F := F)) (constant S_ .f32 0x00000000#32)))
    (Host.divf
      (broadcastInDim S4x2048x1 ![0, 1] bcast_S4x2048_S4x2048x1_0_1
        (Host.reduceAdd (mulf (centered x) (centered x)) (constant S_ .f32 0x00000000#32) reducesTo_S4x2048x1024_S4x2048_d2 h_S_))
      (broadcastInDim S4x2048x1 ![] bcast_S_S4x2048x1 count))
    (broadcastInDim S4x2048x1 ![] bcast_S_S4x2048x1 (constant S_ .f32 0x7FC00000#32))

/-- The square root of the row variance plus the constant `1e-3`, a 4x2048x1 column. -/
def sigma (x : FVec F S4x2048x1024 .f32) : FVec F S4x2048x1 .f32 :=
  Host.sqrt (addf (var x) (broadcastInDim S4x2048x1 ![] bcast_S_S4x2048x1 (constant S_ .f32 0x3A83126F#32)))

/-- A vector over the last axis repeated along the first two. -/
def rowBcast (g : FVec F S1024 .f32) : FVec F S4x2048x1024 .f32 :=
  broadcastInDim S4x2048x1024 ![0, 1, 2] bcast_S1x1x1024_S4x2048x1024_0_1_2 (broadcastInDim S1x1x1024 ![2] bcast_S1024_S1x1x1024_2 g)

/-- The layer-normalised array: the deviations over `sigma`, scaled by `g` and shifted by `be` along the last axis. -/
def ln (x : FVec F S4x2048x1024 .f32) (g be : FVec F S1024 .f32) : FVec F S4x2048x1024 .f32 :=
  addf
    (mulf
      (Host.divf (centered x) (broadcastInDim S4x2048x1024 ![0, 1, 2] bcast_S4x2048x1_S4x2048x1024_0_1_2 (sigma x)))
      (rowBcast g))
    (rowBcast be)

/-- The joint query / key / value projection: `y` contracted with `wqkv` over the feature axis. -/
def qkv (y : FVec F S4x2048x1024 .f32) (wqkv : FVec F S1024x3072 .f32) : FVec F S4x2048x3072 .f32 :=
  Host.dotGeneral dot_S4x2048x1024_S1024x3072_S4x2048x3072_2_0_01_1_n_n none y wqkv

/-- The projection's last axis split as (which of q / k / v, head, channel), then the axes moved to
    (which, batch, head, position, channel). -/
def heads (p : FVec F S4x2048x3072 .f32) : FVec F S3x4x8x2048x128 .f32 :=
  transpose S3x4x8x2048x128 [2, 0, 3, 1, 4] (shapeCast S4x2048x3x8x128 p shapeCasts_S4x2048x3072_S4x2048x3x8x128)
    transposes_S4x2048x3x8x128_S3x4x8x2048x128_2_0_3_1_4

/-- The queries: slab 0 of `heads`. -/
def qPart (t : FVec F S3x4x8x2048x128 .f32) : FVec F S4x8x2048x128 .f32 :=
  shapeCast S4x8x2048x128 (extractStridedSlice S1x4x8x2048x128 ![0, 0, 0, 0, 0] t slices_S3x4x8x2048x128_S1x4x8x2048x128_0_0_0_0_0)
    shapeCasts_S1x4x8x2048x128_S4x8x2048x128

/-- The keys: slab 1 of `heads`. -/
def kPart (t : FVec F S3x4x8x2048x128 .f32) : FVec F S4x8x2048x128 .f32 :=
  shapeCast S4x8x2048x128 (extractStridedSlice S1x4x8x2048x128 ![1, 0, 0, 0, 0] t slices_S3x4x8x2048x128_S1x4x8x2048x128_1_0_0_0_0)
    shapeCasts_S1x4x8x2048x128_S4x8x2048x128

/-- The values: slab 2 of `heads`. -/
def vPart (t : FVec F S3x4x8x2048x128 .f32) : FVec F S4x8x2048x128 .f32 :=
  shapeCast S4x8x2048x128 (extractStridedSlice S1x4x8x2048x128 ![2, 0, 0, 0, 0] t slices_S3x4x8x2048x128_S1x4x8x2048x128_2_0_0_0_0)
    shapeCasts_S1x4x8x2048x128_S4x8x2048x128

/-- The scaled scores: queries against keys over the channel axis, per batch and head, times `1/32`. -/
def scores (q k : FVec F S4x8x2048x128 .f32) : FVec F S4x8x2048x2048 .f32 :=
  mulf (Host.dotGeneral dot_S4x8x2048x128_S4x8x2048x128_S4x8x2048x2048_3_3_2_2_01_01 none q k)
    (broadcastInDim S4x8x2048x2048 ![] bcast_S_S4x8x2048x2048 (constant S_ .f32 0x3D000000#32))

/-- The maximum of each row of `s` (its last axis), from minus infinity, then once more against minus infinity. -/
def rowMax (s : FVec F S4x8x2048x2048 .f32) : FVec F S4x8x2048 .f32 :=
  maximumf (broadcastInDim S4x8x2048 ![] bcast_S_S4x8x2048 (constant S_ .f32 0xFF800000#32))
    (Host.reduce FloatOps.maximumf s (constant S_ .f32 0xFF800000#32) reducesTo_S4x8x2048x2048_S4x8x2048_d3 h_S_)

/-- A value per row repeated along the row. -/
def spread (r : FVec F S4x8x2048 .f32) : FVec F S4x8x2048x2048 .f32 :=
  broadcastInDim S4x8x2048x2048 ![0, 1, 2, 3] bcast_S4x8x2048x1_S4x8x2048x2048_0_1_2_3
    (broadcastInDim S4x8x2048x1 ![0, 1, 2] bcast_S4x8x2048_S4x8x2048x1_0_1_2 r)

/-- The exponential of `s` less its row maximum. -/
def expd (s : FVec F S4x8x2048x2048 .f32) : FVec F S4x8x2048x2048 .f32 :=
  Host.exp (subf s (spread (rowMax s)))

/-- The sum of each row of `e` (its last axis), from zero. -/
def rowSum (e : FVec F S4x8x2048x2048 .f32) : FVec F S4x8x2048 .f32 :=
  Host.reduceAdd e (constant S_ .f32 0x00000000#32) reducesTo_S4x8x2048x2048_S4x8x2048_d3 h_S_

/-- The softmax of `s` along its last axis. -/
def softmax (s : FVec F S4x8x2048x2048 .f32) : FVec F S4x8x2048x2048 .f32 :=
  Host.divf (expd s) (spread (rowSum (expd s)))

/-- The context: the weights `p` against the values over the key-position axis, per batch and head; then the head
    axis moved behind the position axis and merged with the channel axis. -/
def ctx (p : FVec F S4x8x2048x2048 .f32) (v : FVec F S4x8x2048x128 .f32) : FVec F S4x2048x1024 .f32 :=
  shapeCast S4x2048x1024
    (transpose S4x2048x8x128 [0, 2, 1, 3]
      (Host.dotGeneral dot_S4x8x2048x2048_S4x8x2048x128_S4x8x2048x128_3_2_2_3_01_01 none p v)
      transposes_S4x8x2048x128_S4x2048x8x128_0_2_1_3)
    shapeCasts_S4x2048x8x128_S4x2048x1024

/-- The output projection: `a` contracted with `wout` over the feature axis, plus `bo` along the last axis. -/
def proj (a : FVec F S4x2048x1024 .f32) (wout : FVec F S1024x1024 .f32) (bo : FVec F S1024 .f32) : FVec F S4x2048x1024 .f32 :=
  addf (Host.dotGeneral dot_S4x2048x1024_S1024x1024_S4x2048x1024_2_0_01_1_n_n none a wout) (rowBcast bo)

/-- The three head arrays of the layer-normalised input. -/
def headsOf (x : FVec F S4x2048x1024 .f32) (g be : FVec F S1024 .f32) (wqkv : FVec F S1024x3072 .f32) : FVec F S3x4x8x2048x128 .f32 :=
  heads (qkv (ln x g be) wqkv)

/-- What @main computes from its six arguments' contents: `x` plus the projected attention output. -/
def out (x : FVec F S4x2048x1024 .f32) (g be : FVec F S1024 .f32) (wqkv : FVec F S1024x3072 .f32)
    (wout : FVec F S1024x1024 .f32) (bo : FVec F S1024 .f32) : FVec F S4x2048x1024 .f32 :=
  addf x
    (proj
      (ctx (softmax (scores (qPart (headsOf x g be wqkv)) (kPart (headsOf x g be wqkv)))) (vPart (headsOf x g be wqkv)))
      wout bo)

end Cert.ReferenceIdeal.Hand

end
-- ==== Proof.RefRun.lean ====
/- The reference program's @main as the list of its 79 host operations — the variance function's twenty and,
   inside it, the selection function's three, listed at the call over the call's own buffers — and its run read
   back: every weakly fair execution terminates with the result buffer at `out`, the operations' composed pure
   term of the six arguments' launch contents, and the arguments unchanged. -/
import proofs.«165050_j14989435863585_2_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## A line of operations with a continuation -/

section Line

variable {nD' : Nat} {τ' : Topo} {sig' : RefSig} {Val : EltTy → Type} {Λ : Labels}

/-- A straight line of host operations continued by `k`: what a `do` block of steps ending in `k` is. -/
def seqK (k : Prog (TpuEff nD' τ' sig' Val Λ .tc) PUnit) : List (HloOp τ' sig' Val) → Prog (TpuEff nD' τ' sig' Val Λ .tc) PUnit
  | [] => k
  | op :: ops => (hlo rfl op fun _ => .ret (⟨⟩ : PUnit)) >>= fun _ => seqK k ops

/-- A line run to its return and then `k` is the line continued by `k`. -/
theorem seq_bind (l : List (HloOp τ' sig' Val)) (k : Prog (TpuEff nD' τ' sig' Val Λ .tc) PUnit) :
    (seq l >>= fun _ => k) = seqK k l := by
  induction l with
  | nil => simp only [seq, seqK, pure_bind]
  | cons op l ih => simp only [seq, seqK, bind_assoc, ih]

/-- A line continued by a line is the concatenation. -/
theorem seqK_seq (l l' : List (HloOp τ' sig' Val)) :
    (seqK (seq l') l : Prog (TpuEff nD' τ' sig' Val Λ .tc) PUnit) = seq (l ++ l') := by
  induction l with
  | nil => rfl
  | cons op l ih => simp only [seqK, List.cons_append, seq, ih]

/-- A caller's line `A`, then a callee whose body is the line `V` and a nested callee's line `W` before its
    return, then the caller's line `B`: one line. -/
theorem seqK_call (A V W B : List (HloOp τ' sig' Val)) :
    (seqK ((seqK (seq W >>= fun _ => pure ⟨⟩) V) >>= fun _ => seq B) A : Prog (TpuEff nD' τ' sig' Val Λ .tc) PUnit)
      = seq (A ++ ((V ++ W) ++ B)) := by
  have hW : (seq W >>= fun _ => (pure ⟨⟩ : Prog (TpuEff nD' τ' sig' Val Λ .tc) PUnit)) = seq (W ++ []) := by
    rw [seq_bind, show (pure ⟨⟩ : Prog (TpuEff nD' τ' sig' Val Λ .tc) PUnit) = seq [] from rfl, seqK_seq]
  rw [hW, List.append_nil, seqK_seq, seq_bind, seqK_seq, seqK_seq]

end Line

variable {F : FTy → Type} [FloatOps F]

/-! ## The program as a list of operations -/

/-- @main's operations in order, the two calls unfolded: seven of its own (the mean's five, the correction `0`),
    then the variance function's twenty over the call's buffers — the mean again, the squared deviations, the
    divisor `1024 - 0`, the row sum over it, the comparison, the NaN word — and, inside it, the selection
    function's three (the word converted to its own type, spread, the select), then @main's remaining forty-nine. -/
abbrev ops : List (HloOp τ sig (Elt F)) :=
  [ StableHlo.nullary main_cst (constant S_ .f32 0x00000000#32),
    StableHlo.binary main_arg0 main_cst main_v0 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    StableHlo.unary main_v0 main_v1 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_0 (constant S_ .f32 0x44800000#32),
    StableHlo.unary main_cst_0 main_v2 (broadcastInDim S4x2048x1 ![] bcast_S_S4x2048x1 : (⟨S_, .f32⟩ : BufTy).Contents (Elt F) → (⟨S4x2048x1, .f32⟩ : BufTy).Contents (Elt F)),
    StableHlo.binary main_v1 main_v2 main_v3 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_c (constantI S_ 32 0#32),
    StableHlo.TRef.nullary main_call0.cst (constant S_ .f32 0x00000000#32),
    StableHlo.TRef.binary (.of main_arg0 : TRef sig ⟨S4x2048x1024, .f32⟩) main_call0.cst main_call0.v0 (fun x v => Host.reduceAdd x v reducesTo_S4x2048x1024_S4x2048_d2 h_S_),
    StableHlo.TRef.unary main_call0.v0 main_call0.v1 (broadcastInDim S4x2048x1 ![0, 1] bcast_S4x2048_S4x2048x1_0_1),
    StableHlo.TRef.nullary main_call0.cst_0 (constant S_ .f32 0x44800000#32),
    StableHlo.TRef.unary main_call0.cst_0 main_call0.v2 (broadcastInDim S4x2048x1 ![] bcast_S_S4x2048x1),
    StableHlo.TRef.binary main_call0.v1 main_call0.v2 main_call0.v3 Host.divf,
    StableHlo.TRef.unary main_call0.v3 main_call0.v4 (broadcastInDim S4x2048x1024 ![0, 1, 2] bcast_S4x2048x1_S4x2048x1024_0_1_2),
    StableHlo.TRef.binary (.of main_arg0 : TRef sig ⟨S4x2048x1024, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x2048x1024_S4x2048_d2 h_S_),
    StableHlo.TRef.unary main_call0.v9 main_call0.v10 (broadcastInDim S4x2048x1 ![0, 1] bcast_S4x2048_S4x2048x1_0_1),
    StableHlo.TRef.unary main_call0.v8 main_call0.v11 (broadcastInDim S4x2048x1 ![] bcast_S_S4x2048x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x2048x1 ![] bcast_S_S4x2048x1),
    StableHlo.TRef.ternary main_call0.v13 main_call0.v12 main_call0.call0.v1 main_call0.call0.v2 (fun p a b => select (broadcastInDim S4x2048x1 ![] bcast_S_S4x2048x1 p) a b),
    StableHlo.unary main_v3 main_v5 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_arg0 main_v5 main_v6 (subf : (⟨S4x2048x1024, .f32⟩ : BufTy).Contents (Elt F) → (⟨S4x2048x1024, .f32⟩ : BufTy).Contents (Elt F) → (⟨S4x2048x1024, .f32⟩ : BufTy).Contents (Elt F)),
    StableHlo.nullary main_cst_1 (constant S_ .f32 0x3A83126F#32),
    StableHlo.unary main_cst_1 main_v7 (broadcastInDim S4x2048x1 ![] bcast_S_S4x2048x1 : (⟨S_, .f32⟩ : BufTy).Contents (Elt F) → (⟨S4x2048x1, .f32⟩ : BufTy).Contents (Elt F)),
    StableHlo.binary main_v4 main_v7 main_v8 (addf : (⟨S4x2048x1, .f32⟩ : BufTy).Contents (Elt F) → (⟨S4x2048x1, .f32⟩ : BufTy).Contents (Elt F) → (⟨S4x2048x1, .f32⟩ : BufTy).Contents (Elt F)),
    StableHlo.unary main_v8 main_v9 (Host.sqrt : (⟨S4x2048x1, .f32⟩ : BufTy).Contents (Elt F) → (⟨S4x2048x1, .f32⟩ : BufTy).Contents (Elt F)),
    StableHlo.unary main_v9 main_v10 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    StableHlo.binary main_v6 main_v10 main_v11 (Host.divf : (⟨S4x2048x1024, .f32⟩ : BufTy).Contents (Elt F) → (⟨S4x2048x1024, .f32⟩ : BufTy).Contents (Elt F) → (⟨S4x2048x1024, .f32⟩ : BufTy).Contents (Elt F)),
    StableHlo.unary main_arg1 main_v12 (broadcastInDim S1x1x1024 ![2] bcast_S1024_S1x1x1024_2 : (⟨S1024, .f32⟩ : BufTy).Contents (Elt F) → (⟨S1x1x1024, .f32⟩ : BufTy).Contents (Elt F)),
    StableHlo.unary main_v12 main_v13 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v11 main_v13 main_v14 (mulf : (⟨S4x2048x1024, .f32⟩ : BufTy).Contents (Elt F) → (⟨S4x2048x1024, .f32⟩ : BufTy).Contents (Elt F) → (⟨S4x2048x1024, .f32⟩ : BufTy).Contents (Elt F)),
    StableHlo.unary main_arg2 main_v15 (broadcastInDim S1x1x1024 ![2] bcast_S1024_S1x1x1024_2 : (⟨S1024, .f32⟩ : BufTy).Contents (Elt F) → (⟨S1x1x1024, .f32⟩ : BufTy).Contents (Elt F)),
    StableHlo.unary main_v15 main_v16 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v14 main_v16 main_v17 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_v17 main_arg3 main_v18 ((fun l r => Host.dotGeneral dot_S4x2048x1024_S1024x3072_S4x2048x3072_2_0_01_1_n_n none l r) : (⟨S4x2048x1024, .f32⟩ : BufTy).Contents (Elt F) → (⟨S1024x3072, .f32⟩ : BufTy).Contents (Elt F) → (⟨S4x2048x3072, .f32⟩ : BufTy).Contents (Elt F)),
    StableHlo.reshape main_v18 main_v19 rfl shapeCasts_S4x2048x3072_S4x2048x3x8x128,
    StableHlo.unary main_v19 main_v20 ((transpose S3x4x8x2048x128 [2, 0, 3, 1, 4] · transposes_S4x2048x3x8x128_S3x4x8x2048x128_2_0_3_1_4) : (⟨S4x2048x3x8x128, .f32⟩ : BufTy).Contents (Elt F) → (⟨S3x4x8x2048x128, .f32⟩ : BufTy).Contents (Elt F)),
    StableHlo.unary main_v20 main_v21 ((extractStridedSlice S1x4x8x2048x128 ![0, 0, 0, 0, 0] · slices_S3x4x8x2048x128_S1x4x8x2048x128_0_0_0_0_0) : (⟨S3x4x8x2048x128, .f32⟩ : BufTy).Contents (Elt F) → (⟨S1x4x8x2048x128, .f32⟩ : BufTy).Contents (Elt F)),
    StableHlo.reshape main_v21 main_v22 rfl shapeCasts_S1x4x8x2048x128_S4x8x2048x128,
    StableHlo.unary main_v20 main_v23 ((extractStridedSlice S1x4x8x2048x128 ![1, 0, 0, 0, 0] · slices_S3x4x8x2048x128_S1x4x8x2048x128_1_0_0_0_0) : (⟨S3x4x8x2048x128, .f32⟩ : BufTy).Contents (Elt F) → (⟨S1x4x8x2048x128, .f32⟩ : BufTy).Contents (Elt F)),
    StableHlo.reshape main_v23 main_v24 rfl shapeCasts_S1x4x8x2048x128_S4x8x2048x128,
    StableHlo.unary main_v20 main_v25 ((extractStridedSlice S1x4x8x2048x128 ![2, 0, 0, 0, 0] · slices_S3x4x8x2048x128_S1x4x8x2048x128_2_0_0_0_0) : (⟨S3x4x8x2048x128, .f32⟩ : BufTy).Contents (Elt F) → (⟨S1x4x8x2048x128, .f32⟩ : BufTy).Contents (Elt F)),
    StableHlo.reshape main_v25 main_v26 rfl shapeCasts_S1x4x8x2048x128_S4x8x2048x128,
    StableHlo.binary main_v22 main_v24 main_v27 ((fun l r => Host.dotGeneral dot_S4x8x2048x128_S4x8x2048x128_S4x8x2048x2048_3_3_2_2_01_01 none l r) : (⟨S4x8x2048x128, .f32⟩ : BufTy).Contents (Elt F) → (⟨S4x8x2048x128, .f32⟩ : BufTy).Contents (Elt F) → (⟨S4x8x2048x2048, .f32⟩ : BufTy).Contents (Elt F)),
    StableHlo.nullary main_cst_2 (constant S_ .f32 0x3D000000#32),
    StableHlo.unary main_cst_2 main_v28 (broadcastInDim S4x8x2048x2048 ![] bcast_S_S4x8x2048x2048 : (⟨S_, .f32⟩ : BufTy).Contents (Elt F) → (⟨S4x8x2048x2048, .f32⟩ : BufTy).Contents (Elt F)),
    StableHlo.binary main_v27 main_v28 main_v29 (mulf : (⟨S4x8x2048x2048, .f32⟩ : BufTy).Contents (Elt F) → (⟨S4x8x2048x2048, .f32⟩ : BufTy).Contents (Elt F) → (⟨S4x8x2048x2048, .f32⟩ : BufTy).Contents (Elt F)),
    StableHlo.nullary main_cst_3 (constant S_ .f32 0xFF800000#32),
    StableHlo.binary main_v29 main_cst_3 main_v30 ((fun x v => Host.reduce FloatOps.maximumf x v reducesTo_S4x8x2048x2048_S4x8x2048_d3 h_S_) : (⟨S4x8x2048x2048, .f32⟩ : BufTy).Contents (Elt F) → (⟨S_, .f32⟩ : BufTy).Contents (Elt F) → (⟨S4x8x2048, .f32⟩ : BufTy).Contents (Elt F)),
    StableHlo.nullary main_cst_4 (constant S_ .f32 0xFF800000#32),
    StableHlo.unary main_cst_4 main_v31 (broadcastInDim S4x8x2048 ![] bcast_S_S4x8x2048 : (⟨S_, .f32⟩ : BufTy).Contents (Elt F) → (⟨S4x8x2048, .f32⟩ : BufTy).Contents (Elt F)),
    StableHlo.binary main_v31 main_v30 main_v32 (maximumf : (⟨S4x8x2048, .f32⟩ : BufTy).Contents (Elt F) → (⟨S4x8x2048, .f32⟩ : BufTy).Contents (Elt F) → (⟨S4x8x2048, .f32⟩ : BufTy).Contents (Elt F)),
    StableHlo.unary main_v32 main_v33 (broadcastInDim S4x8x2048x1 ![0, 1, 2] bcast_S4x8x2048_S4x8x2048x1_0_1_2 : (⟨S4x8x2048, .f32⟩ : BufTy).Contents (Elt F) → (⟨S4x8x2048x1, .f32⟩ : BufTy).Contents (Elt F)),
    StableHlo.unary main_v33 main_v34 (broadcastInDim S4x8x2048x2048 ![0, 1, 2, 3] bcast_S4x8x2048x1_S4x8x2048x2048_0_1_2_3 : (⟨S4x8x2048x1, .f32⟩ : BufTy).Contents (Elt F) → (⟨S4x8x2048x2048, .f32⟩ : BufTy).Contents (Elt F)),
    StableHlo.binary main_v29 main_v34 main_v35 (subf : (⟨S4x8x2048x2048, .f32⟩ : BufTy).Contents (Elt F) → (⟨S4x8x2048x2048, .f32⟩ : BufTy).Contents (Elt F) → (⟨S4x8x2048x2048, .f32⟩ : BufTy).Contents (Elt F)),
    StableHlo.unary main_v35 main_v36 (Host.exp : (⟨S4x8x2048x2048, .f32⟩ : BufTy).Contents (Elt F) → (⟨S4x8x2048x2048, .f32⟩ : BufTy).Contents (Elt F)),
    StableHlo.nullary main_cst_5 (constant S_ .f32 0x00000000#32),
    StableHlo.binary main_v36 main_cst_5 main_v37 ((fun x v => Host.reduceAdd x v reducesTo_S4x8x2048x2048_S4x8x2048_d3 h_S_) : (⟨S4x8x2048x2048, .f32⟩ : BufTy).Contents (Elt F) → (⟨S_, .f32⟩ : BufTy).Contents (Elt F) → (⟨S4x8x2048, .f32⟩ : BufTy).Contents (Elt F)),
    StableHlo.unary main_v37 main_v38 (broadcastInDim S4x8x2048x1 ![0, 1, 2] bcast_S4x8x2048_S4x8x2048x1_0_1_2 : (⟨S4x8x2048, .f32⟩ : BufTy).Contents (Elt F) → (⟨S4x8x2048x1, .f32⟩ : BufTy).Contents (Elt F)),
    StableHlo.unary main_v38 main_v39 (broadcastInDim S4x8x2048x2048 ![0, 1, 2, 3] bcast_S4x8x2048x1_S4x8x2048x2048_0_1_2_3 : (⟨S4x8x2048x1, .f32⟩ : BufTy).Contents (Elt F) → (⟨S4x8x2048x2048, .f32⟩ : BufTy).Contents (Elt F)),
    StableHlo.binary main_v36 main_v39 main_v40 (Host.divf : (⟨S4x8x2048x2048, .f32⟩ : BufTy).Contents (Elt F) → (⟨S4x8x2048x2048, .f32⟩ : BufTy).Contents (Elt F) → (⟨S4x8x2048x2048, .f32⟩ : BufTy).Contents (Elt F)),
    StableHlo.binary main_v40 main_v26 main_v41 ((fun l r => Host.dotGeneral dot_S4x8x2048x2048_S4x8x2048x128_S4x8x2048x128_3_2_2_3_01_01 none l r) : (⟨S4x8x2048x2048, .f32⟩ : BufTy).Contents (Elt F) → (⟨S4x8x2048x128, .f32⟩ : BufTy).Contents (Elt F) → (⟨S4x8x2048x128, .f32⟩ : BufTy).Contents (Elt F)),
    StableHlo.unary main_v41 main_v42 ((transpose S4x2048x8x128 [0, 2, 1, 3] · transposes_S4x8x2048x128_S4x2048x8x128_0_2_1_3) : (⟨S4x8x2048x128, .f32⟩ : BufTy).Contents (Elt F) → (⟨S4x2048x8x128, .f32⟩ : BufTy).Contents (Elt F)),
    StableHlo.reshape main_v42 main_v43 rfl shapeCasts_S4x2048x8x128_S4x2048x1024,
    StableHlo.binary main_v43 main_arg4 main_v44 ((fun l r => Host.dotGeneral dot_S4x2048x1024_S1024x1024_S4x2048x1024_2_0_01_1_n_n none l r) : (⟨S4x2048x1024, .f32⟩ : BufTy).Contents (Elt F) → (⟨S1024x1024, .f32⟩ : BufTy).Contents (Elt F) → (⟨S4x2048x1024, .f32⟩ : BufTy).Contents (Elt F)),
    StableHlo.unary main_arg5 main_v45 (broadcastInDim S1x1x1024 ![2] bcast_S1024_S1x1x1024_2 : (⟨S1024, .f32⟩ : BufTy).Contents (Elt F) → (⟨S1x1x1024, .f32⟩ : BufTy).Contents (Elt F)),
    StableHlo.unary main_v45 main_v46 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    StableHlo.binary main_v44 main_v46 main_v47 (addf : (⟨S4x2048x1024, .f32⟩ : BufTy).Contents (Elt F) → (⟨S4x2048x1024, .f32⟩ : BufTy).Contents (Elt F) → (⟨S4x2048x1024, .f32⟩ : BufTy).Contents (Elt F)),
    StableHlo.binary main_arg0 main_v47 main_v48 (addf : (⟨S4x2048x1024, .f32⟩ : BufTy).Contents (Elt F) → (⟨S4x2048x1024, .f32⟩ : BufTy).Contents (Elt F) → (⟨S4x2048x1024, .f32⟩ : BufTy).Contents (Elt F)) ]

/-- @main is that straight line. By unfolding alone it is its first seven steps continued by the variance
    function's body — twenty steps continued by the selection function's three and the return — and then its
    remaining forty-nine; that is one line (`seqK_call`). -/
theorem main_eq (c : Dev nD) : main (F := F) c = seq ops :=
  (show main (F := F) c
      = seqK ((seqK (seq ((ops.drop 27).take 3) >>= fun _ => pure ⟨⟩) ((ops.drop 7).take 20)) >>= fun _ => seq (ops.drop 30)) (ops.take 7)
    from rfl).trans (seqK_call _ _ _ _)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., reshape_bufs_sub .., unary_bufs_sub .., unary_bufs_sub ..,
    reshape_bufs_sub .., unary_bufs_sub .., reshape_bufs_sub .., unary_bufs_sub .., reshape_bufs_sub .., binary_bufs_sub ..,
    nullary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    unary_bufs_sub .., reshape_bufs_sub .., binary_bufs_sub .., unary_bufs_sub .., unary_bufs_sub .., binary_bufs_sub ..,
    binary_bufs_sub ..⟩

/-! ## The fold at the result and at the arguments -/

attribute [local irreducible] Host.reduce Host.reduceAdd in
set_option maxRecDepth 8192 in
set_option maxHeartbeats 1600000 in
/-- The fold at the result buffer is `out` of the arguments' contents: each operation's result at its own buffer is its
    function's value and at any other buffer what was there; what is left are the stages' definitions unfolded and,
    at the two functions' operations, transports along `rfl`. The reductions are kept folded meanwhile (a contraction is a field of
    the float values, which nothing unfolds): the equation never looks inside them. -/
theorem out_eq (V : Valuation τ sig (Elt F)) :
    after ops V (main_v48 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

/-! ## The run -/

/-- On every device, for any float values, from any memory with zero counters: every weakly fair execution of
    @main terminates with the result buffer at `out` of the six arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.Hand

end
-- ==== Proof.RefValueLN.lean ====
/- The reference's layer normalisation read at an index, at the ideal values: each stage of it (row mean, deviations,
   row variance, its square root, the normalised array) at (b, n, c) is the specification's row function of row (b, n)
   of the input. The variance's divisor `1024 - 0` is `1024` and is positive, so the guarded quotient is the quotient. -/
import proofs.«165050_j14989435863585_2_alg».proof.Proof.RefStages
import proofs.«165050_j14989435863585_2_alg».proof.Proof.Spec
import Idealize.ShloMosaic.Lib.IdealHost
import Idealize.ShloMosaic.Lib.ValueLayout

noncomputable section

namespace Cert.ReferenceIdeal.Hand

open Cert.ReferenceIdeal Cert.ReferenceIdeal.Gen Idealize.ShloMosaic Idealize.ShloMosaic.ValueIdx
open scoped BigOperators

/-! ## Elementwise host operations at an index -/

theorem hostSqrt_apply {s : Shape} {φ : FTy} (v : FVec Ideal s φ) (i : s.Idx) : Host.sqrt v i = Ideal.sqrt (v i) := rfl
theorem hostExp_apply {s : Shape} {φ : FTy} (v : FVec Ideal s φ) (i : s.Idx) : Host.exp v i = Ideal.exp (v i) := rfl

/-! ## The broadcasts of this program at an index -/

/-- A value per row as a 4x2048x1 column reads the row's value. -/
theorem bcast_col_apply {α : Type} (h : S4x2048.BroadcastsInDim S4x2048x1 ![0, 1]) (r : S4x2048.Idx → α)
    (b : Fin 4) (n : Fin 2048) (u : Fin 1) : broadcastInDim S4x2048x1 ![0, 1] h r (ix3 b n u) = r (ix2 b n) :=
  broadcastInDim_apply ![0, 1] h r (ix3 b n u) (ix2 b n) (fun a => match a with | ⟨0, _⟩ => rfl | ⟨1, _⟩ => rfl)

/-- A 4x2048x1 column repeated along the last axis reads the column. -/
theorem bcast_row_apply {α : Type} (h : S4x2048x1.BroadcastsInDim S4x2048x1024 ![0, 1, 2]) (r : S4x2048x1.Idx → α)
    (b : Fin 4) (n : Fin 2048) (c : Fin 1024) : broadcastInDim S4x2048x1024 ![0, 1, 2] h r (ix3 b n c) = r (ix3 b n (0 : Fin 1)) :=
  broadcastInDim_apply ![0, 1, 2] h r (ix3 b n c) (ix3 b n (0 : Fin 1))
    (fun a => match a with | ⟨0, _⟩ => rfl | ⟨1, _⟩ => rfl | ⟨2, _⟩ => rfl)

/-- A vector over the last axis repeated along the first two reads the vector. -/
theorem rowBcast_apply (g : FVec Ideal S1024 .f32) (b : Fin 4) (n : Fin 2048) (c : Fin 1024) :
    rowBcast g (ix3 b n c) = g (ix1 c) := by
  unfold rowBcast
  refine (broadcastInDim_apply (s := S1x1x1024) ![0, 1, 2] _ _ (ix3 b n c) (ix3 (0 : Fin 1) (0 : Fin 1) c)
    (fun a => match a with | ⟨0, _⟩ => rfl | ⟨1, _⟩ => rfl | ⟨2, _⟩ => rfl)).trans ?_
  exact broadcastInDim_apply (s := S1024) ![2] _ g (ix3 (0 : Fin 1) (0 : Fin 1) c) (ix1 c) (fun a => match a with | ⟨0, _⟩ => rfl)

/-! ## The row sum -/

theorem reduces_row : S4x2048x1024.Reduces [2] S4x2048 := by decide

/-- The reduced index (b, n) with the last coordinate put back is (b, n, k). -/
theorem lift_row (h : S4x2048x1024.Reduces [2] S4x2048) (b : Fin 4) (n : Fin 2048) (k : Fin (S4x2048x1024.size 2)) :
    h.lift (ix2 b n) k = ix3 b n (⟨k.val, k.isLt⟩ : Fin 1024) := by
  funext c; apply Fin.ext
  fin_cases c <;> rfl

/-- The host's sum over the last axis, from zero, at (b, n) is the sum of the row. -/
theorem rowSum1024_apply (h' : S4x2048x1024.ReducesTo [2] S4x2048) (hu : 0 < S_.numel) (x : FVec Ideal S4x2048x1024 .f32)
    (b : Fin 4) (n : Fin 2048) :
    Host.reduceAdd x (constant S_ .f32 0x00000000#32) h' hu (ix2 b n) = ∑ c : Fin 1024, x (ix3 b n c) := by
  rw [hostReduceAdd_apply, Ideal.hostReduceAdd_single h' reduces_row, constant_apply, Ideal.ofBits_zero_f32, zero_add]
  exact Finset.sum_congr rfl fun k _ => congrArg x (lift_row _ b n k)

/-! ## The constants -/

/-- The word `0x44800000` is the real 1024. -/
theorem nCh_eq : Cert.Spec.nCh = ((1024 : ℝ) : EReal) := by
  unfold Cert.Spec.nCh
  simp [Ideal.ofBits, Ideal.ieee, -EReal.coe_mul]; norm_num

theorem nCh_pos : (0 : EReal) < Cert.Spec.nCh := by
  rw [nCh_eq]; exact EReal.coe_pos.mpr (by norm_num)

/-- The variance's divisor `1024 - 0` is 1024. -/
theorem count_apply (i : S_.Idx) : count (F := Ideal) i = Cert.Spec.nCh := by
  unfold count Cert.Spec.nCh
  rw [subf_apply, constant_apply, sitofp_apply]
  show Ideal.ofBits .f32 0x44800000#32 - (((0#32 : BitVec 32).toInt : ℝ) : EReal) = Ideal.ofBits .f32 0x44800000#32
  simp

/-! ## The stages -/

theorem mean_apply (x : FVec Ideal S4x2048x1024 .f32) (b : Fin 4) (n : Fin 2048) (u : Fin 1) :
    mean x (ix3 b n u) = Cert.Spec.rowMean fun c => x (ix3 b n c) := by
  unfold mean Cert.Spec.rowMean Cert.Spec.nCh
  rw [hostDivf_apply, bcast_col_apply, rowSum1024_apply, broadcastInDim_scalar_apply, constant_apply]

theorem centered_apply (x : FVec Ideal S4x2048x1024 .f32) (b : Fin 4) (n : Fin 2048) (c : Fin 1024) :
    centered x (ix3 b n c) = Cert.Spec.rowDev (fun c => x (ix3 b n c)) c := by
  unfold centered Cert.Spec.rowDev
  rw [subf_apply, bcast_row_apply, mean_apply]

theorem var_apply (x : FVec Ideal S4x2048x1024 .f32) (b : Fin 4) (n : Fin 2048) (u : Fin 1) :
    var x (ix3 b n u) = Cert.Spec.rowVar fun c => x (ix3 b n c) := by
  unfold var Cert.Spec.rowVar
  rw [select_apply, broadcastInDim_scalar_apply, cmpf_apply, count_apply, constant_apply, Ideal.ofBits_zero_f32]
  have hgt : FloatOps.cmpf (F := Ideal) (φ := .f32) .ogt Cert.Spec.nCh 0 = 1#1 := by
    rw [Ideal.cmpf_def]; unfold Ideal.cmp; simp [nCh_pos]
  rw [hgt, select_one, hostDivf_apply, bcast_col_apply, rowSum1024_apply, broadcastInDim_scalar_apply, count_apply]
  simp only [mulf_apply, centered_apply]

theorem sigma_apply (x : FVec Ideal S4x2048x1024 .f32) (b : Fin 4) (n : Fin 2048) (u : Fin 1) :
    sigma x (ix3 b n u) = Ideal.sqrt (Cert.Spec.rowVar (fun c => x (ix3 b n c)) + Cert.Spec.eps) := by
  unfold sigma Cert.Spec.eps
  rw [hostSqrt_apply, addf_apply, var_apply, broadcastInDim_scalar_apply, constant_apply]

/-- The layer-normalised array at (b, n, c) is the specification's normalised row (b, n) at c. -/
theorem ln_apply (x : FVec Ideal S4x2048x1024 .f32) (g be : FVec Ideal S1024 .f32) (b : Fin 4) (n : Fin 2048) (c : Fin 1024) :
    ln x g be (ix3 b n c)
      = Cert.Spec.rowXn (fun c => x (ix3 b n c)) (fun c => g (ix1 c)) (fun c => be (ix1 c)) c := by
  unfold ln Cert.Spec.rowXn
  rw [addf_apply, mulf_apply, hostDivf_apply, centered_apply, bcast_row_apply, sigma_apply, rowBcast_apply, rowBcast_apply]

end Cert.ReferenceIdeal.Hand

end
-- ==== Proof.RefValueAttn.lean ====
/- The reference's attention stages read at an index, at the ideal values: the four contractions as plain sums over
   the contracted coordinate, the split of the joint projection into query / key / value heads as a reading of one
   projected column, the row maximum as a supremum, the softmax as the specification's weights, the context and the
   output projection as sums. -/
import proofs.«165050_j14989435863585_2_alg».proof.Proof.RefValueLN

noncomputable section

namespace Cert.ReferenceIdeal.Hand

open Cert.ReferenceIdeal Cert.ReferenceIdeal.Gen Idealize.ShloMosaic Idealize.ShloMosaic.ValueIdx
open scoped BigOperators

/-! ## A sum over a one-axis contraction index is a sum over the axis's coordinates -/

theorem sum_contr1 {sl sr so : Shape} (D : DotDims sl sr so) (n : Nat) (hr : D.contr.rank = 1)
    (hs : D.contr.size ⟨0, by omega⟩ = n) (f : D.contr.Idx → EReal) (g : Fin n → EReal)
    (h : ∀ c : Fin n, f ((contrEquiv1 D n hr hs).symm c) = g c) : ∑ k, f k = ∑ c, g c :=
  ((Equiv.sum_comp (contrEquiv1 D n hr hs).symm f).symm).trans (Finset.sum_congr rfl fun c _ => h c)

/-! ## The four contractions -/

/-- The joint projection at (b, n, j): row (b, n) of `y` against column `j` of `w`. -/
theorem qkv_apply (y : FVec Ideal S4x2048x1024 .f32) (w : FVec Ideal S1024x3072 .f32) (b : Fin 4) (n : Fin 2048) (j : Fin 3072) :
    qkv y w (ix3 b n j) = ∑ c : Fin 1024, y (ix3 b n c) * w (ix2 c j) := by
  unfold qkv
  simp only [Host.dotGeneral]
  rw [Ideal.dotGeneral_apply]
  refine sum_contr1 dot_S4x2048x1024_S1024x3072_S4x2048x3072_2_0_01_1_n_n 1024 rfl rfl _ _ fun c => ?_
  show y _ * w _ = y _ * w _
  congr 1
  · exact congrArg y (funext fun a => Fin.ext (by fin_cases a <;> rfl))
  · exact congrArg w (funext fun a => Fin.ext (by fin_cases a <;> rfl))

/-- The output contraction at (b, n, d): row (b, n) of `z` against column `d` of `w`. -/
theorem outDot_apply (z : FVec Ideal S4x2048x1024 .f32) (w : FVec Ideal S1024x1024 .f32) (b : Fin 4) (n : Fin 2048) (d : Fin 1024) :
    Host.dotGeneral dot_S4x2048x1024_S1024x1024_S4x2048x1024_2_0_01_1_n_n none z w (ix3 b n d)
      = ∑ c : Fin 1024, z (ix3 b n c) * w (ix2 c d) := by
  simp only [Host.dotGeneral]
  rw [Ideal.dotGeneral_apply]
  refine sum_contr1 dot_S4x2048x1024_S1024x1024_S4x2048x1024_2_0_01_1_n_n 1024 rfl rfl _ _ fun c => ?_
  show z _ * w _ = z _ * w _
  congr 1
  · exact congrArg z (funext fun a => Fin.ext (by fin_cases a <;> rfl))
  · exact congrArg w (funext fun a => Fin.ext (by fin_cases a <;> rfl))

/-- Queries against keys at (b, h, n, m): query row n against key row m of head (b, h), over the channels. -/
theorem qkDot_apply (q k : FVec Ideal S4x8x2048x128 .f32) (b : Fin 4) (h : Fin 8) (n m : Fin 2048) :
    Host.dotGeneral dot_S4x8x2048x128_S4x8x2048x128_S4x8x2048x2048_3_3_2_2_01_01 none q k (ix4 b h n m)
      = ∑ e : Fin 128, q (ix4 b h n e) * k (ix4 b h m e) := by
  simp only [Host.dotGeneral]
  rw [Ideal.dotGeneral_apply]
  refine sum_contr1 dot_S4x8x2048x128_S4x8x2048x128_S4x8x2048x2048_3_3_2_2_01_01 128 rfl rfl _ _ fun e => ?_
  show q _ * k _ = q _ * k _
  congr 1
  · exact congrArg q (funext fun a => Fin.ext (by fin_cases a <;> rfl))
  · exact congrArg k (funext fun a => Fin.ext (by fin_cases a <;> rfl))

/-- Weights against values at (b, h, n, e): weight row n against value column e of head (b, h), over the key positions. -/
theorem pvDot_apply (p : FVec Ideal S4x8x2048x2048 .f32) (v : FVec Ideal S4x8x2048x128 .f32) (b : Fin 4) (h : Fin 8) (n : Fin 2048) (e : Fin 128) :
    Host.dotGeneral dot_S4x8x2048x2048_S4x8x2048x128_S4x8x2048x128_3_2_2_3_01_01 none p v (ix4 b h n e)
      = ∑ m : Fin 2048, p (ix4 b h n m) * v (ix4 b h m e) := by
  simp only [Host.dotGeneral]
  rw [Ideal.dotGeneral_apply]
  refine sum_contr1 dot_S4x8x2048x2048_S4x8x2048x128_S4x8x2048x128_3_2_2_3_01_01 2048 rfl rfl _ _ fun m => ?_
  show p _ * v _ = p _ * v _
  congr 1
  · exact congrArg p (funext fun a => Fin.ext (by fin_cases a <;> rfl))
  · exact congrArg v (funext fun a => Fin.ext (by fin_cases a <;> rfl))

/-! ## The heads: one projected column -/

/-- Slab `s` (query 0, key 1, value 2) of the head arrays at (b, h, n, e) is the projection at (b, n), column
    `1024 s + 128 h + e`: the unit axis dropped, the slab cut, the axes moved back, the last axis merged. -/
theorem slab_apply (s : Fin 3) (hsl : S3x4x8x2048x128.Slices ![s.val, 0, 0, 0, 0] S1x4x8x2048x128)
    (hsc : S1x4x8x2048x128.ShapeCasts S4x8x2048x128) (p : FVec Ideal S4x2048x3072 .f32)
    (b : Fin 4) (h : Fin 8) (n : Fin 2048) (e : Fin 128) :
    shapeCast S4x8x2048x128 (extractStridedSlice S1x4x8x2048x128 ![s.val, 0, 0, 0, 0] (heads p) hsl) hsc (ix4 b h n e)
      = p (ix3 b n (Cert.Spec.col s h e)) := by
  unfold heads
  refine (shapeCast_apply _ hsc (ix4 b h n e) (ix5 (0 : Fin 1) b h n e)
    (by rw [Shape.rowMajor_val_five, Shape.rowMajor_val_four]
        show (((0 * 4 + b.val) * 8 + h.val) * 2048 + n.val) * 128 + e.val = ((b.val * 8 + h.val) * 2048 + n.val) * 128 + e.val
        omega)).trans ?_
  refine (extractStridedSlice_apply ![s.val, 0, 0, 0, 0] _ hsl (ix5 (0 : Fin 1) b h n e) (ix5 s b h n e)
    (fun a => match a with
      | ⟨0, _⟩ => by show s.val = s.val + 0; omega
      | ⟨1, _⟩ => by show b.val = 0 + b.val; omega
      | ⟨2, _⟩ => by show h.val = 0 + h.val; omega
      | ⟨3, _⟩ => by show n.val = 0 + n.val; omega
      | ⟨4, _⟩ => by show e.val = 0 + e.val; omega)).trans ?_
  refine (transpose_apply [2, 0, 3, 1, 4] _ transposes_S4x2048x3x8x128_S3x4x8x2048x128_2_0_3_1_4 (ix5 s b h n e) (ix5 b n s h e)
    (fun a => match a with | ⟨0, _⟩ => rfl | ⟨1, _⟩ => rfl | ⟨2, _⟩ => rfl | ⟨3, _⟩ => rfl | ⟨4, _⟩ => rfl)).trans ?_
  exact shapeCast_apply p _ (ix5 b n s h e) (ix3 b n (Cert.Spec.col s h e))
    (by rw [Shape.rowMajor_val_three, Shape.rowMajor_val_five]
        show (b.val * 2048 + n.val) * 3072 + (s.val * 1024 + h.val * 128 + e.val)
          = (((b.val * 2048 + n.val) * 3 + s.val) * 8 + h.val) * 128 + e.val
        omega)

theorem qPart_apply (p : FVec Ideal S4x2048x3072 .f32) (b : Fin 4) (h : Fin 8) (n : Fin 2048) (e : Fin 128) :
    qPart (heads p) (ix4 b h n e) = p (ix3 b n (Cert.Spec.col 0 h e)) := slab_apply 0 _ _ p b h n e
theorem kPart_apply (p : FVec Ideal S4x2048x3072 .f32) (b : Fin 4) (h : Fin 8) (n : Fin 2048) (e : Fin 128) :
    kPart (heads p) (ix4 b h n e) = p (ix3 b n (Cert.Spec.col 1 h e)) := slab_apply 1 _ _ p b h n e
theorem vPart_apply (p : FVec Ideal S4x2048x3072 .f32) (b : Fin 4) (h : Fin 8) (n : Fin 2048) (e : Fin 128) :
    vPart (heads p) (ix4 b h n e) = p (ix3 b n (Cert.Spec.col 2 h e)) := slab_apply 2 _ _ p b h n e

/-! ## Scores, row maximum, softmax -/

theorem scores_apply (q k : FVec Ideal S4x8x2048x128 .f32) (b : Fin 4) (h : Fin 8) (n m : Fin 2048) :
    scores q k (ix4 b h n m) = (∑ e : Fin 128, q (ix4 b h n e) * k (ix4 b h m e)) * Cert.Spec.scale := by
  unfold scores Cert.Spec.scale
  rw [mulf_apply, qkDot_apply, broadcastInDim_scalar_apply, constant_apply]

/-- A value per row repeated along the row reads the row's value. -/
theorem spread_apply (r : FVec Ideal S4x8x2048 .f32) (b : Fin 4) (h : Fin 8) (n m : Fin 2048) :
    spread r (ix4 b h n m) = r (ix3 b h n) := by
  unfold spread
  refine (broadcastInDim_apply (s := S4x8x2048x1) ![0, 1, 2, 3] _ _ (ix4 b h n m) (ix4 b h n (0 : Fin 1))
    (fun a => match a with | ⟨0, _⟩ => rfl | ⟨1, _⟩ => rfl | ⟨2, _⟩ => rfl | ⟨3, _⟩ => rfl)).trans ?_
  exact broadcastInDim_apply (s := S4x8x2048) ![0, 1, 2] _ r (ix4 b h n (0 : Fin 1)) (ix3 b h n)
    (fun a => match a with | ⟨0, _⟩ => rfl | ⟨1, _⟩ => rfl | ⟨2, _⟩ => rfl)

theorem reduces_key : S4x8x2048x2048.Reduces [3] S4x8x2048 := by decide

/-- The reduced index (b, h, n) with the last coordinate put back is (b, h, n, k). -/
theorem lift_key (hr : S4x8x2048x2048.Reduces [3] S4x8x2048) (b : Fin 4) (h : Fin 8) (n : Fin 2048)
    (k : Fin (S4x8x2048x2048.size 3)) : hr.lift (ix3 b h n) k = ix4 b h n (⟨k.val, k.isLt⟩ : Fin 2048) := by
  funext c; apply Fin.ext
  fin_cases c <;> rfl

/-- The word `0xFF800000` is minus infinity, the least extended real. -/
theorem negInf_eq : Ideal.ofBits .f32 0xFF800000#32 = (⊥ : EReal) := by simp [Ideal.ofBits, Ideal.ieee]

/-- The row maximum from minus infinity is the supremum of the row. -/
theorem rowMax_apply (s : FVec Ideal S4x8x2048x2048 .f32) (b : Fin 4) (h : Fin 8) (n : Fin 2048) :
    rowMax s (ix3 b h n) = Finset.univ.sup fun m : Fin 2048 => s (ix4 b h n m) := by
  unfold rowMax
  rw [maximumf_apply, broadcastInDim_scalar_apply, constant_apply,
    Host.reduce_eq_fold_single FloatOps.maximumf s _ reducesTo_S4x8x2048x2048_S4x8x2048_d3 reduces_key h_S_,
    constant_apply, negInf_eq, max_eq_right bot_le]
  have hf : (s ∘ reduces_key.lift (ix3 b h n)) = fun m : Fin 2048 => s (ix4 b h n m) :=
    funext fun k => congrArg s (lift_key _ b h n k)
  rw [hf]
  rfl

theorem expd_apply (s : FVec Ideal S4x8x2048x2048 .f32) (b : Fin 4) (h : Fin 8) (n m : Fin 2048) :
    expd s (ix4 b h n m) = Ideal.exp (s (ix4 b h n m) - Finset.univ.sup fun m' : Fin 2048 => s (ix4 b h n m')) := by
  unfold expd
  rw [hostExp_apply, subf_apply, spread_apply, rowMax_apply]

/-- The host's sum over the key axis, from zero, at (b, h, n) is the sum of the row. -/
theorem rowSum_apply (e : FVec Ideal S4x8x2048x2048 .f32) (b : Fin 4) (h : Fin 8) (n : Fin 2048) :
    rowSum e (ix3 b h n) = ∑ m : Fin 2048, e (ix4 b h n m) := by
  unfold rowSum
  rw [hostReduceAdd_apply, Ideal.hostReduceAdd_single _ reduces_key, constant_apply, Ideal.ofBits_zero_f32, zero_add]
  exact Finset.sum_congr rfl fun k _ => congrArg e (lift_key _ b h n k)

/-- The softmax of the scaled scores at (b, h, n, m) is the specification's weight of key m for query row n of
    head (b, h). -/
theorem attn_apply (q k : FVec Ideal S4x8x2048x128 .f32) (b : Fin 4) (h : Fin 8) (n m : Fin 2048) :
    softmax (scores q k) (ix4 b h n m)
      = Cert.Spec.hAttn (fun e => q (ix4 b h n e)) (fun m e => k (ix4 b h m e)) m := by
  unfold softmax Cert.Spec.hAttn Cert.Spec.hDen Cert.Spec.hExp Cert.Spec.hMax Cert.Spec.hScore
  rw [hostDivf_apply, spread_apply, rowSum_apply]
  simp only [expd_apply, scores_apply]

/-! ## The context and the output projection -/

/-- The context at (b, n, c) is, for head `c / 128` and channel `c % 128`, the weights' row n against the values'
    column. -/
theorem ctx_apply (p : FVec Ideal S4x8x2048x2048 .f32) (v : FVec Ideal S4x8x2048x128 .f32) (b : Fin 4) (n : Fin 2048) (c : Fin 1024) :
    ctx p v (ix3 b n c)
      = ∑ m : Fin 2048, p (ix4 b (⟨c.val / 128, by omega⟩ : Fin 8) n m)
          * v (ix4 b (⟨c.val / 128, by omega⟩ : Fin 8) m (⟨c.val % 128, Nat.mod_lt _ (by decide)⟩ : Fin 128)) := by
  unfold ctx
  refine (shapeCast_apply _ shapeCasts_S4x2048x8x128_S4x2048x1024 (ix3 b n c)
    (ix4 b n (⟨c.val / 128, by omega⟩ : Fin 8) (⟨c.val % 128, Nat.mod_lt _ (by decide)⟩ : Fin 128))
    (by rw [Shape.rowMajor_val_four, Shape.rowMajor_val_three]
        show ((b.val * 2048 + n.val) * 8 + c.val / 128) * 128 + c.val % 128 = (b.val * 2048 + n.val) * 1024 + c.val
        omega)).trans ?_
  refine (transpose_apply [0, 2, 1, 3] _ transposes_S4x8x2048x128_S4x2048x8x128_0_2_1_3
    (ix4 b n (⟨c.val / 128, by omega⟩ : Fin 8) (⟨c.val % 128, Nat.mod_lt _ (by decide)⟩ : Fin 128))
    (ix4 b (⟨c.val / 128, by omega⟩ : Fin 8) n (⟨c.val % 128, Nat.mod_lt _ (by decide)⟩ : Fin 128))
    (fun a => match a with | ⟨0, _⟩ => rfl | ⟨1, _⟩ => rfl | ⟨2, _⟩ => rfl | ⟨3, _⟩ => rfl)).trans ?_
  exact pvDot_apply p v b _ n _

theorem proj_apply (z : FVec Ideal S4x2048x1024 .f32) (w : FVec Ideal S1024x1024 .f32) (bo : FVec Ideal S1024 .f32)
    (b : Fin 4) (n : Fin 2048) (d : Fin 1024) :
    proj z w bo (ix3 b n d) = (∑ c : Fin 1024, z (ix3 b n c) * w (ix2 c d)) + bo (ix1 d) := by
  unfold proj
  rw [addf_apply, outDot_apply, rowBcast_apply]

end Cert.ReferenceIdeal.Hand

end
-- ==== Proof.RefValue.lean ====
/- The reference's result read at an index, at the ideal values, is the shared specification of the six arguments read
   at literal coordinates: the stages' readings composed. -/
import proofs.«165050_j14989435863585_2_alg».proof.Proof.RefValueAttn

noncomputable section

namespace Cert.ReferenceIdeal.Hand

open Cert.ReferenceIdeal Cert.ReferenceIdeal.Gen Idealize.ShloMosaic Idealize.ShloMosaic.ValueIdx
open scoped BigOperators

/-- The six argument arrays read at literal coordinates. -/
def args (x : FVec Ideal S4x2048x1024 .f32) (g be : FVec Ideal S1024 .f32) (wqkv : FVec Ideal S1024x3072 .f32)
    (wout : FVec Ideal S1024x1024 .f32) (bo : FVec Ideal S1024 .f32) : Cert.Spec.Args where
  x := fun b n c => x (ix3 b n c)
  g := fun c => g (ix1 c)
  be := fun c => be (ix1 c)
  wqkv := fun c j => wqkv (ix2 c j)
  wout := fun c d => wout (ix2 c d)
  bo := fun d => bo (ix1 d)

variable (x : FVec Ideal S4x2048x1024 .f32) (g be : FVec Ideal S1024 .f32) (wqkv : FVec Ideal S1024x3072 .f32)
  (wout : FVec Ideal S1024x1024 .f32) (bo : FVec Ideal S1024 .f32)

/-- The joint projection of the normalised input at (b, n), column of slot `s`, head `h`, channel `e`, is the
    specification's slot. -/
theorem slot_apply (s : Fin 3) (b : Fin 4) (h : Fin 8) (n : Fin 2048) (e : Fin 128) :
    qkv (ln x g be) wqkv (ix3 b n (Cert.Spec.col s h e)) = Cert.Spec.slot (args x g be wqkv wout bo) s b h n e := by
  unfold Cert.Spec.slot Cert.Spec.qkv Cert.Spec.xn
  rw [qkv_apply]
  simp only [ln_apply]
  rfl

theorem q_apply (b : Fin 4) (h : Fin 8) (n : Fin 2048) (e : Fin 128) :
    qPart (headsOf x g be wqkv) (ix4 b h n e) = Cert.Spec.slot (args x g be wqkv wout bo) 0 b h n e := by
  unfold headsOf; rw [qPart_apply, slot_apply]
theorem k_apply (b : Fin 4) (h : Fin 8) (n : Fin 2048) (e : Fin 128) :
    kPart (headsOf x g be wqkv) (ix4 b h n e) = Cert.Spec.slot (args x g be wqkv wout bo) 1 b h n e := by
  unfold headsOf; rw [kPart_apply, slot_apply]
theorem v_apply (b : Fin 4) (h : Fin 8) (n : Fin 2048) (e : Fin 128) :
    vPart (headsOf x g be wqkv) (ix4 b h n e) = Cert.Spec.slot (args x g be wqkv wout bo) 2 b h n e := by
  unfold headsOf; rw [vPart_apply, slot_apply]

/-- The reference's result at (b, n, d) is the specification's. -/
theorem out_apply (b : Fin 4) (n : Fin 2048) (d : Fin 1024) :
    out (F := Ideal) x g be wqkv wout bo (ix3 b n d) = Cert.Spec.out (args x g be wqkv wout bo) b n d := by
  unfold out Cert.Spec.out Cert.Spec.proj Cert.Spec.ctxCat Cert.Spec.ctx Cert.Spec.hCtx
  rw [addf_apply, proj_apply]
  simp only [ctx_apply, attn_apply, q_apply x g be wqkv wout bo, k_apply x g be wqkv wout bo, v_apply x g be wqkv wout bo]
  rfl

/-- The same as an equation of arrays: the reference's result is the specification read at each index's three
    coordinates. -/
theorem out_funext :
    out (F := Ideal) x g be wqkv wout bo
      = fun j => Cert.Spec.out (args x g be wqkv wout bo) (j 0) (j 1) (j 2) :=
  funext fun j => (congrArg (out (F := Ideal) x g be wqkv wout bo) (eq_ix3 j)).trans
    (out_apply x g be wqkv wout bo (j 0) (j 1) (j 2))

end Cert.ReferenceIdeal.Hand

end
-- ==== Proof.lean ====
/-
  The proof of `Cert.Claim`: the Pallas program (a LayerNorm-and-QKV-projection kernel followed by a fused attention,
  output-projection and residual kernel) against its jnp reference, over the extended reals.

  WHAT IS PROVED. Both programs compute, at batch `b`, position `n` and column `d`, the number `Cert.Spec.out` of the six
  argument arrays (Proof/Spec.lean): the input plus the bias plus the projection by the output weights of the eight
  heads' attention contexts, the heads reading queries, keys and values from the projection of the row-normalised input.
  The reference computes it as written (Proof/RefRun.lean: its run; Proof/RefValue*.lean: its result read at an index).
  The kernel program differs in three spellings, each equal over the extended reals (Proof/SpecLaws.lean):
    * it normalises a row by the product with the reciprocal square root of `variance + ε` where the reference divides by
      the square root — equal because `variance + ε` is positive (a sum of squares is nonnegative whatever the entries, so
      no finiteness of the inputs is used), and for a positive `v`, finite or not, `a / √v = a · (√v)⁻¹`;
    * it projects the contexts head by head, accumulating eight partial products of 128 rows of the output weights, where
      the reference multiplies the 1024 concatenated channels at once — the same finite sum regrouped along `c = 128 h + e`;
    * it adds bias and input to the accumulated projection in the other order — commutativity and associativity of `+`.
  Roundings to bfloat16 on the way into the matrix products are the identity at this instance. The scale `1024^(-1/2)` is the
  same word `1/32` in both programs, as is the `ε`; neither is evaluated.

  HOW THE KERNEL PROGRAM'S RUN IS READ. @main is host reshapes and roundings, the first kernel over a grid of 8 row blocks,
  one reshape, the second kernel over a grid of 4 × 4 × 8 points (batch, query tile, head). Each kernel's body is run
  symbolically once per control case (Proof/K0Run.lean; Proof/K1RunA/B/C.lean: the head-0, middle-head and head-7 cases of
  the attention kernel, whose 512 × 1024 accumulator is carried between the points of one tile), what each buffer holds
  after each point is named by recursion on the point (Proof/K0Body.lean, Proof/K1Body.lean), and the regions are composed
  with the host stretches (Proof/KFrame.lean; the three windows of the attention kernel that read one array hold its share
  split in three, Proof/K1Arrays.lean). The result array is then read block by block: what the first kernel writes back is a
  block of one function of its arrays (Proof/K0Value.lean, Proof/K0Final.lean), the attention kernel's accumulator after head
  `h` is the partial sum over the heads up to `h` (Proof/K1Pieces.lean, Proof/K1Acc.lean, by induction on the point), the
  last-head points' blocks cover the result (Proof/K1Blocks.lean, Proof/K1Final.lean), and the host operations between are
  read at an index (Proof/KGlue.lean, Proof/KValue.lean). The word-level program's frame is the same text read at the
  word-level instance (Proof/KB*.lean).

  The three frames are the runs with the result forgotten; the ideal pass rewrote nothing, so `preserves` is `True`.
-/
import proofs.«165050_j14989435863585_2_alg».proof.Defs
import proofs.«165050_j14989435863585_2_alg».proof.Proof.Gen.Kernel
import proofs.«165050_j14989435863585_2_alg».proof.Proof.Gen.KernelIdeal
import proofs.«165050_j14989435863585_2_alg».proof.Proof.Gen.ReferenceIdeal
import proofs.«165050_j14989435863585_2_alg».proof.Proof.Gen.Pre_finite_inputs
import proofs.«165050_j14989435863585_2_alg».proof.Proof.KBFrame
import proofs.«165050_j14989435863585_2_alg».proof.Proof.KFrame
import proofs.«165050_j14989435863585_2_alg».proof.Proof.K1Final
import proofs.«165050_j14989435863585_2_alg».proof.Proof.KValue
import proofs.«165050_j14989435863585_2_alg».proof.Proof.RefRun
import proofs.«165050_j14989435863585_2_alg».proof.Proof.RefValue
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Hand.frame m ρ

/-- So does the program read over the extended reals. -/
theorem frame_ki : Cert.frame_KernelIdeal := fun m ρ _ => Cert.KernelIdeal.Hand.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- Over the extended reals both programs, run from memories that agree on the six arguments, end with the result array at
    `Cert.Spec.out` of those arguments, index by index, and with the arguments unchanged. -/
theorem algebraic : Cert.algebraic_KernelIdeal_ReferenceIdeal := by
  intro m ρ m' ρ' _ hagree
  refine ⟨fun c => fun i => Cert.Spec.out (Cert.KernelIdeal.Hand.argsK m c) (i 0) (i 1) (i 2), ?_, ?_⟩
  · refine (θ_run Cert.KernelIdeal.defs _ _).mono (fun _ h c => ⟨(h c).1.trans ?_, (h c).2⟩)
      (Cert.KernelIdeal.Hand.run_main (F := Ideal) m ρ)
    rw [Cert.KernelIdeal.Hand.final1]
    funext i
    exact Cert.KernelIdeal.Hand.kernel_out_apply m ρ c (i 0) (i 1) (i 2)
  · refine (θ_run Cert.ReferenceIdeal.defs _ _).mono (fun _ h c => ⟨(h c).1.trans ?_, (h c).2⟩)
      (Cert.ReferenceIdeal.Hand.run (F := Ideal) m' ρ')
    obtain ⟨a0, a1, a2, a3, a4, a5⟩ := hagree c
    rw [a0, a1, a2, a3, a4, a5, Cert.ReferenceIdeal.Hand.out_funext]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
